-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x14x14x2048 : Shape := ⟨4, ![256, 14, 14, 2048]⟩
abbrev S_ : Shape := ⟨0, ![]⟩

class Facts : Prop where
  bcast_S_S256x14x14x2048 : S_.BroadcastsInDim S256x14x14x2048 (![] : Fin 0 → Fin S256x14x14x2048.rank)
  reducesTo_S256x14x14x2048_S_d0_1_2_3 : S256x14x14x2048.ReducesTo [0, 1, 2, 3] S_
  h_S_ : 0 < S_.numel

variable [Facts]

def fn {F : FTy → Type} [FloatOps F] (main_arg0 : FVec F S256x14x14x2048 .f32) : IVec S_ 1 :=
  let main_v0 : FVec F S256x14x14x2048 .f32 := Host.absf main_arg0
  let main_cst : FVec F S_ .f32 := constant S_ .f32 0x7F800000#32
  let main_v1 : FVec F S256x14x14x2048 .f32 := broadcastInDim S256x14x14x2048 ![] bcast_S_S256x14x14x2048 main_cst
  let main_v2 : IVec S256x14x14x2048 1 := cmpf .olt main_v0 main_v1
  let main_c : IVec S_ 1 := constantI S_ 1 1#1
  let main_v3 : IVec S_ 1 := (fun x v => Host.reduce IntOp.andi x v reducesTo_S256x14x14x2048_S_d0_1_2_3 h_S_) main_v2 main_c
  main_v3
-- ==== Kernel.lean ====
abbrev S256x14x14x2048 : Shape := ⟨4, ![256, 14, 14, 2048]⟩
abbrev S256x401408 : Shape := ⟨2, ![256, 401408]⟩
abbrev S49x1x256 : Shape := ⟨3, ![49, 1, 256]⟩
abbrev S49x1x128 : Shape := ⟨3, ![49, 1, 128]⟩
abbrev S256x8192 : Shape := ⟨2, ![256, 8192]⟩
abbrev S1x1x256 : Shape := ⟨3, ![1, 1, 256]⟩
abbrev S1x1x128 : Shape := ⟨3, ![1, 1, 128]⟩
abbrev S8192 : Shape := ⟨1, ![8192]⟩
abbrev S1x8192 : Shape := ⟨2, ![1, 8192]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1x1x1 : Shape := ⟨3, ![1, 1, 1]⟩
abbrev S49x256 : Shape := ⟨2, ![49, 256]⟩
abbrev S_ : Shape := ⟨0, ![]⟩
abbrev S49x1x1 : Shape := ⟨3, ![49, 1, 1]⟩
abbrev S49 : Shape := ⟨1, ![49]⟩

abbrev nBuf : Space → Nat
  | .hbm => 52
  | .vmem => 14
  | .smem => 0
  | _ => 0

abbrev bufTy : (tb : Table) → Fin (tcTables nBuf tb) → BufTy
  | .hbm, ⟨0, _⟩ => ⟨S256x14x14x2048, .f32⟩
  | .hbm, ⟨1, _⟩ => ⟨S256x401408, .f32⟩
  | .hbm, ⟨2, _⟩ => ⟨S49x1x256, .f32⟩
  | .hbm, ⟨3, _⟩ => ⟨S49x1x256, .f32⟩
  | .hbm, ⟨4, _⟩ => ⟨S49x1x256, .f32⟩
  | .hbm, ⟨5, _⟩ => ⟨S49x1x128, .f32⟩
  | .hbm, ⟨6, _⟩ => ⟨S49x1x128, .f32⟩
  | .hbm, ⟨7, _⟩ => ⟨S49x1x128, .f32⟩
  | .hbm, ⟨8, _⟩ => ⟨S49x256, .f32⟩
  | .hbm, ⟨9, _⟩ => ⟨S49x256, .f32⟩
  | .hbm, ⟨10, _⟩ => ⟨S49x256, .f32⟩
  | .hbm, ⟨11, _⟩ => ⟨S_, .f32⟩
  | .hbm, ⟨12, _⟩ => ⟨S256, .f32⟩
  | .hbm, ⟨13, _⟩ => ⟨S1x256, .f32⟩
  | .hbm, ⟨14, _⟩ => ⟨S49x256, .f32⟩
  | .hbm, ⟨15, _⟩ => ⟨S49x256, .f32⟩
  | .hbm, ⟨16, _⟩ => ⟨S49x256, .f32⟩
  | .hbm, ⟨17, _⟩ => ⟨S49x256, .f32⟩
  | .hbm, ⟨18, _⟩ => ⟨S_, .f32⟩
  | .hbm, ⟨19, _⟩ => ⟨S256, .f32⟩
  | .hbm, ⟨20, _⟩ => ⟨S49x256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S49x1x1, .f32⟩
  | .hbm, ⟨32, _⟩ => ⟨S49, .f32⟩
  | .hbm, ⟨33, _⟩ => ⟨S49x1x1, .f32⟩
  | .hbm, ⟨34, _⟩ => ⟨S49, .f32⟩
  | .hbm, ⟨35, _⟩ => ⟨S49x1x1, .f32⟩
  | .hbm, ⟨36, _⟩ => ⟨S49, .f32⟩
  | .hbm, ⟨37, _⟩ => ⟨S_, .f32⟩
  | .hbm, ⟨38, _⟩ => ⟨S_, .f32⟩
  | .hbm, ⟨39, _⟩ => ⟨S49, .f32⟩
  | .hbm, ⟨40, _⟩ => ⟨S49, .f32⟩
  | .hbm, ⟨41, _⟩ => ⟨S49, .f32⟩
  | .hbm, ⟨42, _⟩ => ⟨S49, .f32⟩
  | .hbm, ⟨43, _⟩ => ⟨S_, .f32⟩
  | .hbm, ⟨44, _⟩ => ⟨S_, .f32⟩
  | .hbm, ⟨45, _⟩ => ⟨S49, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | _, _ => ⟨S256x14x14x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256x14x14x2048_S256x401408 : S256x14x14x2048.ShapeCasts S256x401408
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S8192 : S256x8192.Reduces [0] S8192
  shapeCasts_S8192_S1x8192 : S8192.ShapeCasts S1x8192
  reduces_S256x8192_S256 : S256x8192.Reduces [1] S256
  shapeCasts_S256_S256x1 : S256.ShapeCasts S256x1
  broadcasts_S256x1_S256x8192 : S256x1.Broadcasts S256x8192
  transposes_S256x1_p1_0_S1x256 : S256x1.Transposes [1, 0] S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reduces_S1x8192_S1 : S1x8192.Reduces [1] S1
  shapeCasts_S1_S1x1 : S1.ShapeCasts S1x1
  broadcasts_S1x1_S1x8192 : S1x1.Broadcasts S1x8192
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  shapeCasts_S49x1x256_S49x256 : S49x1x256.ShapeCasts S49x256
  reducesTo_S49x256_S256_d0 : S49x256.ReducesTo [0] S256
  h_S_ : 0 < S_.numel
  bcast_S256_S1x256_1 : S256.BroadcastsInDim S1x256 (![1] : Fin 1 → Fin S1x256.rank)
  bcast_S1x256_S49x256_0_1 : S1x256.BroadcastsInDim S49x256 (![0, 1] : Fin 2 → Fin S49x256.rank)
  reducesTo_S256_S_d0 : S256.ReducesTo [0] S_
  slices_S49x1x128_S49x1x1_0_0_0 : S49x1x128.Slices ![0, 0, 0] S49x1x1
  shapeCasts_S49x1x1_S49 : S49x1x1.ShapeCasts S49
  reducesTo_S49_S_d0 : S49.ReducesTo [0] S_
  bcast_S_S49 : S_.BroadcastsInDim S49 (![] : Fin 0 → Fin S49.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x401408.size a
  hwx0_0 : ∀ i : grid0.Coords, EltTy.bits .f32 = 32 ∨ (Rect.block (s := S256x401408) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S49x1x256.size a
  hwx0_1 : ∀ i : grid0.Coords, EltTy.bits .f32 = 32 ∨ (Rect.block (s := S49x1x256) S1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S49x1x256.size a
  hwx0_2 : ∀ i : grid0.Coords, EltTy.bits .f32 = 32 ∨ (Rect.block (s := S49x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S49x1x256.size a
  hwx0_3 : ∀ i : grid0.Coords, EltTy.bits .f32 = 32 ∨ (Rect.block (s := S49x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S49x1x128.size a
  hwx0_4 : ∀ i : grid0.Coords, EltTy.bits .f32 = 32 ∨ (Rect.block (s := S49x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S49x1x128.size a
  hwx0_5 : ∀ i : grid0.Coords, EltTy.bits .f32 = 32 ∨ (Rect.block (s := S49x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S49x1x128.size a
  hwx0_6 : ∀ i : grid0.Coords, EltTy.bits .f32 = 32 ∨ (Rect.block (s := S49x1x128) S1x1x128.size (cc0_transform_6 i) (hinb0_6 i)).WholeWords (EltTy.packing .f32)

variable [Facts₀]

abbrev win0_0 : Pipeline.Window sig grid0 :=
  Pipeline.Window.ofSpec (Memref.whole main_v0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_3) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_4) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_5) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x14x14x2048 : Shape := ⟨4, ![256, 14, 14, 2048]⟩
abbrev S256x401408 : Shape := ⟨2, ![256, 401408]⟩
abbrev S_ : Shape := ⟨0, ![]⟩
abbrev S256 : Shape := ⟨1, ![256]⟩
abbrev S256x1 : Shape := ⟨2, ![256, 1]⟩
abbrev S401408 : Shape := ⟨1, ![401408]⟩
abbrev S1 : Shape := ⟨1, ![1]⟩

abbrev nBuf : Space → Nat
  | .hbm => 49
  | .vmem => 0
  | .smem => 0
  | _ => 0

abbrev bufTy : (tb : Table) → Fin (tcTables nBuf tb) → BufTy
  | .hbm, ⟨0, _⟩ => ⟨S256x14x14x2048, .f32⟩
  | .hbm, ⟨1, _⟩ => ⟨S256x401408, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S256x1, .f32⟩
  | .hbm, ⟨8, _⟩ => ⟨S256x401408, .f32⟩
  | .hbm, ⟨9, _⟩ => ⟨S256x401408, .f32⟩
  | .hbm, ⟨10, _⟩ => ⟨S256x401408, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x1, .f32⟩
  | .hbm, ⟨15, _⟩ => ⟨S256x401408, .f32⟩
  | .hbm, ⟨16, _⟩ => ⟨S256x401408, .f32⟩
  | .hbm, ⟨17, _⟩ => ⟨S256x401408, .f32⟩
  | .hbm, ⟨18, _⟩ => ⟨S256x401408, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S401408, .f32⟩
  | .hbm, ⟨28, _⟩ => ⟨S_, .f32⟩
  | .hbm, ⟨29, _⟩ => ⟨S401408, .f32⟩
  | .hbm, ⟨30, _⟩ => ⟨S401408, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S401408, .f32⟩
  | .hbm, ⟨37, _⟩ => ⟨S401408, .f32⟩
  | .hbm, ⟨38, _⟩ => ⟨S401408, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S401408, .f32⟩
  | .hbm, ⟨44, _⟩ => ⟨S401408, .f32⟩
  | .hbm, ⟨45, _⟩ => ⟨S401408, .f32⟩
  | .hbm, ⟨46, _⟩ => ⟨S401408, .f32⟩
  | .hbm, ⟨47, _⟩ => ⟨S_, .f32⟩
  | .hbm, ⟨48, _⟩ => ⟨S_, .f32⟩
  | _, _ => ⟨S256x14x14x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_cst_1 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_4 : Ref sig .tc := ⟨.hbm, 47, rfl⟩
abbrev main_v14 : Ref sig .tc := ⟨.hbm, 48, rfl⟩

abbrev nD : Nat := 1
abbrev τ : Topo := Topo.v7x

variable {F : FTy → Type} [FloatOps F]

class Facts₀ : Prop where
  shapeCasts_S256x14x14x2048_S256x401408 : S256x14x14x2048.ShapeCasts S256x401408
  reducesTo_S256x401408_S256_d1 : S256x401408.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x401408_0_1 : S256x1.BroadcastsInDim S256x401408 (![0, 1] : Fin 2 → Fin S256x401408.rank)
  reducesTo_S256_S_d0 : S256.ReducesTo [0] S_
  reducesTo_S256x401408_S401408_d0 : S256x401408.ReducesTo [0] S401408
  bcast_S_S401408 : S_.BroadcastsInDim S401408 (![] : Fin 0 → Fin S401408.rank)
  reducesTo_S401408_S_d0 : S401408.ReducesTo [0] S_
  bcast_S_S1 : S_.BroadcastsInDim S1 (![] : Fin 0 → Fin S1.rank)
  bcast_S1_S401408_0 : S1.BroadcastsInDim S401408 (![0] : Fin 1 → Fin S401408.rank)

variable [Facts₀]

class Facts : Prop extends Facts₀ where

variable [Facts]
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.LibColumnLayout.lean ====
/-
  A vector `[a]` placed as the one column of `[a, 1]`, read at one entry: by a reshape (a shape cast) and by the
  host's `broadcast_in_dim` along `[0]`. Either way entry `(p, u)` is the vector's entry `p`, whatever the unit
  coordinate `u`. Generic extent and element type.
-/
import Idealize.ShloMosaic.Lib.ValueLayout
import Idealize.ShloMosaic.Lib.Pipeline.Value

namespace Idealize.ShloMosaic.ValueIdx

variable {α : Type}

/-- An `[a]` array cast to `[a, 1]` reads, at `(p, u)`, the operand at `p`: the row-major position of `(p, u)` is
    `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's placing of an `[a]` vector as the column of `[a, 1]` (along `[0]`) reads, at `(p, u)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Idealize.ShloMosaic.ValueIdx
-- ==== Proof.TilePayload.lean ====
import proofs.«169014_j74002286510759_2_alg».proof.Proof.Gen.KernelIdeal.Skeleton
import proofs.«169014_j74002286510759_2_alg».proof.Proof.LibBroadcastEntry
import proofs.«169014_j74002286510759_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

/-!
# What one grid step computes from its block, entry by entry

One grid step loads a block `x0` of 256 rows and 8192 columns and stores six small vectors. For each row `r` of the block:
the row's largest entry `rmax r`, the sum `Σⱼ exp (x0[r,j] - rmax r)` and the weighted sum
`Σⱼ exp (x0[r,j] - rmax r) · (x0[r,j] - rmax r) + rmax r · Σⱼ exp (x0[r,j] - rmax r)`. For the block's column means
`a j = (Σᵣ x0[r,j]) · 2⁻⁸` the same three numbers of the one row `a`, each replicated over 128 lanes. This module reads the six
stored vectors at an entry as those formulas.
-/

noncomputable section

namespace Cert.KernelIdeal.Tile

open Cert.KernelIdeal Cert.KernelIdeal.Gen Idealize.ShloMosaic Idealize.ShloMosaic.ValueIdx

/-- The f32 word `0xFF800000` denotes -∞. -/
theorem ofBits_neg_inf : Ideal.ofBits .f32 0xFF800000#32 = (⊥ : EReal) := by
  simp [Ideal.ofBits, Ideal.ieee]

/-! ## The reductions of a matrix along one axis, at an entry -/

/-- Putting column `k` back into the reduced index `r` of an `[a, b]` matrix reduced along its columns gives `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Putting row `k` back into the reduced index `j` of an `[a, b]` matrix reduced along its rows gives `(k, j)`. -/
theorem lift_axis0 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The row maximum of an `[a, b]` matrix started from -∞, at row `r`: the running maximum of the row's entries. -/
theorem rowMax_apply {a b : ℕ} (v : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = Finset.univ.fold max (⊥ : EReal) (fun j : Fin b => v (ix2 r j)) := by
  refine (Ideal.multiReduction_maximumf_single v _ h hφ hacc (ix1 r)).trans ?_
  have hf : (v ∘ h.lift (ix1 r)) = fun j : Fin b => v (ix2 r j) := funext fun k => congrArg v (lift_axis1 h r k)
  have hb : (FloatOps.ofBits (F := Ideal) .f32 0xFF800000#32 : EReal) = ⊥ := ofBits_neg_inf
  rw [hb]
  exact congrArg (fun f => Finset.fold max (⊥ : EReal) f (Finset.univ : Finset (Fin b))) hf

/-- The row sum of an `[a, b]` matrix started from 0, at row `r`. -/
theorem rowSum_apply {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (r : Fin a) :
    multiReduction .add [1] ⟨1, ![a]⟩ v 0x00000000#32 h hφ hacc (ix1 r) = ∑ j : Fin b, v (ix2 r j) := by
  refine (Ideal.multiReduction_add_single v _ h hφ hacc (ix1 r)).trans ?_
  exact Finset.sum_congr rfl fun k _ => congrArg v (lift_axis1 h r k)

/-- The column sum of an `[a, b]` matrix started from 0, at column `j`. -/
theorem colSum_apply {a b : ℕ} (v : FVec Ideal ⟨2, ![a, b]⟩ .f32) (h : (⟨2, ![a, b]⟩ : Shape).Reduces [0] (⟨1, ![b]⟩ : Shape))
    (hφ : FKind.Formats .f32) (hacc : (0x00000000#32 : BitVec 32) = FKind.add.neutral .f32 hφ) (j : Fin b) :
    multiReduction .add [0] ⟨1, ![b]⟩ v 0x00000000#32 h hφ hacc (ix1 j) = ∑ r : Fin a, v (ix2 r j) := by
  refine (Ideal.multiReduction_add_single v _ h hφ hacc (ix1 j)).trans ?_
  exact Finset.sum_congr rfl fun k _ => congrArg v (lift_axis0 h j k)

/-! ## The block's per-row statistics -/

/-- The largest entry of row `r` of the block (a running maximum started from -∞). -/
def rmax (x0 : Vec Ideal S256x8192 .f32) (r : Fin 256) : EReal :=
  Finset.univ.fold max (⊥ : EReal) (fun j : Fin 8192 => x0 (ix2 r j))

/-- The block read whole is the block. -/
theorem pay4_eq (x0 : Vec Ideal S256x8192 .f32) : k0_pay4 (F := Ideal) x0 = x0 := by
  unfold k0_pay4
  exact shapeCast_self _ _

/-- The column of row maxima. -/
theorem pay5_apply (x0 : Vec Ideal S256x8192 .f32) (r : Fin 256) (u : Fin 1) :
    k0_pay5 (F := Ideal) x0 (ix2 r u) = rmax x0 r := by
  unfold k0_pay5
  refine (shapeCast_a_a1_apply _ _ r u).trans ?_
  rw [pay4_eq]
  exact rowMax_apply x0 _ _ _ r

/-- Each entry minus its row's maximum. -/
theorem pay6_apply (x0 : Vec Ideal S256x8192 .f32) (r : Fin 256) (j : Fin 8192) :
    k0_pay6 (F := Ideal) x0 (ix2 r j) = x0 (ix2 r j) - rmax x0 r := by
  unfold k0_pay6
  show k0_pay4 (F := Ideal) x0 (ix2 r j) - broadcastTo S256x8192 (k0_pay5 (F := Ideal) x0) broadcasts_S256x1_S256x8192 (ix2 r j) = _
  rw [pay4_eq, broadcastTo_a1_ab_apply, pay5_apply]

/-- Its exponential. -/
theorem pay7_apply (x0 : Vec Ideal S256x8192 .f32) (r : Fin 256) (j : Fin 8192) :
    k0_pay7 (F := Ideal) x0 (ix2 r j) = Ideal.exp (x0 (ix2 r j) - rmax x0 r) := by
  unfold k0_pay7
  show Ideal.exp (k0_pay6 (F := Ideal) x0 (ix2 r j)) = _
  rw [pay6_apply]

/-- The column of row sums of the exponentials. -/
theorem pay8_apply (x0 : Vec Ideal S256x8192 .f32) (r : Fin 256) (u : Fin 1) :
    k0_pay8 (F := Ideal) x0 (ix2 r u) = ∑ j : Fin 8192, Ideal.exp (x0 (ix2 r j) - rmax x0 r) := by
  unfold k0_pay8
  refine (shapeCast_a_a1_apply _ _ r u).trans ?_
  refine (rowSum_apply _ _ _ _ r).trans ?_
  exact Finset.sum_congr rfl fun j _ => pay7_apply x0 r j

/-- The first stored vector: the row maxima, laid along the lanes. -/
theorem pay9_apply (x0 : Vec Ideal S256x8192 .f32) (a b : Fin 1) (r : Fin 256) :
    k0_pay9 (F := Ideal) x0 (ix3 a b r) = rmax x0 r := by
  unfold k0_pay9
  refine (shapeCast_ab_1ab_apply _ _ a b r).trans ?_
  refine (transpose_ix2_apply _ _ b r).trans ?_
  exact pay5_apply x0 r b

/-- The second stored vector: the row sums of the exponentials. -/
theorem pay10_apply (x0 : Vec Ideal S256x8192 .f32) (a b : Fin 1) (r : Fin 256) :
    k0_pay10 (F := Ideal) x0 (ix3 a b r) = ∑ j : Fin 8192, Ideal.exp (x0 (ix2 r j) - rmax x0 r) := by
  unfold k0_pay10
  refine (shapeCast_ab_1ab_apply _ _ a b r).trans ?_
  refine (transpose_ix2_apply _ _ b r).trans ?_
  exact pay8_apply x0 r b

/-- The row sums of the exponentials weighted by the shifted entries. -/
theorem wsum_apply (x0 : Vec Ideal S256x8192 .f32) (r : Fin 256) (u : Fin 1) :
    shapeCast S256x1 (multiReduction .add [1] S256 (mulf (k0_pay7 (F := Ideal) x0) (k0_pay6 (F := Ideal) x0)) 0x00000000#32
        reduces_S256x8192_S256 (.inl rfl) rfl) shapeCasts_S256_S256x1 (ix2 r u)
      = ∑ j : Fin 8192, Ideal.exp (x0 (ix2 r j) - rmax x0 r) * (x0 (ix2 r j) - rmax x0 r) := by
  refine (shapeCast_a_a1_apply _ _ r u).trans ?_
  refine (rowSum_apply _ _ _ _ r).trans ?_
  refine Finset.sum_congr rfl fun j _ => ?_
  show k0_pay7 (F := Ideal) x0 (ix2 r j) * k0_pay6 (F := Ideal) x0 (ix2 r j) = _
  rw [pay7_apply, pay6_apply]

/-- The third stored vector: the weighted row sums, shifted back by the maximum. -/
theorem pay11_apply (x0 : Vec Ideal S256x8192 .f32) (a b : Fin 1) (r : Fin 256) :
    k0_pay11 (F := Ideal) x0 (ix3 a b r)
      = (∑ j : Fin 8192, Ideal.exp (x0 (ix2 r j) - rmax x0 r) * (x0 (ix2 r j) - rmax x0 r))
          + rmax x0 r * ∑ j : Fin 8192, Ideal.exp (x0 (ix2 r j) - rmax x0 r) := by
  unfold k0_pay11
  refine (shapeCast_ab_1ab_apply _ _ a b r).trans ?_
  refine (transpose_ix2_apply _ _ b r).trans ?_
  refine (addf_apply _ _ _).trans ?_
  refine congrArg₂ (fun p q : EReal => p + q) (wsum_apply x0 r b) ?_
  refine (mulf_apply _ _ _).trans ?_
  exact congrArg₂ (fun p q : EReal => p * q) (pay5_apply x0 r b) (pay8_apply x0 r b)

/-! ## The block's column means and their statistics -/

/-- The scale the column sums are multiplied by (the f32 word of 2⁻⁸). -/
def cInv : EReal := Scalar.ofBits (F := Ideal) .f32 0x3B800000#32

/-- The mean of column `j` of the block: the column sum times 2⁻⁸. -/
def acol (x0 : Vec Ideal S256x8192 .f32) (j : Fin 8192) : EReal := (∑ r : Fin 256, x0 (ix2 r j)) * cInv

/-- The largest column mean of the block (a running maximum started from -∞). -/
def amax (x0 : Vec Ideal S256x8192 .f32) : EReal := Finset.univ.fold max (⊥ : EReal) (fun j : Fin 8192 => acol x0 j)

/-- The row of column means. -/
theorem pay12_apply (x0 : Vec Ideal S256x8192 .f32) (u : Fin 1) (j : Fin 8192) :
    k0_pay12 (F := Ideal) x0 (ix2 u j) = acol x0 j := by
  unfold k0_pay12
  refine (mulf_apply _ _ _).trans ?_
  refine congrArg₂ (fun p q : EReal => p * q) ?_ rfl
  refine (shapeCast_a_1a_apply _ _ u j).trans ?_
  rw [pay4_eq]
  exact colSum_apply x0 _ _ _ j

/-- Their maximum. -/
theorem pay13_apply (x0 : Vec Ideal S256x8192 .f32) (u v : Fin 1) :
    k0_pay13 (F := Ideal) x0 (ix2 u v) = amax x0 := by
  unfold k0_pay13
  refine (shapeCast_a_1a_apply _ _ u v).trans ?_
  refine (rowMax_apply _ _ _ _ v).trans ?_
  exact congrArg (fun f => Finset.fold max (⊥ : EReal) f (Finset.univ : Finset (Fin 8192))) (funext fun j => pay12_apply x0 v j)

/-- Each column mean minus the maximum. -/
theorem pay14_apply (x0 : Vec Ideal S256x8192 .f32) (u : Fin 1) (j : Fin 8192) :
    k0_pay14 (F := Ideal) x0 (ix2 u j) = acol x0 j - amax x0 := by
  unfold k0_pay14
  show k0_pay12 (F := Ideal) x0 (ix2 u j) - broadcastTo S1x8192 (k0_pay13 (F := Ideal) x0) broadcasts_S1x1_S1x8192 (ix2 u j) = _
  rw [pay12_apply, broadcastTo_a1_ab_apply, pay13_apply]

/-- Its exponential. -/
theorem pay15_apply (x0 : Vec Ideal S256x8192 .f32) (u : Fin 1) (j : Fin 8192) :
    k0_pay15 (F := Ideal) x0 (ix2 u j) = Ideal.exp (acol x0 j - amax x0) := by
  unfold k0_pay15
  show Ideal.exp (k0_pay14 (F := Ideal) x0 (ix2 u j)) = _
  rw [pay14_apply]

/-- The sum of the exponentials. -/
theorem pay16_apply (x0 : Vec Ideal S256x8192 .f32) (u v : Fin 1) :
    k0_pay16 (F := Ideal) x0 (ix2 u v) = ∑ j : Fin 8192, Ideal.exp (acol x0 j - amax x0) := by
  unfold k0_pay16
  refine (shapeCast_a_1a_apply _ _ u v).trans ?_
  refine (rowSum_apply _ _ _ _ v).trans ?_
  exact Finset.sum_congr rfl fun j _ => pay15_apply x0 v j

/-- The sum of the exponentials weighted by the shifted means. -/
theorem pay17_apply (x0 : Vec Ideal S256x8192 .f32) (u v : Fin 1) :
    k0_pay17 (F := Ideal) x0 (ix2 u v) = ∑ j : Fin 8192, Ideal.exp (acol x0 j - amax x0) * (acol x0 j - amax x0) := by
  unfold k0_pay17
  refine (shapeCast_a_1a_apply _ _ u v).trans ?_
  refine (rowSum_apply _ _ _ _ v).trans ?_
  refine Finset.sum_congr rfl fun j _ => ?_
  show k0_pay15 (F := Ideal) x0 (ix2 v j) * k0_pay14 (F := Ideal) x0 (ix2 v j) = _
  rw [pay15_apply, pay14_apply]

/-- One number replicated over the 128 lanes reads, in every lane, that number. -/
theorem lanes_apply (w : FVec Ideal S1x1 .f32) (a b : Fin 1) (l : Fin 128) :
    broadcastTo S1x1x128 (shapeCast S1x1x1 w shapeCasts_S1x1_S1x1x1) broadcasts_S1x1x1_S1x1x128 (ix3 a b l)
      = w (ix2 (0 : Fin 1) (0 : Fin 1)) := by
  refine (broadcastTo_apply _ _ (ix3 a b l) (ix3 (0 : Fin 1) (0 : Fin 1) (0 : Fin 1)) fun ax => ?_).trans ?_
  · match ax with
    | ⟨0, _⟩ => rfl
    | ⟨1, _⟩ => rfl
    | ⟨2, _⟩ => rfl
  · exact shapeCast_ab_1ab_apply _ _ (0 : Fin 1) (0 : Fin 1) (0 : Fin 1)

/-- The fourth stored vector: the largest column mean in every lane. -/
theorem store4_apply (x0 : Vec Ideal S256x8192 .f32) (a b : Fin 1) (l : Fin 128) :
    k0_pay1 (F := Ideal) (k0_pay13 (F := Ideal) x0) (ix3 a b l) = amax x0 := by
  unfold k0_pay1
  exact (lanes_apply _ a b l).trans (pay13_apply x0 0 0)

/-- The fifth stored vector: the sum of the exponentials in every lane. -/
theorem store5_apply (x0 : Vec Ideal S256x8192 .f32) (a b : Fin 1) (l : Fin 128) :
    k0_pay2 (F := Ideal) (k0_pay16 (F := Ideal) x0) (ix3 a b l) = ∑ j : Fin 8192, Ideal.exp (acol x0 j - amax x0) := by
  unfold k0_pay2
  exact (lanes_apply _ a b l).trans (pay16_apply x0 0 0)

/-- The sixth stored vector: the weighted sum shifted back by the maximum, in every lane. -/
theorem store6_apply (x0 : Vec Ideal S256x8192 .f32) (a b : Fin 1) (l : Fin 128) :
    k0_pay3 (F := Ideal) (k0_pay13 (F := Ideal) x0) (k0_pay16 (F := Ideal) x0) (k0_pay17 (F := Ideal) x0) (ix3 a b l)
      = (∑ j : Fin 8192, Ideal.exp (acol x0 j - amax x0) * (acol x0 j - amax x0))
          + amax x0 * ∑ j : Fin 8192, Ideal.exp (acol x0 j - amax x0) := by
  unfold k0_pay3
  refine (lanes_apply _ a b l).trans ?_
  refine (addf_apply _ _ _).trans ?_
  refine congrArg₂ (fun p q : EReal => p + q) (pay17_apply x0 0 0) ?_
  refine (mulf_apply _ _ _).trans ?_
  exact congrArg₂ (fun p q : EReal => p * q) (pay13_apply x0 0 0) (pay16_apply x0 0 0)

end Cert.KernelIdeal.Tile

end
-- ==== Proof.Cols.lean ====
/-!
# Columns of a chunk

A row of 401408 entries is cut into 49 chunks of 8192: column `j` of chunk `g` is column `8192 g + j` of the row.
-/

namespace EntropyCols

/-- Column `j` of chunk `g` is column `8192 g + j` of the row. -/
def col (g : Fin 49) (j : Fin 8192) : Fin 401408 := ⟨g.val * 8192 + j.val, by omega⟩

end EntropyCols
-- ==== Proof.KernelValue.lean ====
import proofs.«169014_j74002286510759_2_alg».proof.Proof.Gen.KernelIdeal.Frame
import proofs.«169014_j74002286510759_2_alg».proof.Proof.TilePayload
import proofs.«169014_j74002286510759_2_alg».proof.Proof.Cols
import Idealize.ShloMosaic.Lib.Pipeline.Value
import Idealize.ShloMosaic.Lib.Tactic

/-!
# The six arrays of per-chunk statistics, as whole-array functions of the matrix

The matrix `X` has 256 rows and 401408 = 49 · 8192 columns; grid point `g` reads the block of all rows and columns
`8192 g … 8192 g + 8191` and writes entry block `g` of six small arrays. This module says what each of the six arrays holds
after all 49 grid points: at `(g, 0, r)` (or `(g, 0, lane)`) the statistic of block `g` that one grid step computes.
-/

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Tile EntropyCols

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Chunk `g` of the matrix, as a block of 256 rows and 8192 columns. -/
def tile (X : S256x401408.Idx → EReal) (g : Fin 49) : Vec Ideal S256x8192 .f32 :=
  fun z => X (ix2 (⟨(z 0).val, (z 0).isLt⟩ : Fin 256) (col g ⟨(z 1).val, (z 1).isLt⟩))

theorem tile_apply (X : S256x401408.Idx → EReal) (g : Fin 49) (r : Fin 256) (j : Fin 8192) :
    tile X g (ix2 r j) = X (ix2 r (col g j)) := rfl

/-- The grid point as a chunk number. -/
def tg (t : Fin cfg0.N) : Fin 49 := ⟨t.val, lt_of_lt_of_eq t.isLt N_0⟩

/-- The six arrays. -/
def K1 (X : S256x401408.Idx → EReal) : S49x1x256.Idx → EReal :=
  fun i => rmax (tile X ⟨(i 0).val, (i 0).isLt⟩) ⟨(i 2).val, (i 2).isLt⟩
def K2 (X : S256x401408.Idx → EReal) : S49x1x256.Idx → EReal :=
  fun i => ∑ j : Fin 8192, Ideal.exp (tile X ⟨(i 0).val, (i 0).isLt⟩ (ix2 (⟨(i 2).val, (i 2).isLt⟩ : Fin 256) j)
    - rmax (tile X ⟨(i 0).val, (i 0).isLt⟩) ⟨(i 2).val, (i 2).isLt⟩)
def K3 (X : S256x401408.Idx → EReal) : S49x1x256.Idx → EReal :=
  fun i => (∑ j : Fin 8192, Ideal.exp (tile X ⟨(i 0).val, (i 0).isLt⟩ (ix2 (⟨(i 2).val, (i 2).isLt⟩ : Fin 256) j)
        - rmax (tile X ⟨(i 0).val, (i 0).isLt⟩) ⟨(i 2).val, (i 2).isLt⟩)
      * (tile X ⟨(i 0).val, (i 0).isLt⟩ (ix2 (⟨(i 2).val, (i 2).isLt⟩ : Fin 256) j)
        - rmax (tile X ⟨(i 0).val, (i 0).isLt⟩) ⟨(i 2).val, (i 2).isLt⟩))
    + rmax (tile X ⟨(i 0).val, (i 0).isLt⟩) ⟨(i 2).val, (i 2).isLt⟩
      * ∑ j : Fin 8192, Ideal.exp (tile X ⟨(i 0).val, (i 0).isLt⟩ (ix2 (⟨(i 2).val, (i 2).isLt⟩ : Fin 256) j)
        - rmax (tile X ⟨(i 0).val, (i 0).isLt⟩) ⟨(i 2).val, (i 2).isLt⟩)
def K4 (X : S256x401408.Idx → EReal) : S49x1x128.Idx → EReal :=
  fun i => amax (tile X ⟨(i 0).val, (i 0).isLt⟩)
def K5 (X : S256x401408.Idx → EReal) : S49x1x128.Idx → EReal :=
  fun i => ∑ j : Fin 8192, Ideal.exp (acol (tile X ⟨(i 0).val, (i 0).isLt⟩) j - amax (tile X ⟨(i 0).val, (i 0).isLt⟩))
def K6 (X : S256x401408.Idx → EReal) : S49x1x128.Idx → EReal :=
  fun i => (∑ j : Fin 8192, Ideal.exp (acol (tile X ⟨(i 0).val, (i 0).isLt⟩) j - amax (tile X ⟨(i 0).val, (i 0).isLt⟩))
      * (acol (tile X ⟨(i 0).val, (i 0).isLt⟩) j - amax (tile X ⟨(i 0).val, (i 0).isLt⟩)))
    + amax (tile X ⟨(i 0).val, (i 0).isLt⟩)
      * ∑ j : Fin 8192, Ideal.exp (acol (tile X ⟨(i 0).val, (i 0).isLt⟩) j - amax (tile X ⟨(i 0).val, (i 0).isLt⟩))

/-- The input window's index map: block (0, t). -/
theorem idx_in : ∀ t : Fin cfg0.N, win0_0.index t (0 : Fin 2) = 0 ∧ win0_0.index t (1 : Fin 2) = t.val :=
  (by decide +kernel : ∀ t : Fin grid0.N, _)

/-- The input block of grid point `t` is chunk `t` of the matrix. -/
theorem iblk_eq_tile (c : Dev nD) (t : Fin cfg0.N) : iblk m c 0 t = tile (V m c main_v0) (tg t) := by
  obtain ⟨e0, e1⟩ := idx_in t
  funext z
  unfold iblk
  rw [View.read_apply]
  show V m c main_v0 _ = V m c main_v0 _
  refine congrArg (V m c main_v0) ?_
  funext ax; apply Fin.ext
  match ax with
  | ⟨0, _⟩ => show win0_0.index t (0 : Fin 2) * 256 + 1 * (z 0).val = (z 0).val; rw [e0]; omega
  | ⟨1, _⟩ => show win0_0.index t (1 : Fin 2) * 8192 + 1 * (z 1).val = t.val * 8192 + (z 1).val; rw [e1]; omega

theorem idx_out1 : ∀ t : Fin cfg0.N, win0_1.index t (0 : Fin 3) = t.val ∧ win0_1.index t (1 : Fin 3) = 0 ∧ win0_1.index t (2 : Fin 3) = 0 :=
  (by decide +kernel : ∀ t : Fin grid0.N, _)

theorem emb1_eq (t : Fin cfg0.N) (a b : Fin 1) (r : Fin 256) :
    ((cfg0.win 1).blk t).view.emb (ix3 a b r) = ix3 (tg t) (0 : Fin 1) r := by
  obtain ⟨e0, e1, e2⟩ := idx_out1 t
  have ha : a.val = 0 := by omega
  have hb : b.val = 0 := by omega
  funext ax; apply Fin.ext
  match ax with
  | ⟨0, _⟩ => show win0_1.index t (0 : Fin 3) * 1 + 1 * a.val = t.val; rw [e0, ha]; omega
  | ⟨1, _⟩ => show win0_1.index t (1 : Fin 3) * 1 + 1 * b.val = 0; rw [e1, hb]
  | ⟨2, _⟩ => show win0_1.index t (2 : Fin 3) * 256 + 1 * r.val = r.val; rw [e2]; omega

theorem idx_out2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb2_eq (t : Fin cfg0.N) (a b : Fin 1) (r : Fin 256) :
    ((cfg0.win 2).blk t).view.emb (ix3 a b r) = ix3 (tg t) (0 : Fin 1) r := by
  obtain ⟨e0, e1, e2⟩ := idx_out2 t
  have ha : a.val = 0 := by omega
  have hb : b.val = 0 := by omega
  funext ax; apply Fin.ext
  match ax with
  | ⟨0, _⟩ => show win0_2.index t (0 : Fin 3) * 1 + 1 * a.val = t.val; rw [e0, ha]; omega
  | ⟨1, _⟩ => show win0_2.index t (1 : Fin 3) * 1 + 1 * b.val = 0; rw [e1, hb]
  | ⟨2, _⟩ => show win0_2.index t (2 : Fin 3) * 256 + 1 * r.val = r.val; rw [e2]; omega

theorem idx_out3 : ∀ t : Fin cfg0.N, win0_3.index t (0 : Fin 3) = t.val ∧ win0_3.index t (1 : Fin 3) = 0 ∧ win0_3.index t (2 : Fin 3) = 0 :=
  (by decide +kernel : ∀ t : Fin grid0.N, _)

theorem emb3_eq (t : Fin cfg0.N) (a b : Fin 1) (r : Fin 256) :
    ((cfg0.win 3).blk t).view.emb (ix3 a b r) = ix3 (tg t) (0 : Fin 1) r := by
  obtain ⟨e0, e1, e2⟩ := idx_out3 t
  have ha : a.val = 0 := by omega
  have hb : b.val = 0 := by omega
  funext ax; apply Fin.ext
  match ax with
  | ⟨0, _⟩ => show win0_3.index t (0 : Fin 3) * 1 + 1 * a.val = t.val; rw [e0, ha]; omega
  | ⟨1, _⟩ => show win0_3.index t (1 : Fin 3) * 1 + 1 * b.val = 0; rw [e1, hb]
  | ⟨2, _⟩ => show win0_3.index t (2 : Fin 3) * 256 + 1 * r.val = r.val; rw [e2]; omega

theorem idx_out4 : ∀ t : Fin cfg0.N, win0_4.index t (0 : Fin 3) = t.val ∧ win0_4.index t (1 : Fin 3) = 0 ∧ win0_4.index t (2 : Fin 3) = 0 :=
  (by decide +kernel : ∀ t : Fin grid0.N, _)

theorem emb4_eq (t : Fin cfg0.N) (a b : Fin 1) (r : Fin 128) :
    ((cfg0.win 4).blk t).view.emb (ix3 a b r) = ix3 (tg t) (0 : Fin 1) r := by
  obtain ⟨e0, e1, e2⟩ := idx_out4 t
  have ha : a.val = 0 := by omega
  have hb : b.val = 0 := by omega
  funext ax; apply Fin.ext
  match ax with
  | ⟨0, _⟩ => show win0_4.index t (0 : Fin 3) * 1 + 1 * a.val = t.val; rw [e0, ha]; omega
  | ⟨1, _⟩ => show win0_4.index t (1 : Fin 3) * 1 + 1 * b.val = 0; rw [e1, hb]
  | ⟨2, _⟩ => show win0_4.index t (2 : Fin 3) * 128 + 1 * r.val = r.val; rw [e2]; omega

theorem idx_out5 : ∀ t : Fin cfg0.N, win0_5.index t (0 : Fin 3) = t.val ∧ win0_5.index t (1 : Fin 3) = 0 ∧ win0_5.index t (2 : Fin 3) = 0 :=
  (by decide +kernel : ∀ t : Fin grid0.N, _)

theorem emb5_eq (t : Fin cfg0.N) (a b : Fin 1) (r : Fin 128) :
    ((cfg0.win 5).blk t).view.emb (ix3 a b r) = ix3 (tg t) (0 : Fin 1) r := by
  obtain ⟨e0, e1, e2⟩ := idx_out5 t
  have ha : a.val = 0 := by omega
  have hb : b.val = 0 := by omega
  funext ax; apply Fin.ext
  match ax with
  | ⟨0, _⟩ => show win0_5.index t (0 : Fin 3) * 1 + 1 * a.val = t.val; rw [e0, ha]; omega
  | ⟨1, _⟩ => show win0_5.index t (1 : Fin 3) * 1 + 1 * b.val = 0; rw [e1, hb]
  | ⟨2, _⟩ => show win0_5.index t (2 : Fin 3) * 128 + 1 * r.val = r.val; rw [e2]; omega

theorem idx_out6 : ∀ t : Fin cfg0.N, win0_6.index t (0 : Fin 3) = t.val ∧ win0_6.index t (1 : Fin 3) = 0 ∧ win0_6.index t (2 : Fin 3) = 0 :=
  (by decide +kernel : ∀ t : Fin grid0.N, _)

theorem emb6_eq (t : Fin cfg0.N) (a b : Fin 1) (r : Fin 128) :
    ((cfg0.win 6).blk t).view.emb (ix3 a b r) = ix3 (tg t) (0 : Fin 1) r := by
  obtain ⟨e0, e1, e2⟩ := idx_out6 t
  have ha : a.val = 0 := by omega
  have hb : b.val = 0 := by omega
  funext ax; apply Fin.ext
  match ax with
  | ⟨0, _⟩ => show win0_6.index t (0 : Fin 3) * 1 + 1 * a.val = t.val; rw [e0, ha]; omega
  | ⟨1, _⟩ => show win0_6.index t (1 : Fin 3) * 1 + 1 * b.val = 0; rw [e1, hb]
  | ⟨2, _⟩ => show win0_6.index t (2 : Fin 3) * 128 + 1 * r.val = r.val; rw [e2]; omega

/-- What grid point `t` writes back through output window 1 is block `t` of `K1`. -/
theorem flushed1_eq (c : Dev nD) (t : Fin cfg0.N) :
    (dats m 0 c).flushed 1 t = ((cfg0.win 1).blk t).view.read (Elt Ideal) (K1 (V m c main_v0)) := by
  show (cfg0.win 1).cut (grid0.coords t) ((dats m 0 c).after 1 t) = _
  rw [after0_1]
  unfold out0_1
  rw [View.canon_unit_zero hz3]
  simp only [View.ld_unit_zero (S := S256x8192) hz2]
  rw [iblk_eq_tile m c t]
  funext y
  obtain ⟨a, b, r, rfl⟩ : ∃ (a b : Fin 1) (r : Fin 256), y = ix3 a b r := ⟨y 0, y 1, y 2, eq_ix3 y⟩
  show _ = K1 (V m c main_v0) (((cfg0.win 1).blk t).view.emb (ix3 a b r))
  rw [emb1_eq t a b r]
  exact pay9_apply _ a b r

/-- Every entry of the array of window 1 lies in the block of the grid point named by its first coordinate. -/
theorem cover1 (i : S49x1x256.Idx) : ∃ t : Fin cfg0.N, (cfg0.win 1).flush t = true ∧ i ∈ ((cfg0.win 1).blk t).view.set := by
  have h0 : (i 0).val < 49 := (i 0).isLt
  have h1 : (i 1).val < 1 := (i 1).isLt
  have h2 : (i 2).val < 256 := (i 2).isLt
  obtain ⟨t0, ht0⟩ : ∃ t0 : Fin cfg0.N, t0.val = (i 0).val := ⟨⟨(i 0).val, lt_of_lt_of_eq h0 N_0.symm⟩, rfl⟩
  refine ⟨t0, flush0_1 t0, ?_⟩
  obtain ⟨e0, e1, e2⟩ := idx_out1 t0
  show i ∈ ((View.whole main_v1_0).slice (win0_1.rect t0)).set
  rw [View.set_slice_whole, Rect.mem_set_unit]
  intro ax
  match ax with
  | ⟨0, _⟩ => show win0_1.index t0 (0 : Fin 3) * 1 ≤ (i 0).val ∧ (i 0).val < win0_1.index t0 (0 : Fin 3) * 1 + 1; rw [e0, ht0]; omega
  | ⟨1, _⟩ => show win0_1.index t0 (1 : Fin 3) * 1 ≤ (i 1).val ∧ (i 1).val < win0_1.index t0 (1 : Fin 3) * 1 + 1; rw [e1]; omega
  | ⟨2, _⟩ => show win0_1.index t0 (2 : Fin 3) * 256 ≤ (i 2).val ∧ (i 2).val < win0_1.index t0 (2 : Fin 3) * 256 + 256; rw [e2]; omega

/-- So the array of window 1 ends holding `K1` of the matrix. -/
theorem final1 (c : Dev nD) : (dats m 0 c).arrAt 1 cfg0.N = K1 (V m c main_v0) :=
  (dats m 0 c).arrAt_eq_of_cover 1 (K1 (V m c main_v0)) (fun t _ => flushed1_eq m c t) cover1

/-- What grid point `t` writes back through output window 2 is block `t` of `K2`. -/
theorem flushed2_eq (c : Dev nD) (t : Fin cfg0.N) :
    (dats m 0 c).flushed 2 t = ((cfg0.win 2).blk t).view.read (Elt Ideal) (K2 (V m c main_v0)) := by
  show (cfg0.win 2).cut (grid0.coords t) ((dats m 0 c).after 2 t) = _
  rw [after0_2]
  unfold out0_2
  rw [View.canon_unit_zero hz3]
  simp only [View.ld_unit_zero (S := S256x8192) hz2]
  rw [iblk_eq_tile m c t]
  funext y
  obtain ⟨a, b, r, rfl⟩ : ∃ (a b : Fin 1) (r : Fin 256), y = ix3 a b r := ⟨y 0, y 1, y 2, eq_ix3 y⟩
  show _ = K2 (V m c main_v0) (((cfg0.win 2).blk t).view.emb (ix3 a b r))
  rw [emb2_eq t a b r]
  exact pay10_apply _ a b r

/-- Every entry of the array of window 2 lies in the block of the grid point named by its first coordinate. -/
theorem cover2 (i : S49x1x256.Idx) : ∃ t : Fin cfg0.N, (cfg0.win 2).flush t = true ∧ i ∈ ((cfg0.win 2).blk t).view.set := by
  have h0 : (i 0).val < 49 := (i 0).isLt
  have h1 : (i 1).val < 1 := (i 1).isLt
  have h2 : (i 2).val < 256 := (i 2).isLt
  obtain ⟨t0, ht0⟩ : ∃ t0 : Fin cfg0.N, t0.val = (i 0).val := ⟨⟨(i 0).val, lt_of_lt_of_eq h0 N_0.symm⟩, rfl⟩
  refine ⟨t0, flush0_2 t0, ?_⟩
  obtain ⟨e0, e1, e2⟩ := idx_out2 t0
  show i ∈ ((View.whole main_v1_1).slice (win0_2.rect t0)).set
  rw [View.set_slice_whole, Rect.mem_set_unit]
  intro ax
  match ax with
  | ⟨0, _⟩ => show win0_2.index t0 (0 : Fin 3) * 1 ≤ (i 0).val ∧ (i 0).val < win0_2.index t0 (0 : Fin 3) * 1 + 1; rw [e0, ht0]; omega
  | ⟨1, _⟩ => show win0_2.index t0 (1 : Fin 3) * 1 ≤ (i 1).val ∧ (i 1).val < win0_2.index t0 (1 : Fin 3) * 1 + 1; rw [e1]; omega
  | ⟨2, _⟩ => show win0_2.index t0 (2 : Fin 3) * 256 ≤ (i 2).val ∧ (i 2).val < win0_2.index t0 (2 : Fin 3) * 256 + 256; rw [e2]; omega

/-- So the array of window 2 ends holding `K2` of the matrix. -/
theorem final2 (c : Dev nD) : (dats m 0 c).arrAt 2 cfg0.N = K2 (V m c main_v0) :=
  (dats m 0 c).arrAt_eq_of_cover 2 (K2 (V m c main_v0)) (fun t _ => flushed2_eq m c t) cover2

/-- What grid point `t` writes back through output window 3 is block `t` of `K3`. -/
theorem flushed3_eq (c : Dev nD) (t : Fin cfg0.N) :
    (dats m 0 c).flushed 3 t = ((cfg0.win 3).blk t).view.read (Elt Ideal) (K3 (V m c main_v0)) := by
  show (cfg0.win 3).cut (grid0.coords t) ((dats m 0 c).after 3 t) = _
  rw [after0_3]
  unfold out0_3
  rw [View.canon_unit_zero hz3]
  simp only [View.ld_unit_zero (S := S256x8192) hz2]
  rw [iblk_eq_tile m c t]
  funext y
  obtain ⟨a, b, r, rfl⟩ : ∃ (a b : Fin 1) (r : Fin 256), y = ix3 a b r := ⟨y 0, y 1, y 2, eq_ix3 y⟩
  show _ = K3 (V m c main_v0) (((cfg0.win 3).blk t).view.emb (ix3 a b r))
  rw [emb3_eq t a b r]
  exact pay11_apply _ a b r

/-- Every entry of the array of window 3 lies in the block of the grid point named by its first coordinate. -/
theorem cover3 (i : S49x1x256.Idx) : ∃ t : Fin cfg0.N, (cfg0.win 3).flush t = true ∧ i ∈ ((cfg0.win 3).blk t).view.set := by
  have h0 : (i 0).val < 49 := (i 0).isLt
  have h1 : (i 1).val < 1 := (i 1).isLt
  have h2 : (i 2).val < 256 := (i 2).isLt
  obtain ⟨t0, ht0⟩ : ∃ t0 : Fin cfg0.N, t0.val = (i 0).val := ⟨⟨(i 0).val, lt_of_lt_of_eq h0 N_0.symm⟩, rfl⟩
  refine ⟨t0, flush0_3 t0, ?_⟩
  obtain ⟨e0, e1, e2⟩ := idx_out3 t0
  show i ∈ ((View.whole main_v1_2).slice (win0_3.rect t0)).set
  rw [View.set_slice_whole, Rect.mem_set_unit]
  intro ax
  match ax with
  | ⟨0, _⟩ => show win0_3.index t0 (0 : Fin 3) * 1 ≤ (i 0).val ∧ (i 0).val < win0_3.index t0 (0 : Fin 3) * 1 + 1; rw [e0, ht0]; omega
  | ⟨1, _⟩ => show win0_3.index t0 (1 : Fin 3) * 1 ≤ (i 1).val ∧ (i 1).val < win0_3.index t0 (1 : Fin 3) * 1 + 1; rw [e1]; omega
  | ⟨2, _⟩ => show win0_3.index t0 (2 : Fin 3) * 256 ≤ (i 2).val ∧ (i 2).val < win0_3.index t0 (2 : Fin 3) * 256 + 256; rw [e2]; omega

/-- So the array of window 3 ends holding `K3` of the matrix. -/
theorem final3 (c : Dev nD) : (dats m 0 c).arrAt 3 cfg0.N = K3 (V m c main_v0) :=
  (dats m 0 c).arrAt_eq_of_cover 3 (K3 (V m c main_v0)) (fun t _ => flushed3_eq m c t) cover3

/-- What grid point `t` writes back through output window 4 is block `t` of `K4`. -/
theorem flushed4_eq (c : Dev nD) (t : Fin cfg0.N) :
    (dats m 0 c).flushed 4 t = ((cfg0.win 4).blk t).view.read (Elt Ideal) (K4 (V m c main_v0)) := by
  show (cfg0.win 4).cut (grid0.coords t) ((dats m 0 c).after 4 t) = _
  rw [after0_4]
  unfold out0_4
  rw [View.canon_unit_zero hz3]
  simp only [View.ld_unit_zero (S := S256x8192) hz2]
  rw [iblk_eq_tile m c t]
  funext y
  obtain ⟨a, b, r, rfl⟩ : ∃ (a b : Fin 1) (r : Fin 128), y = ix3 a b r := ⟨y 0, y 1, y 2, eq_ix3 y⟩
  show _ = K4 (V m c main_v0) (((cfg0.win 4).blk t).view.emb (ix3 a b r))
  rw [emb4_eq t a b r]
  exact store4_apply _ a b r

/-- Every entry of the array of window 4 lies in the block of the grid point named by its first coordinate. -/
theorem cover4 (i : S49x1x128.Idx) : ∃ t : Fin cfg0.N, (cfg0.win 4).flush t = true ∧ i ∈ ((cfg0.win 4).blk t).view.set := by
  have h0 : (i 0).val < 49 := (i 0).isLt
  have h1 : (i 1).val < 1 := (i 1).isLt
  have h2 : (i 2).val < 128 := (i 2).isLt
  obtain ⟨t0, ht0⟩ : ∃ t0 : Fin cfg0.N, t0.val = (i 0).val := ⟨⟨(i 0).val, lt_of_lt_of_eq h0 N_0.symm⟩, rfl⟩
  refine ⟨t0, flush0_4 t0, ?_⟩
  obtain ⟨e0, e1, e2⟩ := idx_out4 t0
  show i ∈ ((View.whole main_v1_3).slice (win0_4.rect t0)).set
  rw [View.set_slice_whole, Rect.mem_set_unit]
  intro ax
  match ax with
  | ⟨0, _⟩ => show win0_4.index t0 (0 : Fin 3) * 1 ≤ (i 0).val ∧ (i 0).val < win0_4.index t0 (0 : Fin 3) * 1 + 1; rw [e0, ht0]; omega
  | ⟨1, _⟩ => show win0_4.index t0 (1 : Fin 3) * 1 ≤ (i 1).val ∧ (i 1).val < win0_4.index t0 (1 : Fin 3) * 1 + 1; rw [e1]; omega
  | ⟨2, _⟩ => show win0_4.index t0 (2 : Fin 3) * 128 ≤ (i 2).val ∧ (i 2).val < win0_4.index t0 (2 : Fin 3) * 128 + 128; rw [e2]; omega

/-- So the array of window 4 ends holding `K4` of the matrix. -/
theorem final4 (c : Dev nD) : (dats m 0 c).arrAt 4 cfg0.N = K4 (V m c main_v0) :=
  (dats m 0 c).arrAt_eq_of_cover 4 (K4 (V m c main_v0)) (fun t _ => flushed4_eq m c t) cover4

/-- What grid point `t` writes back through output window 5 is block `t` of `K5`. -/
theorem flushed5_eq (c : Dev nD) (t : Fin cfg0.N) :
    (dats m 0 c).flushed 5 t = ((cfg0.win 5).blk t).view.read (Elt Ideal) (K5 (V m c main_v0)) := by
  show (cfg0.win 5).cut (grid0.coords t) ((dats m 0 c).after 5 t) = _
  rw [after0_5]
  unfold out0_5
  rw [View.canon_unit_zero hz3]
  simp only [View.ld_unit_zero (S := S256x8192) hz2]
  rw [iblk_eq_tile m c t]
  funext y
  obtain ⟨a, b, r, rfl⟩ : ∃ (a b : Fin 1) (r : Fin 128), y = ix3 a b r := ⟨y 0, y 1, y 2, eq_ix3 y⟩
  show _ = K5 (V m c main_v0) (((cfg0.win 5).blk t).view.emb (ix3 a b r))
  rw [emb5_eq t a b r]
  exact store5_apply _ a b r

/-- Every entry of the array of window 5 lies in the block of the grid point named by its first coordinate. -/
theorem cover5 (i : S49x1x128.Idx) : ∃ t : Fin cfg0.N, (cfg0.win 5).flush t = true ∧ i ∈ ((cfg0.win 5).blk t).view.set := by
  have h0 : (i 0).val < 49 := (i 0).isLt
  have h1 : (i 1).val < 1 := (i 1).isLt
  have h2 : (i 2).val < 128 := (i 2).isLt
  obtain ⟨t0, ht0⟩ : ∃ t0 : Fin cfg0.N, t0.val = (i 0).val := ⟨⟨(i 0).val, lt_of_lt_of_eq h0 N_0.symm⟩, rfl⟩
  refine ⟨t0, flush0_5 t0, ?_⟩
  obtain ⟨e0, e1, e2⟩ := idx_out5 t0
  show i ∈ ((View.whole main_v1_4).slice (win0_5.rect t0)).set
  rw [View.set_slice_whole, Rect.mem_set_unit]
  intro ax
  match ax with
  | ⟨0, _⟩ => show win0_5.index t0 (0 : Fin 3) * 1 ≤ (i 0).val ∧ (i 0).val < win0_5.index t0 (0 : Fin 3) * 1 + 1; rw [e0, ht0]; omega
  | ⟨1, _⟩ => show win0_5.index t0 (1 : Fin 3) * 1 ≤ (i 1).val ∧ (i 1).val < win0_5.index t0 (1 : Fin 3) * 1 + 1; rw [e1]; omega
  | ⟨2, _⟩ => show win0_5.index t0 (2 : Fin 3) * 128 ≤ (i 2).val ∧ (i 2).val < win0_5.index t0 (2 : Fin 3) * 128 + 128; rw [e2]; omega

/-- So the array of window 5 ends holding `K5` of the matrix. -/
theorem final5 (c : Dev nD) : (dats m 0 c).arrAt 5 cfg0.N = K5 (V m c main_v0) :=
  (dats m 0 c).arrAt_eq_of_cover 5 (K5 (V m c main_v0)) (fun t _ => flushed5_eq m c t) cover5

/-- What grid point `t` writes back through output window 6 is block `t` of `K6`. -/
theorem flushed6_eq (c : Dev nD) (t : Fin cfg0.N) :
    (dats m 0 c).flushed 6 t = ((cfg0.win 6).blk t).view.read (Elt Ideal) (K6 (V m c main_v0)) := by
  show (cfg0.win 6).cut (grid0.coords t) ((dats m 0 c).after 6 t) = _
  rw [after0_6]
  unfold out0_6
  rw [View.canon_unit_zero hz3]
  simp only [View.ld_unit_zero (S := S256x8192) hz2]
  rw [iblk_eq_tile m c t]
  funext y
  obtain ⟨a, b, r, rfl⟩ : ∃ (a b : Fin 1) (r : Fin 128), y = ix3 a b r := ⟨y 0, y 1, y 2, eq_ix3 y⟩
  show _ = K6 (V m c main_v0) (((cfg0.win 6).blk t).view.emb (ix3 a b r))
  rw [emb6_eq t a b r]
  exact store6_apply _ a b r

/-- Every entry of the array of window 6 lies in the block of the grid point named by its first coordinate. -/
theorem cover6 (i : S49x1x128.Idx) : ∃ t : Fin cfg0.N, (cfg0.win 6).flush t = true ∧ i ∈ ((cfg0.win 6).blk t).view.set := by
  have h0 : (i 0).val < 49 := (i 0).isLt
  have h1 : (i 1).val < 1 := (i 1).isLt
  have h2 : (i 2).val < 128 := (i 2).isLt
  obtain ⟨t0, ht0⟩ : ∃ t0 : Fin cfg0.N, t0.val = (i 0).val := ⟨⟨(i 0).val, lt_of_lt_of_eq h0 N_0.symm⟩, rfl⟩
  refine ⟨t0, flush0_6 t0, ?_⟩
  obtain ⟨e0, e1, e2⟩ := idx_out6 t0
  show i ∈ ((View.whole main_v1_5).slice (win0_6.rect t0)).set
  rw [View.set_slice_whole, Rect.mem_set_unit]
  intro ax
  match ax with
  | ⟨0, _⟩ => show win0_6.index t0 (0 : Fin 3) * 1 ≤ (i 0).val ∧ (i 0).val < win0_6.index t0 (0 : Fin 3) * 1 + 1; rw [e0, ht0]; omega
  | ⟨1, _⟩ => show win0_6.index t0 (1 : Fin 3) * 1 ≤ (i 1).val ∧ (i 1).val < win0_6.index t0 (1 : Fin 3) * 1 + 1; rw [e1]; omega
  | ⟨2, _⟩ => show win0_6.index t0 (2 : Fin 3) * 128 ≤ (i 2).val ∧ (i 2).val < win0_6.index t0 (2 : Fin 3) * 128 + 128; rw [e2]; omega

/-- So the array of window 6 ends holding `K6` of the matrix. -/
theorem final6 (c : Dev nD) : (dats m 0 c).arrAt 6 cfg0.N = K6 (V m c main_v0) :=
  (dats m 0 c).arrAt_eq_of_cover 6 (K6 (V m c main_v0)) (fun t _ => flushed6_eq m c t) cover6

end Cert.KernelIdeal.Whole

end
-- ==== Proof.KernelTail.lean ====
import proofs.«169014_j74002286510759_2_alg».proof.Proof.Gen.KernelIdeal
import proofs.«169014_j74002286510759_2_alg».proof.Proof.LibBroadcastEntry
import proofs.«169014_j74002286510759_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

/-!
# The merge of the per-chunk statistics, read at its one entry

After the chunks' partial statistics are written — per chunk `g` and row `r` a shift `a1[g,0,r]`, a partial sum `a2[g,0,r]` and a
partial weighted sum `a3[g,0,r]`, and for the batch-mean vector the same three numbers `a4[g,0,0]`, `a5[g,0,0]`, `a6[g,0,0]` —
the program merges them on whole arrays: the common shift is the maximum of the chunks' shifts, each chunk is re-weighted by
`exp (shift_g - common shift)`, the re-weighted sums are added, and `M + log L - S / L` is formed (averaged over the 256 rows for
the first result; negated for the second). This module names the two chains of whole-array operations and reads each at
its single entry as that formula of the entries of the statistics arrays.
-/

noncomputable section

namespace Cert.KernelIdeal.Tail

open Cert.KernelIdeal Idealize.ShloMosaic Idealize.ShloMosaic.ValueIdx
open Cert.KernelIdeal.Facts₀ Cert.KernelIdeal.Facts

/-- The first result's chain of whole-array operations, from the three per-row statistics arrays. -/
def tailL1 (a1 : (⟨S49x1x256, .f32⟩ : BufTy).Contents (Elt Ideal)) (a2 : (⟨S49x1x256, .f32⟩ : BufTy).Contents (Elt Ideal)) (a3 : (⟨S49x1x256, .f32⟩ : BufTy).Contents (Elt Ideal)) : (⟨S_, .f32⟩ : BufTy).Contents (Elt Ideal) :=
  let main_v2 : (⟨S49x256, .f32⟩ : BufTy).Contents (Elt Ideal) := shapeCast S49x256 a1 shapeCasts_S49x1x256_S49x256
  let main_v3 : (⟨S49x256, .f32⟩ : BufTy).Contents (Elt Ideal) := shapeCast S49x256 a2 shapeCasts_S49x1x256_S49x256
  let main_v4 : (⟨S49x256, .f32⟩ : BufTy).Contents (Elt Ideal) := shapeCast S49x256 a3 shapeCasts_S49x1x256_S49x256
  let main_cst : (⟨S_, .f32⟩ : BufTy).Contents (Elt Ideal) := constant (F := Ideal) S_ .f32 0xFF800000#32
  let main_v5 : (⟨S256, .f32⟩ : BufTy).Contents (Elt Ideal) := ((fun x v => Host.reduce (FloatOps.maximumf (F := Ideal) (φ := .f32)) x v reducesTo_S49x256_S256_d0 h_S_) : (⟨S49x256, .f32⟩ : BufTy).Contents (Elt Ideal) → (⟨S_, .f32⟩ : BufTy).Contents (Elt Ideal) → (⟨S256, .f32⟩ : BufTy).Contents (Elt Ideal)) main_v2 main_cst
  let main_v6 : (⟨S1x256, .f32⟩ : BufTy).Contents (Elt Ideal) := (broadcastInDim S1x256 ![1] bcast_S256_S1x256_1 : (⟨S256, .f32⟩ : BufTy).Contents (Elt Ideal) → (⟨S1x256, .f32⟩ : BufTy).Contents (Elt Ideal)) main_v5
  let main_v7 : (⟨S49x256, .f32⟩ : BufTy).Contents (Elt Ideal) := (broadcastInDim S49x256 ![0, 1] bcast_S1x256_S49x256_0_1 : (⟨S1x256, .f32⟩ : BufTy).Contents (Elt Ideal) → (⟨S49x256, .f32⟩ : BufTy).Contents (Elt Ideal)) main_v6
  let main_v8 : (⟨S49x256, .f32⟩ : BufTy).Contents (Elt Ideal) := (subf (F := Ideal) (φ := .f32) : (⟨S49x256, .f32⟩ : BufTy).Contents (Elt Ideal) → (⟨S49x256, .f32⟩ : BufTy).Contents (Elt Ideal) → (⟨S49x256, .f32⟩ : BufTy).Contents (Elt Ideal)) main_v2 main_v7
  let main_v9 : (⟨S49x256, .f32⟩ : BufTy).Contents (Elt Ideal) := (Host.exp (F := Ideal) (φ := .f32) : (⟨S49x256, .f32⟩ : BufTy).Contents (Elt Ideal) → (⟨S49x256, .f32⟩ : BufTy).Contents (Elt Ideal)) main_v8
  let main_v10 : (⟨S49x256, .f32⟩ : BufTy).Contents (Elt Ideal) := (mulf (F := Ideal) (φ := .f32) : (⟨S49x256, .f32⟩ : BufTy).Contents (Elt Ideal) → (⟨S49x256, .f32⟩ : BufTy).Contents (Elt Ideal) → (⟨S49x256, .f32⟩ : BufTy).Contents (Elt Ideal)) main_v3 main_v9
  let main_cst_0 : (⟨S_, .f32⟩ : BufTy).Contents (Elt Ideal) := constant (F := Ideal) S_ .f32 0x00000000#32
  let main_v11 : (⟨S256, .f32⟩ : BufTy).Contents (Elt Ideal) := ((fun x v => Host.reduceAdd (F := Ideal) (φ := .f32) x v reducesTo_S49x256_S256_d0 h_S_) : (⟨S49x256, .f32⟩ : BufTy).Contents (Elt Ideal) → (⟨S_, .f32⟩ : BufTy).Contents (Elt Ideal) → (⟨S256, .f32⟩ : BufTy).Contents (Elt Ideal)) main_v10 main_cst_0
  let main_v12 : (⟨S49x256, .f32⟩ : BufTy).Contents (Elt Ideal) := (mulf (F := Ideal) (φ := .f32) : (⟨S49x256, .f32⟩ : BufTy).Contents (Elt Ideal) → (⟨S49x256, .f32⟩ : BufTy).Contents (Elt Ideal) → (⟨S49x256, .f32⟩ : BufTy).Contents (Elt Ideal)) main_v4 main_v9
  let main_cst_1 : (⟨S_, .f32⟩ : BufTy).Contents (Elt Ideal) := constant (F := Ideal) S_ .f32 0x00000000#32
  let main_v13 : (⟨S256, .f32⟩ : BufTy).Contents (Elt Ideal) := ((fun x v => Host.reduceAdd (F := Ideal) (φ := .f32) x v reducesTo_S49x256_S256_d0 h_S_) : (⟨S49x256, .f32⟩ : BufTy).Contents (Elt Ideal) → (⟨S_, .f32⟩ : BufTy).Contents (Elt Ideal) → (⟨S256, .f32⟩ : BufTy).Contents (Elt Ideal)) main_v12 main_cst_1
  let main_v14 : (⟨S256, .f32⟩ : BufTy).Contents (Elt Ideal) := (Host.log (F := Ideal) (φ := .f32) : (⟨S256, .f32⟩ : BufTy).Contents (Elt Ideal) → (⟨S256, .f32⟩ : BufTy).Contents (Elt Ideal)) main_v11
  let main_v15 : (⟨S256, .f32⟩ : BufTy).Contents (Elt Ideal) := (addf (F := Ideal) (φ := .f32) : (⟨S256, .f32⟩ : BufTy).Contents (Elt Ideal) → (⟨S256, .f32⟩ : BufTy).Contents (Elt Ideal) → (⟨S256, .f32⟩ : BufTy).Contents (Elt Ideal)) main_v5 main_v14
  let main_v16 : (⟨S256, .f32⟩ : BufTy).Contents (Elt Ideal) := (Host.divf (F := Ideal) (φ := .f32) : (⟨S256, .f32⟩ : BufTy).Contents (Elt Ideal) → (⟨S256, .f32⟩ : BufTy).Contents (Elt Ideal) → (⟨S256, .f32⟩ : BufTy).Contents (Elt Ideal)) main_v13 main_v11
  let main_v17 : (⟨S256, .f32⟩ : BufTy).Contents (Elt Ideal) := (subf (F := Ideal) (φ := .f32) : (⟨S256, .f32⟩ : BufTy).Contents (Elt Ideal) → (⟨S256, .f32⟩ : BufTy).Contents (Elt Ideal) → (⟨S256, .f32⟩ : BufTy).Contents (Elt Ideal)) main_v15 main_v16
  let main_cst_2 : (⟨S_, .f32⟩ : BufTy).Contents (Elt Ideal) := constant (F := Ideal) S_ .f32 0x00000000#32
  let main_v18 : (⟨S_, .f32⟩ : BufTy).Contents (Elt Ideal) := ((fun x v => Host.reduceAdd (F := Ideal) (φ := .f32) x v reducesTo_S256_S_d0 h_S_) : (⟨S256, .f32⟩ : BufTy).Contents (Elt Ideal) → (⟨S_, .f32⟩ : BufTy).Contents (Elt Ideal) → (⟨S_, .f32⟩ : BufTy).Contents (Elt Ideal)) main_v17 main_cst_2
  let main_cst_3 : (⟨S_, .f32⟩ : BufTy).Contents (Elt Ideal) := constant (F := Ideal) S_ .f32 0x43800000#32
  let main_v19 : (⟨S_, .f32⟩ : BufTy).Contents (Elt Ideal) := (Host.divf (F := Ideal) (φ := .f32) : (⟨S_, .f32⟩ : BufTy).Contents (Elt Ideal) → (⟨S_, .f32⟩ : BufTy).Contents (Elt Ideal) → (⟨S_, .f32⟩ : BufTy).Contents (Elt Ideal)) main_v18 main_cst_3
  main_v19

/-- The second result's chain of whole-array operations, from the three batch-mean statistics arrays. -/
def tailL2 (a4 : (⟨S49x1x128, .f32⟩ : BufTy).Contents (Elt Ideal)) (a5 : (⟨S49x1x128, .f32⟩ : BufTy).Contents (Elt Ideal)) (a6 : (⟨S49x1x128, .f32⟩ : BufTy).Contents (Elt Ideal)) : (⟨S_, .f32⟩ : BufTy).Contents (Elt Ideal) :=
  let main_v20 : (⟨S49x1x1, .f32⟩ : BufTy).Contents (Elt Ideal) := ((extractStridedSlice S49x1x1 ![0, 0, 0] · slices_S49x1x128_S49x1x1_0_0_0) : (⟨S49x1x128, .f32⟩ : BufTy).Contents (Elt Ideal) → (⟨S49x1x1, .f32⟩ : BufTy).Contents (Elt Ideal)) a4
  let main_v21 : (⟨S49, .f32⟩ : BufTy).Contents (Elt Ideal) := shapeCast S49 main_v20 shapeCasts_S49x1x1_S49
  let main_v22 : (⟨S49x1x1, .f32⟩ : BufTy).Contents (Elt Ideal) := ((extractStridedSlice S49x1x1 ![0, 0, 0] · slices_S49x1x128_S49x1x1_0_0_0) : (⟨S49x1x128, .f32⟩ : BufTy).Contents (Elt Ideal) → (⟨S49x1x1, .f32⟩ : BufTy).Contents (Elt Ideal)) a5
  let main_v23 : (⟨S49, .f32⟩ : BufTy).Contents (Elt Ideal) := shapeCast S49 main_v22 shapeCasts_S49x1x1_S49
  let main_v24 : (⟨S49x1x1, .f32⟩ : BufTy).Contents (Elt Ideal) := ((extractStridedSlice S49x1x1 ![0, 0, 0] · slices_S49x1x128_S49x1x1_0_0_0) : (⟨S49x1x128, .f32⟩ : BufTy).Contents (Elt Ideal) → (⟨S49x1x1, .f32⟩ : BufTy).Contents (Elt Ideal)) a6
  let main_v25 : (⟨S49, .f32⟩ : BufTy).Contents (Elt Ideal) := shapeCast S49 main_v24 shapeCasts_S49x1x1_S49
  let main_cst_4 : (⟨S_, .f32⟩ : BufTy).Contents (Elt Ideal) := constant (F := Ideal) S_ .f32 0xFF800000#32
  let main_v26 : (⟨S_, .f32⟩ : BufTy).Contents (Elt Ideal) := ((fun x v => Host.reduce (FloatOps.maximumf (F := Ideal) (φ := .f32)) x v reducesTo_S49_S_d0 h_S_) : (⟨S49, .f32⟩ : BufTy).Contents (Elt Ideal) → (⟨S_, .f32⟩ : BufTy).Contents (Elt Ideal) → (⟨S_, .f32⟩ : BufTy).Contents (Elt Ideal)) main_v21 main_cst_4
  let main_v27 : (⟨S49, .f32⟩ : BufTy).Contents (Elt Ideal) := (broadcastInDim S49 ![] bcast_S_S49 : (⟨S_, .f32⟩ : BufTy).Contents (Elt Ideal) → (⟨S49, .f32⟩ : BufTy).Contents (Elt Ideal)) main_v26
  let main_v28 : (⟨S49, .f32⟩ : BufTy).Contents (Elt Ideal) := (subf (F := Ideal) (φ := .f32) : (⟨S49, .f32⟩ : BufTy).Contents (Elt Ideal) → (⟨S49, .f32⟩ : BufTy).Contents (Elt Ideal) → (⟨S49, .f32⟩ : BufTy).Contents (Elt Ideal)) main_v21 main_v27
  let main_v29 : (⟨S49, .f32⟩ : BufTy).Contents (Elt Ideal) := (Host.exp (F := Ideal) (φ := .f32) : (⟨S49, .f32⟩ : BufTy).Contents (Elt Ideal) → (⟨S49, .f32⟩ : BufTy).Contents (Elt Ideal)) main_v28
  let main_v30 : (⟨S49, .f32⟩ : BufTy).Contents (Elt Ideal) := (mulf (F := Ideal) (φ := .f32) : (⟨S49, .f32⟩ : BufTy).Contents (Elt Ideal) → (⟨S49, .f32⟩ : BufTy).Contents (Elt Ideal) → (⟨S49, .f32⟩ : BufTy).Contents (Elt Ideal)) main_v23 main_v29
  let main_cst_5 : (⟨S_, .f32⟩ : BufTy).Contents (Elt Ideal) := constant (F := Ideal) S_ .f32 0x00000000#32
  let main_v31 : (⟨S_, .f32⟩ : BufTy).Contents (Elt Ideal) := ((fun x v => Host.reduceAdd (F := Ideal) (φ := .f32) x v reducesTo_S49_S_d0 h_S_) : (⟨S49, .f32⟩ : BufTy).Contents (Elt Ideal) → (⟨S_, .f32⟩ : BufTy).Contents (Elt Ideal) → (⟨S_, .f32⟩ : BufTy).Contents (Elt Ideal)) main_v30 main_cst_5
  let main_v32 : (⟨S49, .f32⟩ : BufTy).Contents (Elt Ideal) := (mulf (F := Ideal) (φ := .f32) : (⟨S49, .f32⟩ : BufTy).Contents (Elt Ideal) → (⟨S49, .f32⟩ : BufTy).Contents (Elt Ideal) → (⟨S49, .f32⟩ : BufTy).Contents (Elt Ideal)) main_v25 main_v29
  let main_cst_6 : (⟨S_, .f32⟩ : BufTy).Contents (Elt Ideal) := constant (F := Ideal) S_ .f32 0x00000000#32
  let main_v33 : (⟨S_, .f32⟩ : BufTy).Contents (Elt Ideal) := ((fun x v => Host.reduceAdd (F := Ideal) (φ := .f32) x v reducesTo_S49_S_d0 h_S_) : (⟨S49, .f32⟩ : BufTy).Contents (Elt Ideal) → (⟨S_, .f32⟩ : BufTy).Contents (Elt Ideal) → (⟨S_, .f32⟩ : BufTy).Contents (Elt Ideal)) main_v32 main_cst_6
  let main_v34 : (⟨S_, .f32⟩ : BufTy).Contents (Elt Ideal) := (Host.log (F := Ideal) (φ := .f32) : (⟨S_, .f32⟩ : BufTy).Contents (Elt Ideal) → (⟨S_, .f32⟩ : BufTy).Contents (Elt Ideal)) main_v31
  let main_v35 : (⟨S_, .f32⟩ : BufTy).Contents (Elt Ideal) := (addf (F := Ideal) (φ := .f32) : (⟨S_, .f32⟩ : BufTy).Contents (Elt Ideal) → (⟨S_, .f32⟩ : BufTy).Contents (Elt Ideal) → (⟨S_, .f32⟩ : BufTy).Contents (Elt Ideal)) main_v26 main_v34
  let main_v36 : (⟨S_, .f32⟩ : BufTy).Contents (Elt Ideal) := (Host.divf (F := Ideal) (φ := .f32) : (⟨S_, .f32⟩ : BufTy).Contents (Elt Ideal) → (⟨S_, .f32⟩ : BufTy).Contents (Elt Ideal) → (⟨S_, .f32⟩ : BufTy).Contents (Elt Ideal)) main_v33 main_v31
  let main_v37 : (⟨S_, .f32⟩ : BufTy).Contents (Elt Ideal) := (subf (F := Ideal) (φ := .f32) : (⟨S_, .f32⟩ : BufTy).Contents (Elt Ideal) → (⟨S_, .f32⟩ : BufTy).Contents (Elt Ideal) → (⟨S_, .f32⟩ : BufTy).Contents (Elt Ideal)) main_v36 main_v35
  main_v37

/-- The f32 word `0xFF800000` denotes -∞. -/
theorem ofBits_neg_inf : Ideal.ofBits .f32 0xFF800000#32 = (⊥ : EReal) := by
  simp [Ideal.ofBits, Ideal.ieee]

/-- The f32 word `0x43800000` denotes 256. -/
theorem ofBits_256 : Ideal.ofBits .f32 0x43800000#32 = ((256 : ℝ) : EReal) := by
  simp [Ideal.ofBits, Ideal.ieee]
  norm_cast
  norm_num

/-! ## The layout operations and the two reductions, read at an index -/

section AtAnIndex
variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, 1, 1]` array cast to `[a]` reads, at `i`, the operand at `(i, 0, 0)`. -/
theorem shapeCast_a11_a_apply {a : ℕ} (x : (⟨3, ![a, 1, 1]⟩ : Shape).Idx → α)
    (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

/-- The slice of an `[a, 1, 128]` array at offsets 0 to `[a, 1, 1]` reads, at `(i, u, v)`, the operand at `(i, 0, 0)`. -/
theorem slice_lane0_apply {a : ℕ} (x : (⟨3, ![a, 1, 128]⟩ : Shape).Idx → α)
    (h : (⟨3, ![a, 1, 128]⟩ : Shape).Slices ![0, 0, 0] ⟨3, ![a, 1, 1]⟩) (i : Fin a) (u v : Fin 1) :
    extractStridedSlice ⟨3, ![a, 1, 1]⟩ ![0, 0, 0] x h (ix3 i u v) = x (ix3 i (0 : Fin 1) (0 : Fin 128)) :=
  extractStridedSlice_apply _ x h _ _ fun ax => by
    match ax with
    | ⟨0, _⟩ => show i.val = 0 + i.val; omega
    | ⟨1, _⟩ => show 0 = 0 + u.val; omega
    | ⟨2, _⟩ => show 0 = 0 + v.val; omega

/-- The reduced index `t` of an `[m, n]` array summed over its rows, with row `k` put back, is `(k, t)`. -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- A rank-1 index set is its one coordinate's range. -/
def idxEquiv1 {n : ℕ} : (⟨1, ![n]⟩ : Shape).Idx ≃ Fin n where
  toFun i := i 0
  invFun g := ix1 g
  left_inv i := (eq_ix1 i).symm
  right_inv _ := rfl

end AtAnIndex

/-- From -∞ the host's reduce with a maximum body over the rows of an `[m, n]` array, at column `t`, is the running
    maximum from -∞ of that column. -/
theorem hostReduce_max_rows {m n : ℕ} (x : FVec Ideal ⟨2, ![m, n]⟩ .f32)
    (h' : (⟨2, ![m, n]⟩ : Shape).ReducesTo [0] (⟨1, ![n]⟩ : Shape)) (h : (⟨2, ![m, n]⟩ : Shape).Reduces [0] (⟨1, ![n]⟩ : Shape))
    (hu : 0 < (⟨0, ![]⟩ : Shape).numel) (t : Fin n) :
    Host.reduce (FloatOps.maximumf (F := Ideal) (φ := .f32)) x (constant (F := Ideal) (⟨0, ![]⟩ : Shape) .f32 0xFF800000#32) h' hu (ix1 t)
      = Finset.univ.fold max (⊥ : EReal) (fun g : Fin m => x (ix2 g t)) := by
  rw [Host.reduce_eq_fold_single FloatOps.maximumf x _ h' h hu]
  have hf : (x ∘ h.lift (ix1 t)) = fun k : Fin m => x (ix2 k t) := funext fun k => congrArg x (lift_rows h t k)
  refine (congrArg (fun f => Finset.fold max (Ideal.ofBits .f32 0xFF800000#32) f (Finset.univ : Finset (Fin m))) hf).trans ?_
  rw [ofBits_neg_inf]

/-- From -∞ the host's reduce with a maximum body over an `[m]` vector is the running maximum from -∞ of its entries. -/
theorem hostReduce_max_vec {m : ℕ} (x : FVec Ideal ⟨1, ![m]⟩ .f32)
    (h' : (⟨1, ![m]⟩ : Shape).ReducesTo [0] (⟨0, ![]⟩ : Shape)) (hu : 0 < (⟨0, ![]⟩ : Shape).numel) :
    Host.reduce (FloatOps.maximumf (F := Ideal) (φ := .f32)) x (constant (F := Ideal) (⟨0, ![]⟩ : Shape) .f32 0xFF800000#32) h' hu ix0
      = Finset.univ.fold max (⊥ : EReal) (fun g : Fin m => x (ix1 g)) := by
  rw [Host.reduce_eq_fold FloatOps.maximumf x _ h' hu, Finset.filter_true_of_mem fun i _ => eq_ix0 _]
  have hm : (Finset.univ : Finset (⟨1, ![m]⟩ : Shape).Idx) = (Finset.univ : Finset (Fin m)).map (idxEquiv1 (n := m)).symm.toEmbedding :=
    (Finset.map_univ_equiv _).symm
  rw [hm, Finset.fold_map]
  show Finset.fold max (Ideal.ofBits .f32 0xFF800000#32) (fun g : Fin m => x (ix1 g)) Finset.univ = _
  rw [ofBits_neg_inf]

/-- The host's float sum over the rows of an `[m, n]` array from the zero word, at column `t`, is `0` plus the column's sum. -/
theorem hostReduceAdd_rows {m n : ℕ} (x : FVec Ideal ⟨2, ![m, n]⟩ .f32)
    (h' : (⟨2, ![m, n]⟩ : Shape).ReducesTo [0] (⟨1, ![n]⟩ : Shape)) (h : (⟨2, ![m, n]⟩ : Shape).Reduces [0] (⟨1, ![n]⟩ : Shape))
    (hu : 0 < (⟨0, ![]⟩ : Shape).numel) (t : Fin n) :
    Host.reduceAdd (F := Ideal) (φ := .f32) x (constant (F := Ideal) (⟨0, ![]⟩ : Shape) .f32 0x00000000#32) h' hu (ix1 t)
      = 0 + ∑ g : Fin m, x (ix2 g t) := by
  show Ideal.hostReduceAdd h' x (Ideal.ofBits .f32 0x00000000#32) (ix1 t) = _
  rw [Ideal.hostReduceAdd_single h' h, Ideal.ofBits_zero_f32]
  exact congrArg (fun z : EReal => 0 + z) (Finset.sum_congr rfl fun k _ => congrArg x (lift_rows h t k))

/-- The host's float sum of an `[m]` vector from the zero word is `0` plus the sum of its entries. -/
theorem hostReduceAdd_vec {m : ℕ} (x : FVec Ideal ⟨1, ![m]⟩ .f32)
    (h' : (⟨1, ![m]⟩ : Shape).ReducesTo [0] (⟨0, ![]⟩ : Shape)) (hu : 0 < (⟨0, ![]⟩ : Shape).numel) :
    Host.reduceAdd (F := Ideal) (φ := .f32) x (constant (F := Ideal) (⟨0, ![]⟩ : Shape) .f32 0x00000000#32) h' hu ix0
      = 0 + ∑ g : Fin m, x (ix1 g) := by
  show Ideal.hostReduceAdd h' x (Ideal.ofBits .f32 0x00000000#32) ix0 = _
  rw [Ideal.hostReduceAdd_total h' (fun b => b.elim0), Ideal.ofBits_zero_f32]
  exact congrArg (fun z : EReal => 0 + z) (Equiv.sum_comp (idxEquiv1 (n := m)).symm x).symm

/-- The largest of the 49 chunks' shifts of row `r` (a running maximum started from -∞). -/
def colMax (a1 : (⟨S49x1x256, .f32⟩ : BufTy).Contents (Elt Ideal)) (r : Fin 256) : EReal :=
  Finset.univ.fold max (⊥ : EReal) (fun g : Fin 49 => a1 (ix3 g (0 : Fin 1) r))

/-- The first result at its one entry: the mean over the 256 rows of `M + log L - S / L`, where for row `r` the common shift `M`
    is the largest chunk shift and `L`, `S` are the chunks' partial sums re-weighted by `exp (shift - M)` and added (from 0). -/
theorem tailL1_apply (a1 a2 a3 : (⟨S49x1x256, .f32⟩ : BufTy).Contents (Elt Ideal)) :
    tailL1 a1 a2 a3 ix0 = Ideal.div (0 + ∑ r : Fin 256,
      ((colMax a1 r + Ideal.log (0 + ∑ g : Fin 49, a2 (ix3 g (0 : Fin 1) r) * Ideal.exp (a1 (ix3 g (0 : Fin 1) r) - colMax a1 r)))
        - Ideal.div (0 + ∑ g : Fin 49, a3 (ix3 g (0 : Fin 1) r) * Ideal.exp (a1 (ix3 g (0 : Fin 1) r) - colMax a1 r))
            (0 + ∑ g : Fin 49, a2 (ix3 g (0 : Fin 1) r) * Ideal.exp (a1 (ix3 g (0 : Fin 1) r) - colMax a1 r))))
      ((256 : ℝ) : EReal) := by
  have hR : S49x256.Reduces [0] S256 := by decide
  -- the two broadcasts together copy entry `r` of the vector of common shifts to every chunk `g`
  have hb : ∀ (v : S256.Idx → EReal) (g : Fin 49) (r : Fin 256),
      broadcastInDim S49x256 ![0, 1] bcast_S1x256_S49x256_0_1 (broadcastInDim S1x256 ![1] bcast_S256_S1x256_1 v) (ix2 g r) = v (ix1 r) :=
    fun v g r => (broadcastInDim_1b_ab_apply _ bcast_S1x256_S49x256_0_1 g r).trans (broadcastInDim_b_1b_apply v bcast_S256_S1x256_1 0 r)
  unfold tailL1
  -- every array is read at its index from its operands at theirs, the outermost operation first
  simp only [Host.divf, Host.log, Host.exp, Ideal.hostDivf_def, Ideal.hostUnary_exp_def, Ideal.hostUnary_log_def,
    hostReduceAdd_vec, hostReduceAdd_rows _ _ hR, hostReduce_max_rows _ _ hR, mulf_apply, addf_apply, subf_apply, constant_apply,
    hb, shapeCast_a1b_ab_apply, ofBits_256, colMax]

/-- The largest of the 49 chunks' shifts of the batch-mean vector, read in lane 0. -/
def vecMax (a4 : (⟨S49x1x128, .f32⟩ : BufTy).Contents (Elt Ideal)) : EReal :=
  Finset.univ.fold max (⊥ : EReal) (fun g : Fin 49 => a4 (ix3 g (0 : Fin 1) (0 : Fin 128)))

/-- The second result at its one entry: `S / L - (M + log L)` of the batch-mean vector's chunk statistics, read in lane 0. -/
theorem tailL2_apply (a4 a5 a6 : (⟨S49x1x128, .f32⟩ : BufTy).Contents (Elt Ideal)) :
    tailL2 a4 a5 a6 ix0
      = Ideal.div (0 + ∑ g : Fin 49, a6 (ix3 g (0 : Fin 1) (0 : Fin 128)) * Ideal.exp (a4 (ix3 g (0 : Fin 1) (0 : Fin 128)) - vecMax a4))
            (0 + ∑ g : Fin 49, a5 (ix3 g (0 : Fin 1) (0 : Fin 128)) * Ideal.exp (a4 (ix3 g (0 : Fin 1) (0 : Fin 128)) - vecMax a4))
        - (vecMax a4 + Ideal.log (0 + ∑ g : Fin 49, a5 (ix3 g (0 : Fin 1) (0 : Fin 128)) * Ideal.exp (a4 (ix3 g (0 : Fin 1) (0 : Fin 128)) - vecMax a4))) := by
  -- the broadcast copies the common shift to every chunk `g`
  have hb : ∀ (v : S_.Idx → EReal) (g : Fin 49), broadcastInDim S49 ![] bcast_S_S49 v (ix1 g) = v ix0 :=
    fun v g => broadcastInDim_scalar_apply v bcast_S_S49 (ix1 g)
  unfold tailL2
  -- every array is read at its index from its operands at theirs, the outermost operation first
  simp only [Host.divf, Host.log, Host.exp, Ideal.hostDivf_def, Ideal.hostUnary_exp_def, Ideal.hostUnary_log_def,
    hostReduceAdd_vec, hostReduce_max_vec, mulf_apply, addf_apply, subf_apply, constant_apply,
    hb, shapeCast_a11_a_apply, slice_lane0_apply, vecMax]

end Cert.KernelIdeal.Tail

end
-- ==== Proof.KernelRun.lean ====
import proofs.«169014_j74002286510759_2_alg».proof.Proof.KernelValue
import proofs.«169014_j74002286510759_2_alg».proof.Proof.KernelTail
import Idealize.ShloMosaic.Lib.StableHlo.Run

/-!
# The kernel program's two results as functions of its argument

The program reshapes its argument to the 256 × 401408 matrix `X`, lets the 49 grid points write the six arrays of
per-chunk statistics, and merges them on whole arrays. Its two results are the two merge chains applied to the six arrays
of statistics of `X`.
-/

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Whole

open Cert.KernelIdeal Cert.KernelIdeal.Gen Cert.KernelIdeal.Tile Cert.KernelIdeal.Tail

variable (m : (ℓ : Loc nD τ sig) → Buf (Elt Ideal) ℓ) (ρ : Dev nD → PrngReg)

/-- The matrix: the argument read as 256 rows of 401408 entries. -/
abbrev X (c : Dev nD) : S256x401408.Idx → EReal :=
  shapeCast S256x401408 (m ((c.tc : Thread nD τ).loc main_arg0)) shapeCasts_S256x14x14x2048_S256x401408

/-- When the grid starts, the kernel's input array holds the matrix. -/
theorem V_main_v0 (c : Dev nD) : V m c main_v0 = X m c := by
  show StableHlo.after hostOps0 (fun b => m (c, b)) (Proc.devRef .tc main_v0) = _
  after_results
  rfl

set_option maxHeartbeats 2000000 in
/-- The first merge chain run from any contents of the buffers: the chain's function of the three statistics arrays. -/
theorem tail19_of (W : Valuation τ sig (Elt Ideal)) :
    StableHlo.after hostOps1 W (Proc.devRef .tc main_v19)
      = tailL1 (W (Proc.devRef .tc main_v1_0)) (W (Proc.devRef .tc main_v1_1)) (W (Proc.devRef .tc main_v1_2)) := by
  after_results_simp
  first | done | with_reducible_and_instances rfl | (unfold tailL1; with_reducible_and_instances rfl)

set_option maxHeartbeats 2000000 in
/-- The second merge chain likewise. -/
theorem tail37_of (W : Valuation τ sig (Elt Ideal)) :
    StableHlo.after hostOps1 W (Proc.devRef .tc main_v37)
      = tailL2 (W (Proc.devRef .tc main_v1_3)) (W (Proc.devRef .tc main_v1_4)) (W (Proc.devRef .tc main_v1_5)) := by
  after_results_simp
  first | done | with_reducible_and_instances rfl | (unfold tailL2; with_reducible_and_instances rfl)

/-- After all grid points, the first merge chain's result is its function of the six arrays of statistics of the matrix. -/
theorem tail19 (c : Dev nD) :
    Pipeline.afterTail₀ cfgs (dats m) 0 (V0 m) [hostOps1] c main_v19
      = tailL1 (K1 (X m c)) (K2 (X m c)) (K3 (X m c)) := by
  unfold Pipeline.afterTail₀
  show StableHlo.after hostOps1 _ (Proc.devRef .tc main_v19) = _
  have e1 := (Pipeline.withArrays_arr spec0 launch0.win.arr_inj c (V0 m c) (fun w => (dats m 0 c).arrAt w cfg0.N) 1).trans ((final1 m c).trans (congrArg K1 (V_main_v0 m c)))
  have e2 := (Pipeline.withArrays_arr spec0 launch0.win.arr_inj c (V0 m c) (fun w => (dats m 0 c).arrAt w cfg0.N) 2).trans ((final2 m c).trans (congrArg K2 (V_main_v0 m c)))
  have e3 := (Pipeline.withArrays_arr spec0 launch0.win.arr_inj c (V0 m c) (fun w => (dats m 0 c).arrAt w cfg0.N) 3).trans ((final3 m c).trans (congrArg K3 (V_main_v0 m c)))
  exact (tail19_of _).trans (congr (congr (congrArg tailL1 e1) e2) e3)

/-- The second merge chain's result likewise. -/
theorem tail37 (c : Dev nD) :
    Pipeline.afterTail₀ cfgs (dats m) 0 (V0 m) [hostOps1] c main_v37
      = tailL2 (K4 (X m c)) (K5 (X m c)) (K6 (X m c)) := by
  unfold Pipeline.afterTail₀
  show StableHlo.after hostOps1 _ (Proc.devRef .tc main_v37) = _
  have e4 := (Pipeline.withArrays_arr spec0 launch0.win.arr_inj c (V0 m c) (fun w => (dats m 0 c).arrAt w cfg0.N) 4).trans ((final4 m c).trans (congrArg K4 (V_main_v0 m c)))
  have e5 := (Pipeline.withArrays_arr spec0 launch0.win.arr_inj c (V0 m c) (fun w => (dats m 0 c).arrAt w cfg0.N) 5).trans ((final5 m c).trans (congrArg K5 (V_main_v0 m c)))
  have e6 := (Pipeline.withArrays_arr spec0 launch0.win.arr_inj c (V0 m c) (fun w => (dats m 0 c).arrAt w cfg0.N) 6).trans ((final6 m c).trans (congrArg K6 (V_main_v0 m c)))
  exact (tail37_of _).trans (congr (congr (congrArg tailL2 e4) e5) e6)

/-- THE KERNEL PROGRAM'S RUN: every weakly fair execution terminates with the two results at the merge chains of the six
    arrays of statistics of the matrix, the argument unchanged. -/
theorem run : θ_run defs (onTc (τ := τ) (main (F := Ideal))) ⟨m, fun _ => 0, ρ⟩ fun r => ∀ c : Dev nD,
      r.2.mem ((c.tc : Thread nD τ).loc main_v19) = tailL1 (K1 (X m c)) (K2 (X m c)) (K3 (X m c))
      ∧ r.2.mem ((c.tc : Thread nD τ).loc main_v37) = tailL2 (K4 (X m c)) (K5 (X m c)) (K6 (X m c))
      ∧ r.2.mem ((c.tc : Thread nD τ).loc main_arg0) = m ((c.tc : Thread nD τ).loc main_arg0) :=
  (θ_run defs _ _).mono (fun r h c =>
      ⟨((h c).2 main_v19 (Pipeline.mem_restRefs_of main_v19 (by decide) (by decide))).trans (tail19 m c),
       ((h c).2 main_v37 (Pipeline.mem_restRefs_of main_v37 (by decide) (by decide))).trans (tail37 m c),
       ((h c).2 main_arg0 (Pipeline.mem_restRefs_of main_arg0 (by decide) (by decide))).trans (W_main_arg0 m (dats m) c)⟩)
    (run_main m ρ)

end Cert.KernelIdeal.Whole

end
-- ==== Proof.EntropyLaw.lean ====
import Mathlib
import Idealize.ShloMosaic.PureOps.Ideal

/-!
# Entropy of a softmax from per-tile partial statistics

A row of real scores is cut into tiles `g : ι`, each holding the scores `x g j`, `j : κ`. Each tile keeps, relative to a
shift `m g` of its own, the partial sum `l g = Σⱼ exp (x g j - m g)` and the partial weighted sum
`s g = Σⱼ exp (x g j - m g) · (x g j - m g) + m g · l g`. Re-weighting the tiles by `exp (m g - M)` for one common shift `M`
and adding them up gives `L = Σ_g l g · exp (m g - M)` and `S = Σ_g s g · exp (m g - M)`, and
`M + log L - S / L` is the entropy `-Σ p · log p` of the softmax `p` of the whole row, whatever real shifts were used:
the shifts cancel because `exp (a - m) · exp (m - M) = exp (a - M)`.
-/

noncomputable section

namespace EntropyLaw

open Idealize.ShloMosaic

variable {ι κ : Type*} [Fintype ι] [Fintype κ]

/-- A tile's partial sum of exponentials, relative to the tile's own shift. -/
def tileL (x : ι → κ → EReal) (m : ι → EReal) (g : ι) : EReal := ∑ j, Ideal.exp (x g j - m g)

/-- A tile's partial weighted sum: `Σⱼ exp (x - m) · (x - m) + m · l`. -/
def tileS (x : ι → κ → EReal) (m : ι → EReal) (g : ι) : EReal :=
  (∑ j, Ideal.exp (x g j - m g) * (x g j - m g)) + m g * tileL x m g

/-- The tiles' partial sums re-weighted to one common shift `M` and added (started from 0). -/
def mergedL (x : ι → κ → EReal) (m : ι → EReal) (M : EReal) : EReal := 0 + ∑ g, tileL x m g * Ideal.exp (m g - M)

/-- The tiles' partial weighted sums re-weighted to the common shift and added (started from 0). -/
def mergedS (x : ι → κ → EReal) (m : ι → EReal) (M : EReal) : EReal := 0 + ∑ g, tileS x m g * Ideal.exp (m g - M)

/-- The whole row's sum of exponentials relative to a shift `M'` (started from 0). -/
def rowL (x : ι → κ → EReal) (M' : EReal) : EReal := 0 + ∑ g, ∑ j, Ideal.exp (x g j - M')

/-- The log-softmax of the row at one position. -/
def rowLogp (x : ι → κ → EReal) (M' : EReal) (g : ι) (j : κ) : EReal := (x g j - M') - Ideal.log (rowL x M')

/-- `Σ p · log p` over the whole row (started from 0). -/
def rowPlogp (x : ι → κ → EReal) (M' : EReal) : EReal :=
  0 + ∑ g, ∑ j, Ideal.exp (rowLogp x M' g j) * rowLogp x M' g j

/-! ### Real-valued mirrors of the definitions -/

/-- The total mass `Z₀ = Σ_g Σ_j exp (X g j)`. -/
def Z0 (X : ι → κ → ℝ) : ℝ := ∑ g, ∑ j, Real.exp (X g j)

/-- The total weighted mass `W₀ = Σ_g Σ_j exp (X g j) · X g j`. -/
def W0 (X : ι → κ → ℝ) : ℝ := ∑ g, ∑ j, Real.exp (X g j) * X g j

/-- Real mirror of `tileL`. -/
def tileLr (X : ι → κ → ℝ) (mr : ι → ℝ) (g : ι) : ℝ := ∑ j, Real.exp (X g j - mr g)

/-- Real mirror of `tileS`. -/
def tileSr (X : ι → κ → ℝ) (mr : ι → ℝ) (g : ι) : ℝ :=
  (∑ j, Real.exp (X g j - mr g) * (X g j - mr g)) + mr g * tileLr X mr g

/-- Real mirror of `mergedL`. -/
def mergedLr (X : ι → κ → ℝ) (mr : ι → ℝ) (M : ℝ) : ℝ := ∑ g, tileLr X mr g * Real.exp (mr g - M)

/-- Real mirror of `mergedS`. -/
def mergedSr (X : ι → κ → ℝ) (mr : ι → ℝ) (M : ℝ) : ℝ := ∑ g, tileSr X mr g * Real.exp (mr g - M)

/-- Real mirror of `rowL`. -/
def rowLr (X : ι → κ → ℝ) (M' : ℝ) : ℝ := ∑ g, ∑ j, Real.exp (X g j - M')

/-- The total mass is positive: it is a nonempty sum of exponentials. -/
theorem Z0_pos [Nonempty ι] [Nonempty κ] (X : ι → κ → ℝ) : 0 < Z0 X :=
  Finset.sum_pos (fun _ _ => Finset.sum_pos (fun _ _ => Real.exp_pos _) Finset.univ_nonempty)
    Finset.univ_nonempty

/-- The shifts cancel: `exp (a - m) · exp (m - M) = exp (-M) · exp a`. -/
theorem exp_shift (a m M : ℝ) :
    Real.exp (a - m) * Real.exp (m - M) = Real.exp (-M) * Real.exp a := by
  rw [← Real.exp_add, ← Real.exp_add]; congr 1; ring

/-- `L = exp (-M) · Z₀`. -/
theorem mergedLr_eq (X : ι → κ → ℝ) (mr : ι → ℝ) (M : ℝ) :
    mergedLr X mr M = Real.exp (-M) * Z0 X := by
  unfold mergedLr tileLr Z0
  rw [Finset.mul_sum]
  refine Finset.sum_congr rfl fun g _ => ?_
  rw [Finset.sum_mul, Finset.mul_sum]
  exact Finset.sum_congr rfl fun j _ => exp_shift _ _ _

/-- `S = exp (-M) · W₀`. -/
theorem mergedSr_eq (X : ι → κ → ℝ) (mr : ι → ℝ) (M : ℝ) :
    mergedSr X mr M = Real.exp (-M) * W0 X := by
  unfold mergedSr tileSr tileLr W0
  rw [Finset.mul_sum]
  refine Finset.sum_congr rfl fun g _ => ?_
  rw [Finset.mul_sum, ← Finset.sum_add_distrib, Finset.sum_mul, Finset.mul_sum]
  refine Finset.sum_congr rfl fun j _ => ?_
  have h := exp_shift (X g j) (mr g) M
  calc (Real.exp (X g j - mr g) * (X g j - mr g) + mr g * Real.exp (X g j - mr g))
          * Real.exp (mr g - M)
        = (Real.exp (X g j - mr g) * Real.exp (mr g - M)) * X g j := by ring
    _ = Real.exp (-M) * (Real.exp (X g j) * X g j) := by rw [h]; ring

/-- The row's sum of exponentials is `exp (-M') · Z₀`. -/
theorem rowLr_eq (X : ι → κ → ℝ) (M' : ℝ) : rowLr X M' = Real.exp (-M') * Z0 X := by
  unfold rowLr Z0
  rw [Finset.mul_sum]
  refine Finset.sum_congr rfl fun g _ => ?_
  rw [Finset.mul_sum]
  refine Finset.sum_congr rfl fun j _ => ?_
  rw [← Real.exp_add]; congr 1; ring

/-- `log (exp (-M) · Z₀) = -M + log Z₀`. -/
theorem log_shift (M Z : ℝ) (hZ : 0 < Z) : Real.log (Real.exp (-M) * Z) = -M + Real.log Z := by
  rw [Real.log_mul (Real.exp_pos _).ne' hZ.ne', Real.log_exp]

/-- `Σ p · log p = W₀ / Z₀ - log Z₀` for `p = exp x / Z₀`. -/
theorem plogp_real (X : ι → κ → ℝ) (hZ : 0 < Z0 X) :
    ∑ g, ∑ j, Real.exp (X g j - Real.log (Z0 X)) * (X g j - Real.log (Z0 X))
      = W0 X / Z0 X - Real.log (Z0 X) := by
  have h1 : ∀ g j, Real.exp (X g j - Real.log (Z0 X)) * (X g j - Real.log (Z0 X))
      = (1 / Z0 X) * (Real.exp (X g j) * X g j) - (Real.log (Z0 X) / Z0 X) * Real.exp (X g j) := by
    intro g j
    rw [Real.exp_sub, Real.exp_log hZ]
    field_simp
  simp only [h1, Finset.sum_sub_distrib, ← Finset.mul_sum]
  have hW : ∑ g, ∑ j, Real.exp (X g j) * X g j = W0 X := rfl
  have hZ' : ∑ g, ∑ j, Real.exp (X g j) = Z0 X := rfl
  rw [hW, hZ']
  field_simp

/-! ### Coercions: the extended-real definitions on real data are the coerced real mirrors -/

/-- The coercion `ℝ → EReal` commutes with finite sums. -/
theorem coe_sum {α : Type*} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem tileL_coe (X : ι → κ → ℝ) (mr : ι → ℝ) (g : ι) :
    tileL (fun g j => (X g j : EReal)) (fun g => (mr g : EReal)) g = (tileLr X mr g : EReal) := by
  simp only [tileL, tileLr, coe_sum, ← EReal.coe_sub, Ideal.exp_coe]

theorem tileS_coe (X : ι → κ → ℝ) (mr : ι → ℝ) (g : ι) :
    tileS (fun g j => (X g j : EReal)) (fun g => (mr g : EReal)) g = (tileSr X mr g : EReal) := by
  simp only [tileS, tileSr, tileL_coe, coe_sum, EReal.coe_add, EReal.coe_mul, ← EReal.coe_sub,
    Ideal.exp_coe]

theorem mergedL_coe (X : ι → κ → ℝ) (mr : ι → ℝ) (M : ℝ) :
    mergedL (fun g j => (X g j : EReal)) (fun g => (mr g : EReal)) (M : EReal)
      = (mergedLr X mr M : EReal) := by
  simp only [mergedL, mergedLr, tileL_coe, coe_sum, EReal.coe_mul, ← EReal.coe_sub, Ideal.exp_coe,
    zero_add]

theorem mergedS_coe (X : ι → κ → ℝ) (mr : ι → ℝ) (M : ℝ) :
    mergedS (fun g j => (X g j : EReal)) (fun g => (mr g : EReal)) (M : EReal)
      = (mergedSr X mr M : EReal) := by
  simp only [mergedS, mergedSr, tileS_coe, coe_sum, EReal.coe_mul, ← EReal.coe_sub, Ideal.exp_coe,
    zero_add]

theorem rowL_coe (X : ι → κ → ℝ) (M' : ℝ) :
    rowL (fun g j => (X g j : EReal)) (M' : EReal) = (rowLr X M' : EReal) := by
  simp only [rowL, rowLr, coe_sum, ← EReal.coe_sub, Ideal.exp_coe, zero_add]

theorem rowLogp_coe (X : ι → κ → ℝ) (M' : ℝ) (h : 0 < rowLr X M') (g : ι) (j : κ) :
    rowLogp (fun g j => (X g j : EReal)) (M' : EReal) g j
      = ((X g j - M' - Real.log (rowLr X M') : ℝ) : EReal) := by
  simp only [rowLogp, rowL_coe, Ideal.log_coe, if_neg (not_le.mpr h), ← EReal.coe_sub]

theorem rowPlogp_coe (X : ι → κ → ℝ) (M' : ℝ) (h : 0 < rowLr X M') :
    rowPlogp (fun g j => (X g j : EReal)) (M' : EReal)
      = ((∑ g, ∑ j, Real.exp (X g j - M' - Real.log (rowLr X M'))
            * (X g j - M' - Real.log (rowLr X M')) : ℝ) : EReal) := by
  simp only [rowPlogp, rowLogp_coe X M' h, Ideal.exp_coe, ← EReal.coe_mul, coe_sum, zero_add]

/-- For real scores and ANY real shifts (per tile `mr g`, common `M`, and the row's `M'`), the merged statistics give the
    row's entropy: `M + log L - S / L` is a real number `e`, `S / L - (M + log L)` is `-e`, and `Σ p log p` is `-e`. -/
theorem merged_entropy [Nonempty ι] [Nonempty κ] (X : ι → κ → ℝ) (mr : ι → ℝ) (M M' : ℝ) :
    ∃ e : ℝ,
      ((M : EReal) + Ideal.log (mergedL (fun g j => (X g j : EReal)) (fun g => (mr g : EReal)) (M : EReal)))
          - Ideal.div (mergedS (fun g j => (X g j : EReal)) (fun g => (mr g : EReal)) (M : EReal))
              (mergedL (fun g j => (X g j : EReal)) (fun g => (mr g : EReal)) (M : EReal)) = (e : EReal)
      ∧ Ideal.div (mergedS (fun g j => (X g j : EReal)) (fun g => (mr g : EReal)) (M : EReal))
              (mergedL (fun g j => (X g j : EReal)) (fun g => (mr g : EReal)) (M : EReal))
          - ((M : EReal) + Ideal.log (mergedL (fun g j => (X g j : EReal)) (fun g => (mr g : EReal)) (M : EReal)))
          = ((-e : ℝ) : EReal)
      ∧ rowPlogp (fun g j => (X g j : EReal)) (M' : EReal) = ((-e : ℝ) : EReal) := by
  have hZ : 0 < Z0 X := Z0_pos X
  have hEM : Real.exp (-M) ≠ 0 := (Real.exp_pos _).ne'
  have hLpos : 0 < mergedLr X mr M := by
    rw [mergedLr_eq]; exact mul_pos (Real.exp_pos _) hZ
  have hRpos : 0 < rowLr X M' := by
    rw [rowLr_eq]; exact mul_pos (Real.exp_pos _) hZ
  -- the real identity behind the first two claims
  have key : M + Real.log (mergedLr X mr M) - mergedSr X mr M * (1 / mergedLr X mr M)
      = Real.log (Z0 X) - W0 X / Z0 X := by
    rw [mergedLr_eq, mergedSr_eq, log_shift M _ hZ]
    field_simp
    ring
  refine ⟨Real.log (Z0 X) - W0 X / Z0 X, ?_, ?_, ?_⟩
  · rw [mergedL_coe, mergedS_coe, Ideal.log_coe, if_neg (not_le.mpr hLpos),
      Ideal.div_coe hLpos.ne', ← EReal.coe_mul, ← EReal.coe_add, ← EReal.coe_sub, key]
  · rw [mergedL_coe, mergedS_coe, Ideal.log_coe, if_neg (not_le.mpr hLpos),
      Ideal.div_coe hLpos.ne', ← EReal.coe_mul, ← EReal.coe_add, ← EReal.coe_sub]
    congr 1
    linarith [key]
  · rw [rowPlogp_coe X M' hRpos]
    congr 1
    have hlog : ∀ g j, X g j - M' - Real.log (rowLr X M') = X g j - Real.log (Z0 X) := by
      intro g j
      rw [rowLr_eq, log_shift M' _ hZ]; ring
    simp only [hlog]
    rw [plogp_real X hZ]; ring

/-- The running maximum (a fold of `max` started from -∞) of finitely many real numbers, at least one, is a real number. -/
theorem fold_max_real [Nonempty κ] (f : κ → EReal) (hf : ∀ j, ∃ r : ℝ, f j = (r : EReal)) :
    ∃ r : ℝ, Finset.univ.fold max (⊥ : EReal) f = (r : EReal) := by
  obtain ⟨i, -, hi⟩ := Finset.exists_mem_eq_sup (Finset.univ : Finset κ) Finset.univ_nonempty f
  obtain ⟨r, hr⟩ := hf i
  refine ⟨r, ?_⟩
  have h : Finset.univ.fold max (⊥ : EReal) f = Finset.univ.sup f := rfl
  rw [h, hi, hr]

end EntropyLaw

end
-- ==== Proof.LibTileSums.lean ====
/-
  Two rearrangements of a finite sum in any commutative additive monoid (so also over the extended reals, where
  no finiteness is needed for them):

  * a sum over `2n` terms folded in halves: adding term `k` to term `n + k` first and summing the `n` pairs
    gives the whole sum;
  * a sum over `T * n` terms taken tile by tile: summing each run of `n` consecutive terms and then the `T` runs
    gives the whole sum.
-/
import Mathlib.Algebra.BigOperators.Fin
import Mathlib.Data.Fintype.BigOperators
import Mathlib.Logic.Equiv.Fin.Basic

namespace TileSums

open Finset

variable {M : Type*} [AddCommMonoid M]

/-- Folding the two halves of a sum of `n + n` terms pairwise: `∑ₖ (f k + f (n + k)) = ∑ f`. -/
theorem sum_fold_halves (n : ℕ) (f : Fin (n + n) → M) :
    ∑ k : Fin n, (f (Fin.castAdd n k) + f (Fin.natAdd n k)) = ∑ d : Fin (n + n), f d := by
  rw [Finset.sum_add_distrib, Fin.sum_univ_add]

/-- The same with the two terms named by their positions `k` and `n + k`. -/
theorem sum_fold_halves_val (n : ℕ) (f : Fin (n + n) → M) :
    ∑ k : Fin n, (f ⟨k.val, by omega⟩ + f ⟨n + k.val, by omega⟩) = ∑ d : Fin (n + n), f d :=
  sum_fold_halves n f

/-- A sum of `T * n` terms taken in `T` consecutive tiles of `n`: `∑ⱼ ∑ᵢ f (n j + i) = ∑ f`. -/
theorem sum_tiles (T n : ℕ) (f : Fin (T * n) → M) :
    ∑ j : Fin T, ∑ i : Fin n, f (finProdFinEquiv (j, i)) = ∑ x : Fin (T * n), f x := by
  rw [← Fintype.sum_prod_type (f := fun p : Fin T × Fin n => f (finProdFinEquiv p))]
  exact Equiv.sum_comp finProdFinEquiv f

/-- Tile `j`'s term `i` is term `n j + i` of the whole. -/
theorem tile_val (T n : ℕ) (j : Fin T) (i : Fin n) :
    ((finProdFinEquiv (j, i) : Fin (T * n)) : ℕ) = n * j.val + i.val := by
  simp only [finProdFinEquiv_apply_val]; omega

/-- Summing over `range (k + 1)` of a function of naturals, as a sum over `Fin (k + 1)`. -/
theorem sum_range_eq_sum_fin (k : ℕ) (g : ℕ → M) : ∑ j ∈ Finset.range k, g j = ∑ j : Fin k, g j.val :=
  (Fin.sum_univ_eq_sum_range g k).symm

end TileSums
-- ==== Proof.EntropyBridge.lean ====
import proofs.«169014_j74002286510759_2_alg».proof.Proof.EntropyLaw
import proofs.«169014_j74002286510759_2_alg».proof.Proof.LibTileSums
import proofs.«169014_j74002286510759_2_alg».proof.Proof.Cols

/-!
# A row of 401408 scores as 49 chunks of 8192

The whole-row softmax statistics are sums over the 401408 columns of a row; the chunked computation works with 49 chunks of
8192 columns each, column `j` of chunk `g` being column `8192 g + j`. A sum over the columns is the double sum over chunks and
columns within a chunk, so the entropy law for chunked statistics applies to a row given by its 401408 real entries.
-/

noncomputable section

namespace EntropyBridge

open Idealize.ShloMosaic EntropyCols

/-- A sum over the 401408 columns, taken chunk by chunk. -/
theorem sum_cols {M : Type*} [AddCommMonoid M] (f : Fin 401408 → M) :
    ∑ d : Fin 401408, f d = ∑ g : Fin 49, ∑ j : Fin 8192, f (col g j) := by
  have hn : 401408 = 49 * 8192 := by norm_num
  have h := TileSums.sum_tiles 49 8192 (fun x : Fin (49 * 8192) => f ((finCongr hn).symm x))
  have h0 : ∑ d : Fin 401408, f d = ∑ x : Fin (49 * 8192), f ((finCongr hn).symm x) :=
    Fintype.sum_equiv (finCongr hn) _ _ fun d => congrArg f (Fin.ext rfl)
  refine h0.trans (h.symm.trans ?_)
  refine Finset.sum_congr rfl fun g _ => Finset.sum_congr rfl fun j _ => congrArg f (Fin.ext ?_)
  show ((finProdFinEquiv (g, j) : Fin (49 * 8192)) : ℕ) = g.val * 8192 + j.val
  rewrite [TileSums.tile_val]; ring

/-- The whole row's `Σ p log p` written over the 401408 columns (started from 0), for a shift `M'`. -/
def rowSum (y : Fin 401408 → EReal) (M' : EReal) : EReal := 0 + ∑ k : Fin 401408, Ideal.exp (y k - M')
def rowLp (y : Fin 401408 → EReal) (M' : EReal) (d : Fin 401408) : EReal := (y d - M') - Ideal.log (rowSum y M')
def rowPlp (y : Fin 401408 → EReal) (M' : EReal) : EReal := 0 + ∑ d : Fin 401408, Ideal.exp (rowLp y M' d) * rowLp y M' d

/-- The column-wise statistics are the chunk-wise ones of the row cut into chunks. -/
theorem rowPlp_eq (y : Fin 401408 → EReal) (M' : EReal) :
    rowPlp y M' = EntropyLaw.rowPlogp (fun g j => y (col g j)) M' := by
  have hL : rowSum y M' = EntropyLaw.rowL (fun g j => y (col g j)) M' := by
    unfold rowSum EntropyLaw.rowL
    exact congrArg (fun s : EReal => 0 + s) (sum_cols _)
  have hlp : ∀ g j, rowLp y M' (col g j) = EntropyLaw.rowLogp (fun g j => y (col g j)) M' g j := by
    intro g j
    unfold rowLp EntropyLaw.rowLogp
    exact congrArg (fun s : EReal => (y (col g j) - M') - Ideal.log s) hL
  unfold rowPlp EntropyLaw.rowPlogp
  refine congrArg (fun s : EReal => 0 + s) ((sum_cols _).trans ?_)
  refine Finset.sum_congr rfl fun g _ => Finset.sum_congr rfl fun j _ => ?_
  exact congrArg (fun s : EReal => Ideal.exp s * s) (hlp g j)

/-- THE ROW LAW: for a row of real entries `y`, real chunk shifts `mr`, a real common shift `M` and a real whole-row shift `M'`:
    the merged chunk statistics give a real number `e` as `M + log L - S / L`, give `-e` as `S / L - (M + log L)`, and the whole
    row's `Σ p log p` is `-e`. -/
theorem row_law (y : Fin 401408 → ℝ) (mr : Fin 49 → ℝ) (M M' : ℝ) :
    ∃ e : ℝ,
      ((M : EReal) + Ideal.log (EntropyLaw.mergedL (fun g j => ((y (col g j) : ℝ) : EReal)) (fun g => (mr g : EReal)) (M : EReal)))
          - Ideal.div (EntropyLaw.mergedS (fun g j => ((y (col g j) : ℝ) : EReal)) (fun g => (mr g : EReal)) (M : EReal))
              (EntropyLaw.mergedL (fun g j => ((y (col g j) : ℝ) : EReal)) (fun g => (mr g : EReal)) (M : EReal)) = (e : EReal)
      ∧ Ideal.div (EntropyLaw.mergedS (fun g j => ((y (col g j) : ℝ) : EReal)) (fun g => (mr g : EReal)) (M : EReal))
              (EntropyLaw.mergedL (fun g j => ((y (col g j) : ℝ) : EReal)) (fun g => (mr g : EReal)) (M : EReal))
          - ((M : EReal) + Ideal.log (EntropyLaw.mergedL (fun g j => ((y (col g j) : ℝ) : EReal)) (fun g => (mr g : EReal)) (M : EReal)))
          = ((-e : ℝ) : EReal)
      ∧ rowPlp (fun d => ((y d : ℝ) : EReal)) (M' : EReal) = ((-e : ℝ) : EReal) := by
  obtain ⟨e, h1, h2, h3⟩ := EntropyLaw.merged_entropy (fun g j => y (col g j)) mr M M'
  exact ⟨e, h1, h2, (rowPlp_eq _ _).trans h3⟩

/-- THE ROW LAW FROM ENTRIES. A row of real entries `y`; per chunk `g` three numbers: `a1 g` the chunk's maximum, `a2 g` its sum of
    exponentials shifted by that maximum, `a3 g` its weighted sum shifted back; `Mk` the largest chunk maximum; any real shift
    `M'` for the whole row. Then the merged chunk statistics and the whole row's `Σ p log p` are negatives of each other. -/
theorem row_eq (y : Fin 401408 → ℝ) (a1 a2 a3 : Fin 49 → EReal) (Mk M' : EReal)
    (h1 : ∀ g, a1 g = Finset.univ.fold max (⊥ : EReal) (fun j : Fin 8192 => ((y (col g j) : ℝ) : EReal)))
    (h2 : ∀ g, a2 g = ∑ j : Fin 8192, Ideal.exp (((y (col g j) : ℝ) : EReal) - a1 g))
    (h3 : ∀ g, a3 g = (∑ j : Fin 8192, Ideal.exp (((y (col g j) : ℝ) : EReal) - a1 g) * (((y (col g j) : ℝ) : EReal) - a1 g))
        + a1 g * ∑ j : Fin 8192, Ideal.exp (((y (col g j) : ℝ) : EReal) - a1 g))
    (hM : Mk = Finset.univ.fold max (⊥ : EReal) a1) (hM' : ∃ v : ℝ, M' = (v : EReal)) :
    (Mk + Ideal.log (0 + ∑ g : Fin 49, a2 g * Ideal.exp (a1 g - Mk)))
        - Ideal.div (0 + ∑ g : Fin 49, a3 g * Ideal.exp (a1 g - Mk)) (0 + ∑ g : Fin 49, a2 g * Ideal.exp (a1 g - Mk))
      = -(rowPlp (fun d => ((y d : ℝ) : EReal)) M')
    ∧ Ideal.div (0 + ∑ g : Fin 49, a3 g * Ideal.exp (a1 g - Mk)) (0 + ∑ g : Fin 49, a2 g * Ideal.exp (a1 g - Mk))
        - (Mk + Ideal.log (0 + ∑ g : Fin 49, a2 g * Ideal.exp (a1 g - Mk)))
      = rowPlp (fun d => ((y d : ℝ) : EReal)) M' := by
  obtain ⟨mr, hmr⟩ : ∃ mr : Fin 49 → ℝ, ∀ g, a1 g = ((mr g : ℝ) : EReal) := by
    have : ∀ g, ∃ v : ℝ, a1 g = (v : EReal) := fun g => by
      rw [h1 g]; exact EntropyLaw.fold_max_real _ fun j => ⟨_, rfl⟩
    exact ⟨fun g => (this g).choose, fun g => (this g).choose_spec⟩
  obtain ⟨Mr, hMr⟩ : ∃ v : ℝ, Mk = (v : EReal) := by
    rw [hM]; exact EntropyLaw.fold_max_real _ fun g => ⟨_, hmr g⟩
  obtain ⟨Mr', hMr'⟩ := hM'
  obtain ⟨e, e1, e2, e3⟩ := row_law y mr Mr Mr'
  have ha1 : a1 = fun g => ((mr g : ℝ) : EReal) := funext hmr
  have hL : (0 + ∑ g : Fin 49, a2 g * Ideal.exp (a1 g - Mk))
      = EntropyLaw.mergedL (fun g j => ((y (col g j) : ℝ) : EReal)) (fun g => (mr g : EReal)) (Mr : EReal) := by
    unfold EntropyLaw.mergedL EntropyLaw.tileL
    refine congrArg (fun s : EReal => 0 + s) (Finset.sum_congr rfl fun g _ => ?_)
    rw [h2 g, hmr g, hMr]
  have hS : (0 + ∑ g : Fin 49, a3 g * Ideal.exp (a1 g - Mk))
      = EntropyLaw.mergedS (fun g j => ((y (col g j) : ℝ) : EReal)) (fun g => (mr g : EReal)) (Mr : EReal) := by
    unfold EntropyLaw.mergedS EntropyLaw.tileS EntropyLaw.tileL
    refine congrArg (fun s : EReal => 0 + s) (Finset.sum_congr rfl fun g _ => ?_)
    rw [h3 g, hmr g, hMr]
  rw [hL, hS, hMr, hMr', e1, e2, e3]
  refine ⟨?_, rfl⟩
  rw [← EReal.coe_neg, neg_neg]

/-- The mean of column `d` of a 256-row matrix of reals. -/
def colMean (Xr : Fin 256 → Fin 401408 → ℝ) (d : Fin 401408) : ℝ := (∑ r : Fin 256, Xr r d) / 256

/-- A real number divided by 256 the programs' way. -/
theorem div_256 (a : ℝ) : Ideal.div ((a : ℝ) : EReal) ((256 : ℝ) : EReal) = ((a / 256 : ℝ) : EReal) := by
  rw [Ideal.div_coe (by norm_num : (256 : ℝ) ≠ 0), ← EReal.coe_mul, mul_one_div]

end EntropyBridge

end
-- ==== Proof.KernelFormula.lean ====
import proofs.«169014_j74002286510759_2_alg».proof.Proof.KernelValue
import proofs.«169014_j74002286510759_2_alg».proof.Proof.KernelTail
import proofs.«169014_j74002286510759_2_alg».proof.Proof.EntropyBridge

/-!
# The kernel program's two results for a matrix of real numbers

For a matrix of reals the six arrays of per-chunk statistics hold, entry by entry, the chunk maxima, shifted sums of
exponentials and shifted-back weighted sums that the row law speaks of: per row for the first three arrays, of the row of
column means for the last three. So the first merge chain gives the mean over the rows of minus the row's `Σ p log p`, and
the second gives the `Σ p log p` of the row of column means — each written with any real shift the whole-row side may use.
-/

noncomputable section

namespace Cert.KernelIdeal.Whole

open Cert.KernelIdeal Cert.KernelIdeal.Tile Cert.KernelIdeal.Tail Idealize.ShloMosaic Idealize.ShloMosaic.ValueIdx
open EntropyBridge EntropyCols

/-- A matrix of real numbers as an array of extended reals. -/
def coeMat (Xr : Fin 256 → Fin 401408 → ℝ) : S256x401408.Idx → EReal :=
  fun i => ((Xr ⟨(i 0).val, (i 0).isLt⟩ ⟨(i 1).val, (i 1).isLt⟩ : ℝ) : EReal)

/-- An array all of whose entries are real numbers is the array of a matrix of reals. -/
theorem exists_coeMat (X : S256x401408.Idx → EReal) (hX : ∀ i, ∃ v : ℝ, X i = (v : EReal)) :
    ∃ Xr : Fin 256 → Fin 401408 → ℝ, X = coeMat Xr := by
  refine ⟨fun r d => (hX (ix2 r d)).choose, funext fun i => ?_⟩
  have h := (hX (ix2 (⟨(i 0).val, (i 0).isLt⟩ : Fin 256) (⟨(i 1).val, (i 1).isLt⟩ : Fin 401408))).choose_spec
  exact (congrArg X (eq_ix2 i)).trans h

variable (Xr : Fin 256 → Fin 401408 → ℝ)

theorem K1_entry (g : Fin 49) (r : Fin 256) : K1 (coeMat Xr) (ix3 g (0 : Fin 1) r)
    = Finset.univ.fold max (⊥ : EReal) (fun j : Fin 8192 => ((Xr r (col g j) : ℝ) : EReal)) := rfl

theorem K2_entry (g : Fin 49) (r : Fin 256) : K2 (coeMat Xr) (ix3 g (0 : Fin 1) r)
    = ∑ j : Fin 8192, Ideal.exp (((Xr r (col g j) : ℝ) : EReal) - K1 (coeMat Xr) (ix3 g (0 : Fin 1) r)) := rfl

theorem K3_entry (g : Fin 49) (r : Fin 256) : K3 (coeMat Xr) (ix3 g (0 : Fin 1) r)
    = (∑ j : Fin 8192, Ideal.exp (((Xr r (col g j) : ℝ) : EReal) - K1 (coeMat Xr) (ix3 g (0 : Fin 1) r))
          * (((Xr r (col g j) : ℝ) : EReal) - K1 (coeMat Xr) (ix3 g (0 : Fin 1) r)))
        + K1 (coeMat Xr) (ix3 g (0 : Fin 1) r)
          * ∑ j : Fin 8192, Ideal.exp (((Xr r (col g j) : ℝ) : EReal) - K1 (coeMat Xr) (ix3 g (0 : Fin 1) r)) := rfl

/-- THE FIRST RESULT: the mean over the 256 rows of minus the row's `Σ p log p`, for any real whole-row shifts `M' r`. -/
theorem kernel_L1 (M' : Fin 256 → EReal) (hM' : ∀ r, ∃ v : ℝ, M' r = (v : EReal)) :
    tailL1 (K1 (coeMat Xr)) (K2 (coeMat Xr)) (K3 (coeMat Xr)) ix0
      = Ideal.div (0 + ∑ r : Fin 256, -(rowPlp (fun d => ((Xr r d : ℝ) : EReal)) (M' r))) ((256 : ℝ) : EReal) := by
  refine (tailL1_apply _ _ _).trans ?_
  refine congrArg (fun s : EReal => Ideal.div (0 + s) ((256 : ℝ) : EReal)) (Finset.sum_congr rfl fun r _ => ?_)
  exact (row_eq (Xr r) (fun g => K1 (coeMat Xr) (ix3 g (0 : Fin 1) r)) (fun g => K2 (coeMat Xr) (ix3 g (0 : Fin 1) r))
    (fun g => K3 (coeMat Xr) (ix3 g (0 : Fin 1) r)) (colMax (K1 (coeMat Xr)) r) (M' r)
    (fun g => K1_entry Xr g r) (fun g => K2_entry Xr g r) (fun g => K3_entry Xr g r) rfl (hM' r)).1

/-- The scale 2⁻⁸ is the real number 1/256. -/
theorem cInv_eq : cInv = (((1 : ℝ) / 256 : ℝ) : EReal) := by
  show Ideal.ofBits .f32 0x3B800000#32 = _
  simp [Ideal.ofBits, Ideal.ieee]
  norm_cast
  norm_num

/-- A column mean of a chunk is a real number: the column's mean. -/
theorem acol_entry (g : Fin 49) (j : Fin 8192) : acol (tile (coeMat Xr) g) j = ((colMean Xr (col g j) : ℝ) : EReal) := by
  show (∑ r : Fin 256, ((Xr r (col g j) : ℝ) : EReal)) * cInv = _
  rw [cInv_eq, ← EntropyLaw.coe_sum, ← EReal.coe_mul]
  unfold colMean
  rw [mul_one_div]

theorem K4_entry (g : Fin 49) : K4 (coeMat Xr) (ix3 g (0 : Fin 1) (0 : Fin 128))
    = Finset.univ.fold max (⊥ : EReal) (fun j : Fin 8192 => ((colMean Xr (col g j) : ℝ) : EReal)) := by
  have e : K4 (coeMat Xr) (ix3 g (0 : Fin 1) (0 : Fin 128)) = amax (tile (coeMat Xr) g) := rfl
  rewrite [e]
  unfold amax
  exact congrArg (fun f => Finset.univ.fold max (⊥ : EReal) f) (funext fun j => acol_entry Xr g j)

theorem K5_entry (g : Fin 49) : K5 (coeMat Xr) (ix3 g (0 : Fin 1) (0 : Fin 128))
    = ∑ j : Fin 8192, Ideal.exp (((colMean Xr (col g j) : ℝ) : EReal) - K4 (coeMat Xr) (ix3 g (0 : Fin 1) (0 : Fin 128))) :=
  Finset.sum_congr rfl fun j _ => congrArg (fun s : EReal => Ideal.exp (s - K4 (coeMat Xr) (ix3 g (0 : Fin 1) (0 : Fin 128)))) (acol_entry Xr g j)

theorem K6_entry (g : Fin 49) : K6 (coeMat Xr) (ix3 g (0 : Fin 1) (0 : Fin 128))
    = (∑ j : Fin 8192, Ideal.exp (((colMean Xr (col g j) : ℝ) : EReal) - K4 (coeMat Xr) (ix3 g (0 : Fin 1) (0 : Fin 128)))
          * (((colMean Xr (col g j) : ℝ) : EReal) - K4 (coeMat Xr) (ix3 g (0 : Fin 1) (0 : Fin 128))))
        + K4 (coeMat Xr) (ix3 g (0 : Fin 1) (0 : Fin 128))
          * ∑ j : Fin 8192, Ideal.exp (((colMean Xr (col g j) : ℝ) : EReal) - K4 (coeMat Xr) (ix3 g (0 : Fin 1) (0 : Fin 128))) :=
  congrArg₂ (fun p q : EReal => p + K4 (coeMat Xr) (ix3 g (0 : Fin 1) (0 : Fin 128)) * q)
    (Finset.sum_congr rfl fun j _ => congrArg (fun s : EReal => Ideal.exp (s - K4 (coeMat Xr) (ix3 g (0 : Fin 1) (0 : Fin 128))) * (s - K4 (coeMat Xr) (ix3 g (0 : Fin 1) (0 : Fin 128)))) (acol_entry Xr g j))
    (Finset.sum_congr rfl fun j _ => congrArg (fun s : EReal => Ideal.exp (s - K4 (coeMat Xr) (ix3 g (0 : Fin 1) (0 : Fin 128)))) (acol_entry Xr g j))

/-- THE SECOND RESULT: the `Σ p log p` of the row of column means, for any real whole-row shift `M'`. -/
theorem kernel_L2 (M' : EReal) (hM' : ∃ v : ℝ, M' = (v : EReal)) :
    tailL2 (K4 (coeMat Xr)) (K5 (coeMat Xr)) (K6 (coeMat Xr)) ix0
      = rowPlp (fun d => ((colMean Xr d : ℝ) : EReal)) M' := by
  refine (tailL2_apply _ _ _).trans ?_
  exact (row_eq (colMean Xr) (fun g => K4 (coeMat Xr) (ix3 g (0 : Fin 1) (0 : Fin 128))) (fun g => K5 (coeMat Xr) (ix3 g (0 : Fin 1) (0 : Fin 128)))
    (fun g => K6 (coeMat Xr) (ix3 g (0 : Fin 1) (0 : Fin 128))) (vecMax (K4 (coeMat Xr))) M'
    (fun g => K4_entry Xr g) (fun g => K5_entry Xr g) (fun g => K6_entry Xr g) rfl hM').2

end Cert.KernelIdeal.Whole

end
-- ==== Proof.RefRunHand.lean ====
import proofs.«169014_j74002286510759_2_alg».proof.Proof.RefOps
import proofs.«169014_j74002286510759_2_alg».proof.Proof.RefRead

/-!
# The reference program's run, one operation at a time

The reference is a straight line of 48 whole-array operations, each writing a buffer of its own once (single assignment).
So what a buffer holds after the whole line is what its operation wrote, computed from what ITS operands hold after the whole
line: no later operation touches either. This module proves that rule for the line, then walks the 48 operations in order,
naming each buffer's final contents as the stage function of the argument, and ends with the run: every weakly fair execution
terminates with the two results at their stage functions and the argument unchanged.
-/

noncomputable section

namespace Cert.ReferenceIdeal.Hand

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running two lines one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The buffers the 48 operations write, in order. -/
def wr : List (Ref sig .tc) :=
  [main_v0, main_call0_cst, main_call0_v0, main_call0_cst_0, main_call0_v1, main_call0_v2, main_call0_v3, main_call0_v4, main_call0_v5, main_call0_v6, main_call0_cst_1, main_call0_v7, main_call0_v8, main_call0_v9, main_call0_v10, main_v1, main_v2, main_v3, main_cst, main_v4, main_v5, main_cst_0, main_v6, main_cst_1, main_v7, main_cst_2, main_v8, main_cst_3, main_v9, main_v10, main_call1_cst, main_call1_v0, main_call1_cst_0, main_call1_v1, main_call1_v2, main_call1_v3, main_call1_v4, main_call1_v5, main_call1_cst_1, main_call1_v6, main_call1_v7, main_call1_v8, main_call1_v9, main_v11, main_v12, main_v13, main_cst_4, main_v14]

/-- Each operation writes exactly its own buffer. -/
theorem writes_eq : (ops (F := F)).map (fun o => o.writes)
    = wr.map (fun r => ({Proc.devRef .tc r} : Finset (DevRef τ sig))) := rfl

/-- A buffer that none of the operations from position `k` on writes. -/
theorem not_written (k : ℕ) (r : Ref sig .tc) (hr : r ∉ wr.drop k) :
    ∀ o ∈ (ops (F := F)).drop k, (Proc.devRef .tc r : DevRef τ sig) ∉ o.writes := by
  intro o ho hb
  have h1 : o.writes ∈ ((ops (F := F)).drop k).map (fun o => o.writes) := List.mem_map_of_mem ho
  rw [List.map_drop, writes_eq, ← List.map_drop] at h1
  obtain ⟨r', hr', e⟩ := List.mem_map.mp h1
  rw [← e, Finset.mem_singleton] at hb
  exact hr ((Proc.devRef_injective _ hb) ▸ hr')

/-- What operation `k` wrote into its buffer is still there at the end: no later operation writes it. -/
theorem after_at (k : ℕ) (op : HloOp τ sig (Elt F)) (hk : (ops (F := F)).drop k = op :: (ops (F := F)).drop (k + 1))
    (V : Valuation τ sig (Elt F)) (r : Ref sig .tc) (hr : r ∉ wr.drop (k + 1)) :
    after (ops (F := F)) V (Proc.devRef .tc r) = op.result (after ((ops (F := F)).take k) V) (Proc.devRef .tc r) := by
  have h := not_written (F := F) (k + 1) r hr
  conv_lhs => rw [← List.take_append_drop k (ops (F := F)), hk]
  rw [after_append, after_cons, after_of_forall_not_mem _ _ h]

/-- What a buffer held before operation `k` it still holds at the end, when no operation from `k` on writes it. -/
theorem after_take (k : ℕ) (V : Valuation τ sig (Elt F)) (r : Ref sig .tc) (hr : r ∉ wr.drop k) :
    after ((ops (F := F)).take k) V (Proc.devRef .tc r) = after (ops (F := F)) V (Proc.devRef .tc r) := by
  have h := not_written (F := F) k r hr
  conv_rhs => rw [← List.take_append_drop k (ops (F := F))]
  rw [after_append, after_of_forall_not_mem _ _ h]

variable (m : (ℓ : Loc nD τ sig) → Buf (Elt F) ℓ)

/-- The argument is never written. -/
theorem A_main_arg0 (c : Dev nD) :
    after (ops (F := F)) (launchContents m c) (Proc.devRef .tc main_arg0) = m ((c.tc : Thread nD τ).loc main_arg0) :=
  after_of_forall_not_mem _ _ (not_written (F := F) 0 main_arg0 (by decide))

/-! ## Contents at a buffer's own type: the same contents -/
theorem tb_main_call0_cst (v : (⟨S_, .f32⟩ : BufTy).Contents (Elt F)) : (TRef.of (sig := sig) (T := ⟨S_, .f32⟩) main_call0_cst).toBuf v = v := rfl
theorem ob_main_call0_cst (v : (main_call0_cst : Ref sig .tc).ty.Contents (Elt F)) : (TRef.of (sig := sig) (T := ⟨S_, .f32⟩) main_call0_cst).ofBuf v = v := rfl
theorem tb_main_call0_v0 (v : (⟨S256, .f32⟩ : BufTy).Contents (Elt F)) : (TRef.of (sig := sig) (T := ⟨S256, .f32⟩) main_call0_v0).toBuf v = v := rfl
theorem ob_main_call0_v0 (v : (main_call0_v0 : Ref sig .tc).ty.Contents (Elt F)) : (TRef.of (sig := sig) (T := ⟨S256, .f32⟩) main_call0_v0).ofBuf v = v := rfl
theorem tb_main_v0 (v : (⟨S256x401408, .f32⟩ : BufTy).Contents (Elt F)) : (TRef.of (sig := sig) (T := ⟨S256x401408, .f32⟩) main_v0).toBuf v = v := rfl
theorem ob_main_v0 (v : (main_v0 : Ref sig .tc).ty.Contents (Elt F)) : (TRef.of (sig := sig) (T := ⟨S256x401408, .f32⟩) main_v0).ofBuf v = v := rfl
theorem tb_main_call0_cst_0 (v : (⟨S_, .f32⟩ : BufTy).Contents (Elt F)) : (TRef.of (sig := sig) (T := ⟨S_, .f32⟩) main_call0_cst_0).toBuf v = v := rfl
theorem ob_main_call0_cst_0 (v : (main_call0_cst_0 : Ref sig .tc).ty.Contents (Elt F)) : (TRef.of (sig := sig) (T := ⟨S_, .f32⟩) main_call0_cst_0).ofBuf v = v := rfl
theorem tb_main_call0_v1 (v : (⟨S256, .f32⟩ : BufTy).Contents (Elt F)) : (TRef.of (sig := sig) (T := ⟨S256, .f32⟩) main_call0_v1).toBuf v = v := rfl
theorem ob_main_call0_v1 (v : (main_call0_v1 : Ref sig .tc).ty.Contents (Elt F)) : (TRef.of (sig := sig) (T := ⟨S256, .f32⟩) main_call0_v1).ofBuf v = v := rfl
theorem tb_main_call0_v2 (v : (⟨S256, .f32⟩ : BufTy).Contents (Elt F)) : (TRef.of (sig := sig) (T := ⟨S256, .f32⟩) main_call0_v2).toBuf v = v := rfl
theorem ob_main_call0_v2 (v : (main_call0_v2 : Ref sig .tc).ty.Contents (Elt F)) : (TRef.of (sig := sig) (T := ⟨S256, .f32⟩) main_call0_v2).ofBuf v = v := rfl
theorem tb_main_call0_v3 (v : (⟨S256x1, .f32⟩ : BufTy).Contents (Elt F)) : (TRef.of (sig := sig) (T := ⟨S256x1, .f32⟩) main_call0_v3).toBuf v = v := rfl
theorem ob_main_call0_v3 (v : (main_call0_v3 : Ref sig .tc).ty.Contents (Elt F)) : (TRef.of (sig := sig) (T := ⟨S256x1, .f32⟩) main_call0_v3).ofBuf v = v := rfl
theorem tb_main_call0_v4 (v : (⟨S256x401408, .f32⟩ : BufTy).Contents (Elt F)) : (TRef.of (sig := sig) (T := ⟨S256x401408, .f32⟩) main_call0_v4).toBuf v = v := rfl
theorem ob_main_call0_v4 (v : (main_call0_v4 : Ref sig .tc).ty.Contents (Elt F)) : (TRef.of (sig := sig) (T := ⟨S256x401408, .f32⟩) main_call0_v4).ofBuf v = v := rfl
theorem tb_main_call0_v5 (v : (⟨S256x401408, .f32⟩ : BufTy).Contents (Elt F)) : (TRef.of (sig := sig) (T := ⟨S256x401408, .f32⟩) main_call0_v5).toBuf v = v := rfl
theorem ob_main_call0_v5 (v : (main_call0_v5 : Ref sig .tc).ty.Contents (Elt F)) : (TRef.of (sig := sig) (T := ⟨S256x401408, .f32⟩) main_call0_v5).ofBuf v = v := rfl
theorem tb_main_call0_v6 (v : (⟨S256x401408, .f32⟩ : BufTy).Contents (Elt F)) : (TRef.of (sig := sig) (T := ⟨S256x401408, .f32⟩) main_call0_v6).toBuf v = v := rfl
theorem ob_main_call0_v6 (v : (main_call0_v6 : Ref sig .tc).ty.Contents (Elt F)) : (TRef.of (sig := sig) (T := ⟨S256x401408, .f32⟩) main_call0_v6).ofBuf v = v := rfl
theorem tb_main_call0_cst_1 (v : (⟨S_, .f32⟩ : BufTy).Contents (Elt F)) : (TRef.of (sig := sig) (T := ⟨S_, .f32⟩) main_call0_cst_1).toBuf v = v := rfl
theorem ob_main_call0_cst_1 (v : (main_call0_cst_1 : Ref sig .tc).ty.Contents (Elt F)) : (TRef.of (sig := sig) (T := ⟨S_, .f32⟩) main_call0_cst_1).ofBuf v = v := rfl
theorem tb_main_call0_v7 (v : (⟨S256, .f32⟩ : BufTy).Contents (Elt F)) : (TRef.of (sig := sig) (T := ⟨S256, .f32⟩) main_call0_v7).toBuf v = v := rfl
theorem ob_main_call0_v7 (v : (main_call0_v7 : Ref sig .tc).ty.Contents (Elt F)) : (TRef.of (sig := sig) (T := ⟨S256, .f32⟩) main_call0_v7).ofBuf v = v := rfl
theorem tb_main_call0_v8 (v : (⟨S256x1, .f32⟩ : BufTy).Contents (Elt F)) : (TRef.of (sig := sig) (T := ⟨S256x1, .f32⟩) main_call0_v8).toBuf v = v := rfl
theorem ob_main_call0_v8 (v : (main_call0_v8 : Ref sig .tc).ty.Contents (Elt F)) : (TRef.of (sig := sig) (T := ⟨S256x1, .f32⟩) main_call0_v8).ofBuf v = v := rfl
theorem tb_main_call0_v9 (v : (⟨S256x1, .f32⟩ : BufTy).Contents (Elt F)) : (TRef.of (sig := sig) (T := ⟨S256x1, .f32⟩) main_call0_v9).toBuf v = v := rfl
theorem ob_main_call0_v9 (v : (main_call0_v9 : Ref sig .tc).ty.Contents (Elt F)) : (TRef.of (sig := sig) (T := ⟨S256x1, .f32⟩) main_call0_v9).ofBuf v = v := rfl
theorem tb_main_call0_v10 (v : (⟨S256x401408, .f32⟩ : BufTy).Contents (Elt F)) : (TRef.of (sig := sig) (T := ⟨S256x401408, .f32⟩) main_call0_v10).toBuf v = v := rfl
theorem ob_main_call0_v10 (v : (main_call0_v10 : Ref sig .tc).ty.Contents (Elt F)) : (TRef.of (sig := sig) (T := ⟨S256x401408, .f32⟩) main_call0_v10).ofBuf v = v := rfl
theorem tb_main_v1 (v : (⟨S256x401408, .f32⟩ : BufTy).Contents (Elt F)) : (TRef.of (sig := sig) (T := ⟨S256x401408, .f32⟩) main_v1).toBuf v = v := rfl
theorem ob_main_v1 (v : (main_v1 : Ref sig .tc).ty.Contents (Elt F)) : (TRef.of (sig := sig) (T := ⟨S256x401408, .f32⟩) main_v1).ofBuf v = v := rfl
theorem tb_main_call1_cst (v : (⟨S_, .f32⟩ : BufTy).Contents (Elt F)) : (TRef.of (sig := sig) (T := ⟨S_, .f32⟩) main_call1_cst).toBuf v = v := rfl
theorem ob_main_call1_cst (v : (main_call1_cst : Ref sig .tc).ty.Contents (Elt F)) : (TRef.of (sig := sig) (T := ⟨S_, .f32⟩) main_call1_cst).ofBuf v = v := rfl
theorem tb_main_call1_v0 (v : (⟨S_, .f32⟩ : BufTy).Contents (Elt F)) : (TRef.of (sig := sig) (T := ⟨S_, .f32⟩) main_call1_v0).toBuf v = v := rfl
theorem ob_main_call1_v0 (v : (main_call1_v0 : Ref sig .tc).ty.Contents (Elt F)) : (TRef.of (sig := sig) (T := ⟨S_, .f32⟩) main_call1_v0).ofBuf v = v := rfl
theorem tb_main_v10 (v : (⟨S401408, .f32⟩ : BufTy).Contents (Elt F)) : (TRef.of (sig := sig) (T := ⟨S401408, .f32⟩) main_v10).toBuf v = v := rfl
theorem ob_main_v10 (v : (main_v10 : Ref sig .tc).ty.Contents (Elt F)) : (TRef.of (sig := sig) (T := ⟨S401408, .f32⟩) main_v10).ofBuf v = v := rfl
theorem tb_main_call1_cst_0 (v : (⟨S_, .f32⟩ : BufTy).Contents (Elt F)) : (TRef.of (sig := sig) (T := ⟨S_, .f32⟩) main_call1_cst_0).toBuf v = v := rfl
theorem ob_main_call1_cst_0 (v : (main_call1_cst_0 : Ref sig .tc).ty.Contents (Elt F)) : (TRef.of (sig := sig) (T := ⟨S_, .f32⟩) main_call1_cst_0).ofBuf v = v := rfl
theorem tb_main_call1_v1 (v : (⟨S_, .f32⟩ : BufTy).Contents (Elt F)) : (TRef.of (sig := sig) (T := ⟨S_, .f32⟩) main_call1_v1).toBuf v = v := rfl
theorem ob_main_call1_v1 (v : (main_call1_v1 : Ref sig .tc).ty.Contents (Elt F)) : (TRef.of (sig := sig) (T := ⟨S_, .f32⟩) main_call1_v1).ofBuf v = v := rfl
theorem tb_main_call1_v2 (v : (⟨S1, .f32⟩ : BufTy).Contents (Elt F)) : (TRef.of (sig := sig) (T := ⟨S1, .f32⟩) main_call1_v2).toBuf v = v := rfl
theorem ob_main_call1_v2 (v : (main_call1_v2 : Ref sig .tc).ty.Contents (Elt F)) : (TRef.of (sig := sig) (T := ⟨S1, .f32⟩) main_call1_v2).ofBuf v = v := rfl
theorem tb_main_call1_v3 (v : (⟨S401408, .f32⟩ : BufTy).Contents (Elt F)) : (TRef.of (sig := sig) (T := ⟨S401408, .f32⟩) main_call1_v3).toBuf v = v := rfl
theorem ob_main_call1_v3 (v : (main_call1_v3 : Ref sig .tc).ty.Contents (Elt F)) : (TRef.of (sig := sig) (T := ⟨S401408, .f32⟩) main_call1_v3).ofBuf v = v := rfl
theorem tb_main_call1_v4 (v : (⟨S401408, .f32⟩ : BufTy).Contents (Elt F)) : (TRef.of (sig := sig) (T := ⟨S401408, .f32⟩) main_call1_v4).toBuf v = v := rfl
theorem ob_main_call1_v4 (v : (main_call1_v4 : Ref sig .tc).ty.Contents (Elt F)) : (TRef.of (sig := sig) (T := ⟨S401408, .f32⟩) main_call1_v4).ofBuf v = v := rfl
theorem tb_main_call1_v5 (v : (⟨S401408, .f32⟩ : BufTy).Contents (Elt F)) : (TRef.of (sig := sig) (T := ⟨S401408, .f32⟩) main_call1_v5).toBuf v = v := rfl
theorem ob_main_call1_v5 (v : (main_call1_v5 : Ref sig .tc).ty.Contents (Elt F)) : (TRef.of (sig := sig) (T := ⟨S401408, .f32⟩) main_call1_v5).ofBuf v = v := rfl
theorem tb_main_call1_cst_1 (v : (⟨S_, .f32⟩ : BufTy).Contents (Elt F)) : (TRef.of (sig := sig) (T := ⟨S_, .f32⟩) main_call1_cst_1).toBuf v = v := rfl
theorem ob_main_call1_cst_1 (v : (main_call1_cst_1 : Ref sig .tc).ty.Contents (Elt F)) : (TRef.of (sig := sig) (T := ⟨S_, .f32⟩) main_call1_cst_1).ofBuf v = v := rfl
theorem tb_main_call1_v6 (v : (⟨S_, .f32⟩ : BufTy).Contents (Elt F)) : (TRef.of (sig := sig) (T := ⟨S_, .f32⟩) main_call1_v6).toBuf v = v := rfl
theorem ob_main_call1_v6 (v : (main_call1_v6 : Ref sig .tc).ty.Contents (Elt F)) : (TRef.of (sig := sig) (T := ⟨S_, .f32⟩) main_call1_v6).ofBuf v = v := rfl
theorem tb_main_call1_v7 (v : (⟨S1, .f32⟩ : BufTy).Contents (Elt F)) : (TRef.of (sig := sig) (T := ⟨S1, .f32⟩) main_call1_v7).toBuf v = v := rfl
theorem ob_main_call1_v7 (v : (main_call1_v7 : Ref sig .tc).ty.Contents (Elt F)) : (TRef.of (sig := sig) (T := ⟨S1, .f32⟩) main_call1_v7).ofBuf v = v := rfl
theorem tb_main_call1_v8 (v : (⟨S1, .f32⟩ : BufTy).Contents (Elt F)) : (TRef.of (sig := sig) (T := ⟨S1, .f32⟩) main_call1_v8).toBuf v = v := rfl
theorem ob_main_call1_v8 (v : (main_call1_v8 : Ref sig .tc).ty.Contents (Elt F)) : (TRef.of (sig := sig) (T := ⟨S1, .f32⟩) main_call1_v8).ofBuf v = v := rfl
theorem tb_main_call1_v9 (v : (⟨S401408, .f32⟩ : BufTy).Contents (Elt F)) : (TRef.of (sig := sig) (T := ⟨S401408, .f32⟩) main_call1_v9).toBuf v = v := rfl
theorem ob_main_call1_v9 (v : (main_call1_v9 : Ref sig .tc).ty.Contents (Elt F)) : (TRef.of (sig := sig) (T := ⟨S401408, .f32⟩) main_call1_v9).ofBuf v = v := rfl
theorem tb_main_v11 (v : (⟨S401408, .f32⟩ : BufTy).Contents (Elt F)) : (TRef.of (sig := sig) (T := ⟨S401408, .f32⟩) main_v11).toBuf v = v := rfl
theorem ob_main_v11 (v : (main_v11 : Ref sig .tc).ty.Contents (Elt F)) : (TRef.of (sig := sig) (T := ⟨S401408, .f32⟩) main_v11).ofBuf v = v := rfl

theorem A_main_v0 (c : Dev nD) :
    after (ops (F := F)) (launchContents m c) (Proc.devRef .tc main_v0) = val_main_v0 (F := F) (m ((c.tc : Thread nD τ).loc main_arg0)) := by
  have e0 := (after_take 0 (launchContents m c) main_arg0 (by decide)).trans (A_main_arg0 m c)
  refine (after_at 0 _ rfl (launchContents m c) main_v0 (by decide)).trans ?_
  generalize after (List.take 0 (ops (F := F))) (launchContents m c) = W at e0 ⊢
  rewrite [reshape_result, e0]
  first | with_reducible_and_instances rfl | (unfold val_main_v0; with_reducible_and_instances rfl)

theorem A_main_call0_cst (c : Dev nD) :
    after (ops (F := F)) (launchContents m c) (Proc.devRef .tc main_call0_cst) = val_main_call0_cst (F := F) := by
  refine (after_at 1 _ rfl (launchContents m c) main_call0_cst (by decide)).trans ?_
  rewrite [nullary_result]
  unfold val_main_call0_cst
  rewrite [tb_main_call0_cst]
  first | with_reducible rfl | with_reducible_and_instances rfl

theorem A_main_call0_v0 (c : Dev nD) :
    after (ops (F := F)) (launchContents m c) (Proc.devRef .tc main_call0_v0) = val_main_call0_v0 (F := F) (m ((c.tc : Thread nD τ).loc main_arg0)) := by
  have e0 := (after_take 2 (launchContents m c) main_v0 (by decide)).trans (A_main_v0 m c)
  have e1 := (after_take 2 (launchContents m c) main_call0_cst (by decide)).trans (A_main_call0_cst m c)
  refine (after_at 2 _ rfl (launchContents m c) main_call0_v0 (by decide)).trans ?_
  generalize after (List.take 2 (ops (F := F))) (launchContents m c) = W at e0 e1 ⊢
  rewrite [binary_result, e0, e1]
  unfold val_main_call0_v0
  rewrite [tb_main_call0_v0]
  try rewrite [ob_main_v0]
  try rewrite [ob_main_call0_cst]
  first | with_reducible rfl | with_reducible_and_instances rfl

theorem A_main_call0_cst_0 (c : Dev nD) :
    after (ops (F := F)) (launchContents m c) (Proc.devRef .tc main_call0_cst_0) = val_main_call0_cst_0 (F := F) := by
  refine (after_at 3 _ rfl (launchContents m c) main_call0_cst_0 (by decide)).trans ?_
  rewrite [nullary_result]
  unfold val_main_call0_cst_0
  rewrite [tb_main_call0_cst_0]
  first | with_reducible rfl | with_reducible_and_instances rfl

theorem A_main_call0_v1 (c : Dev nD) :
    after (ops (F := F)) (launchContents m c) (Proc.devRef .tc main_call0_v1) = val_main_call0_v1 (F := F) := by
  have e0 := (after_take 4 (launchContents m c) main_call0_cst_0 (by decide)).trans (A_main_call0_cst_0 m c)
  refine (after_at 4 _ rfl (launchContents m c) main_call0_v1 (by decide)).trans ?_
  generalize after (List.take 4 (ops (F := F))) (launchContents m c) = W at e0 ⊢
  rewrite [unary_result, e0]
  unfold val_main_call0_v1
  rewrite [tb_main_call0_v1]
  try rewrite [ob_main_call0_cst_0]
  first | with_reducible rfl | with_reducible_and_instances rfl

theorem A_main_call0_v2 (c : Dev nD) :
    after (ops (F := F)) (launchContents m c) (Proc.devRef .tc main_call0_v2) = val_main_call0_v2 (F := F) (m ((c.tc : Thread nD τ).loc main_arg0)) := by
  have e0 := (after_take 5 (launchContents m c) main_call0_v1 (by decide)).trans (A_main_call0_v1 m c)
  have e1 := (after_take 5 (launchContents m c) main_call0_v0 (by decide)).trans (A_main_call0_v0 m c)
  refine (after_at 5 _ rfl (launchContents m c) main_call0_v2 (by decide)).trans ?_
  generalize after (List.take 5 (ops (F := F))) (launchContents m c) = W at e0 e1 ⊢
  rewrite [binary_result, e0, e1]
  unfold val_main_call0_v2
  rewrite [tb_main_call0_v2]
  try rewrite [ob_main_call0_v1]
  try rewrite [ob_main_call0_v0]
  first | with_reducible rfl | with_reducible_and_instances rfl

theorem A_main_call0_v3 (c : Dev nD) :
    after (ops (F := F)) (launchContents m c) (Proc.devRef .tc main_call0_v3) = val_main_call0_v3 (F := F) (m ((c.tc : Thread nD τ).loc main_arg0)) := by
  have e0 := (after_take 6 (launchContents m c) main_call0_v2 (by decide)).trans (A_main_call0_v2 m c)
  refine (after_at 6 _ rfl (launchContents m c) main_call0_v3 (by decide)).trans ?_
  generalize after (List.take 6 (ops (F := F))) (launchContents m c) = W at e0 ⊢
  rewrite [unary_result, e0]
  unfold val_main_call0_v3
  rewrite [tb_main_call0_v3]
  try rewrite [ob_main_call0_v2]
  first | with_reducible rfl | with_reducible_and_instances rfl

theorem A_main_call0_v4 (c : Dev nD) :
    after (ops (F := F)) (launchContents m c) (Proc.devRef .tc main_call0_v4) = val_main_call0_v4 (F := F) (m ((c.tc : Thread nD τ).loc main_arg0)) := by
  have e0 := (after_take 7 (launchContents m c) main_call0_v3 (by decide)).trans (A_main_call0_v3 m c)
  refine (after_at 7 _ rfl (launchContents m c) main_call0_v4 (by decide)).trans ?_
  generalize after (List.take 7 (ops (F := F))) (launchContents m c) = W at e0 ⊢
  rewrite [unary_result, e0]
  unfold val_main_call0_v4
  rewrite [tb_main_call0_v4]
  try rewrite [ob_main_call0_v3]
  first | with_reducible rfl | with_reducible_and_instances rfl

theorem A_main_call0_v5 (c : Dev nD) :
    after (ops (F := F)) (launchContents m c) (Proc.devRef .tc main_call0_v5) = val_main_call0_v5 (F := F) (m ((c.tc : Thread nD τ).loc main_arg0)) := by
  have e0 := (after_take 8 (launchContents m c) main_v0 (by decide)).trans (A_main_v0 m c)
  have e1 := (after_take 8 (launchContents m c) main_call0_v4 (by decide)).trans (A_main_call0_v4 m c)
  refine (after_at 8 _ rfl (launchContents m c) main_call0_v5 (by decide)).trans ?_
  generalize after (List.take 8 (ops (F := F))) (launchContents m c) = W at e0 e1 ⊢
  rewrite [binary_result, e0, e1]
  unfold val_main_call0_v5
  rewrite [tb_main_call0_v5]
  try rewrite [ob_main_v0]
  try rewrite [ob_main_call0_v4]
  first | with_reducible rfl | with_reducible_and_instances rfl

theorem A_main_call0_v6 (c : Dev nD) :
    after (ops (F := F)) (launchContents m c) (Proc.devRef .tc main_call0_v6) = val_main_call0_v6 (F := F) (m ((c.tc : Thread nD τ).loc main_arg0)) := by
  have e0 := (after_take 9 (launchContents m c) main_call0_v5 (by decide)).trans (A_main_call0_v5 m c)
  refine (after_at 9 _ rfl (launchContents m c) main_call0_v6 (by decide)).trans ?_
  generalize after (List.take 9 (ops (F := F))) (launchContents m c) = W at e0 ⊢
  rewrite [unary_result, e0]
  unfold val_main_call0_v6
  rewrite [tb_main_call0_v6]
  try rewrite [ob_main_call0_v5]
  first | with_reducible rfl | with_reducible_and_instances rfl

theorem A_main_call0_cst_1 (c : Dev nD) :
    after (ops (F := F)) (launchContents m c) (Proc.devRef .tc main_call0_cst_1) = val_main_call0_cst_1 (F := F) := by
  refine (after_at 10 _ rfl (launchContents m c) main_call0_cst_1 (by decide)).trans ?_
  rewrite [nullary_result]
  unfold val_main_call0_cst_1
  rewrite [tb_main_call0_cst_1]
  first | with_reducible rfl | with_reducible_and_instances rfl

theorem A_main_call0_v7 (c : Dev nD) :
    after (ops (F := F)) (launchContents m c) (Proc.devRef .tc main_call0_v7) = val_main_call0_v7 (F := F) (m ((c.tc : Thread nD τ).loc main_arg0)) := by
  have e0 := (after_take 11 (launchContents m c) main_call0_v6 (by decide)).trans (A_main_call0_v6 m c)
  have e1 := (after_take 11 (launchContents m c) main_call0_cst_1 (by decide)).trans (A_main_call0_cst_1 m c)
  refine (after_at 11 _ rfl (launchContents m c) main_call0_v7 (by decide)).trans ?_
  generalize after (List.take 11 (ops (F := F))) (launchContents m c) = W at e0 e1 ⊢
  rewrite [binary_result, e0, e1]
  unfold val_main_call0_v7
  rewrite [tb_main_call0_v7]
  try rewrite [ob_main_call0_v6]
  try rewrite [ob_main_call0_cst_1]
  first | with_reducible rfl | with_reducible_and_instances rfl

theorem A_main_call0_v8 (c : Dev nD) :
    after (ops (F := F)) (launchContents m c) (Proc.devRef .tc main_call0_v8) = val_main_call0_v8 (F := F) (m ((c.tc : Thread nD τ).loc main_arg0)) := by
  have e0 := (after_take 12 (launchContents m c) main_call0_v7 (by decide)).trans (A_main_call0_v7 m c)
  refine (after_at 12 _ rfl (launchContents m c) main_call0_v8 (by decide)).trans ?_
  generalize after (List.take 12 (ops (F := F))) (launchContents m c) = W at e0 ⊢
  rewrite [unary_result, e0]
  unfold val_main_call0_v8
  rewrite [tb_main_call0_v8]
  try rewrite [ob_main_call0_v7]
  first | with_reducible rfl | with_reducible_and_instances rfl

theorem A_main_call0_v9 (c : Dev nD) :
    after (ops (F := F)) (launchContents m c) (Proc.devRef .tc main_call0_v9) = val_main_call0_v9 (F := F) (m ((c.tc : Thread nD τ).loc main_arg0)) := by
  have e0 := (after_take 13 (launchContents m c) main_call0_v8 (by decide)).trans (A_main_call0_v8 m c)
  refine (after_at 13 _ rfl (launchContents m c) main_call0_v9 (by decide)).trans ?_
  generalize after (List.take 13 (ops (F := F))) (launchContents m c) = W at e0 ⊢
  rewrite [unary_result, e0]
  unfold val_main_call0_v9
  rewrite [tb_main_call0_v9]
  try rewrite [ob_main_call0_v8]
  first | with_reducible rfl | with_reducible_and_instances rfl

theorem A_main_call0_v10 (c : Dev nD) :
    after (ops (F := F)) (launchContents m c) (Proc.devRef .tc main_call0_v10) = val_main_call0_v10 (F := F) (m ((c.tc : Thread nD τ).loc main_arg0)) := by
  have e0 := (after_take 14 (launchContents m c) main_call0_v9 (by decide)).trans (A_main_call0_v9 m c)
  refine (after_at 14 _ rfl (launchContents m c) main_call0_v10 (by decide)).trans ?_
  generalize after (List.take 14 (ops (F := F))) (launchContents m c) = W at e0 ⊢
  rewrite [unary_result, e0]
  unfold val_main_call0_v10
  rewrite [tb_main_call0_v10]
  try rewrite [ob_main_call0_v9]
  first | with_reducible rfl | with_reducible_and_instances rfl

theorem A_main_v1 (c : Dev nD) :
    after (ops (F := F)) (launchContents m c) (Proc.devRef .tc main_v1) = val_main_v1 (F := F) (m ((c.tc : Thread nD τ).loc main_arg0)) := by
  have e0 := (after_take 15 (launchContents m c) main_call0_v5 (by decide)).trans (A_main_call0_v5 m c)
  have e1 := (after_take 15 (launchContents m c) main_call0_v10 (by decide)).trans (A_main_call0_v10 m c)
  refine (after_at 15 _ rfl (launchContents m c) main_v1 (by decide)).trans ?_
  generalize after (List.take 15 (ops (F := F))) (launchContents m c) = W at e0 e1 ⊢
  rewrite [binary_result, e0, e1]
  unfold val_main_v1
  rewrite [tb_main_v1]
  try rewrite [ob_main_call0_v5]
  try rewrite [ob_main_call0_v10]
  first | with_reducible rfl | with_reducible_and_instances rfl

theorem A_main_v2 (c : Dev nD) :
    after (ops (F := F)) (launchContents m c) (Proc.devRef .tc main_v2) = val_main_v2 (F := F) (m ((c.tc : Thread nD τ).loc main_arg0)) := by
  have e0 := (after_take 16 (launchContents m c) main_v1 (by decide)).trans (A_main_v1 m c)
  refine (after_at 16 _ rfl (launchContents m c) main_v2 (by decide)).trans ?_
  generalize after (List.take 16 (ops (F := F))) (launchContents m c) = W at e0 ⊢
  rewrite [unary_result, e0]
  first | with_reducible_and_instances rfl | (unfold val_main_v2; with_reducible_and_instances rfl)

theorem A_main_v3 (c : Dev nD) :
    after (ops (F := F)) (launchContents m c) (Proc.devRef .tc main_v3) = val_main_v3 (F := F) (m ((c.tc : Thread nD τ).loc main_arg0)) := by
  have e0 := (after_take 17 (launchContents m c) main_v2 (by decide)).trans (A_main_v2 m c)
  have e1 := (after_take 17 (launchContents m c) main_v1 (by decide)).trans (A_main_v1 m c)
  refine (after_at 17 _ rfl (launchContents m c) main_v3 (by decide)).trans ?_
  generalize after (List.take 17 (ops (F := F))) (launchContents m c) = W at e0 e1 ⊢
  rewrite [binary_result, e0, e1]
  first | with_reducible_and_instances rfl | (unfold val_main_v3; with_reducible_and_instances rfl)

theorem A_main_cst (c : Dev nD) :
    after (ops (F := F)) (launchContents m c) (Proc.devRef .tc main_cst) = val_main_cst (F := F) := by
  refine (after_at 18 _ rfl (launchContents m c) main_cst (by decide)).trans ?_
  rewrite [nullary_result]
  first | with_reducible_and_instances rfl | (unfold val_main_cst; with_reducible_and_instances rfl)

theorem A_main_v4 (c : Dev nD) :
    after (ops (F := F)) (launchContents m c) (Proc.devRef .tc main_v4) = val_main_v4 (F := F) (m ((c.tc : Thread nD τ).loc main_arg0)) := by
  have e0 := (after_take 19 (launchContents m c) main_v3 (by decide)).trans (A_main_v3 m c)
  have e1 := (after_take 19 (launchContents m c) main_cst (by decide)).trans (A_main_cst m c)
  refine (after_at 19 _ rfl (launchContents m c) main_v4 (by decide)).trans ?_
  generalize after (List.take 19 (ops (F := F))) (launchContents m c) = W at e0 e1 ⊢
  rewrite [binary_result, e0, e1]
  first | with_reducible_and_instances rfl | (unfold val_main_v4; with_reducible_and_instances rfl)

theorem A_main_v5 (c : Dev nD) :
    after (ops (F := F)) (launchContents m c) (Proc.devRef .tc main_v5) = val_main_v5 (F := F) (m ((c.tc : Thread nD τ).loc main_arg0)) := by
  have e0 := (after_take 20 (launchContents m c) main_v4 (by decide)).trans (A_main_v4 m c)
  refine (after_at 20 _ rfl (launchContents m c) main_v5 (by decide)).trans ?_
  generalize after (List.take 20 (ops (F := F))) (launchContents m c) = W at e0 ⊢
  rewrite [unary_result, e0]
  first | with_reducible_and_instances rfl | (unfold val_main_v5; with_reducible_and_instances rfl)

theorem A_main_cst_0 (c : Dev nD) :
    after (ops (F := F)) (launchContents m c) (Proc.devRef .tc main_cst_0) = val_main_cst_0 (F := F) := by
  refine (after_at 21 _ rfl (launchContents m c) main_cst_0 (by decide)).trans ?_
  rewrite [nullary_result]
  first | with_reducible_and_instances rfl | (unfold val_main_cst_0; with_reducible_and_instances rfl)

theorem A_main_v6 (c : Dev nD) :
    after (ops (F := F)) (launchContents m c) (Proc.devRef .tc main_v6) = val_main_v6 (F := F) (m ((c.tc : Thread nD τ).loc main_arg0)) := by
  have e0 := (after_take 22 (launchContents m c) main_v5 (by decide)).trans (A_main_v5 m c)
  have e1 := (after_take 22 (launchContents m c) main_cst_0 (by decide)).trans (A_main_cst_0 m c)
  refine (after_at 22 _ rfl (launchContents m c) main_v6 (by decide)).trans ?_
  generalize after (List.take 22 (ops (F := F))) (launchContents m c) = W at e0 e1 ⊢
  rewrite [binary_result, e0, e1]
  first | with_reducible_and_instances rfl | (unfold val_main_v6; with_reducible_and_instances rfl)

theorem A_main_cst_1 (c : Dev nD) :
    after (ops (F := F)) (launchContents m c) (Proc.devRef .tc main_cst_1) = val_main_cst_1 (F := F) := by
  refine (after_at 23 _ rfl (launchContents m c) main_cst_1 (by decide)).trans ?_
  rewrite [nullary_result]
  first | with_reducible_and_instances rfl | (unfold val_main_cst_1; with_reducible_and_instances rfl)

theorem A_main_v7 (c : Dev nD) :
    after (ops (F := F)) (launchContents m c) (Proc.devRef .tc main_v7) = val_main_v7 (F := F) (m ((c.tc : Thread nD τ).loc main_arg0)) := by
  have e0 := (after_take 24 (launchContents m c) main_v6 (by decide)).trans (A_main_v6 m c)
  have e1 := (after_take 24 (launchContents m c) main_cst_1 (by decide)).trans (A_main_cst_1 m c)
  refine (after_at 24 _ rfl (launchContents m c) main_v7 (by decide)).trans ?_
  generalize after (List.take 24 (ops (F := F))) (launchContents m c) = W at e0 e1 ⊢
  rewrite [binary_result, e0, e1]
  first | with_reducible_and_instances rfl | (unfold val_main_v7; with_reducible_and_instances rfl)

theorem A_main_cst_2 (c : Dev nD) :
    after (ops (F := F)) (launchContents m c) (Proc.devRef .tc main_cst_2) = val_main_cst_2 (F := F) := by
  refine (after_at 25 _ rfl (launchContents m c) main_cst_2 (by decide)).trans ?_
  rewrite [nullary_result]
  first | with_reducible_and_instances rfl | (unfold val_main_cst_2; with_reducible_and_instances rfl)

theorem A_main_v8 (c : Dev nD) :
    after (ops (F := F)) (launchContents m c) (Proc.devRef .tc main_v8) = val_main_v8 (F := F) (m ((c.tc : Thread nD τ).loc main_arg0)) := by
  have e0 := (after_take 26 (launchContents m c) main_v0 (by decide)).trans (A_main_v0 m c)
  have e1 := (after_take 26 (launchContents m c) main_cst_2 (by decide)).trans (A_main_cst_2 m c)
  refine (after_at 26 _ rfl (launchContents m c) main_v8 (by decide)).trans ?_
  generalize after (List.take 26 (ops (F := F))) (launchContents m c) = W at e0 e1 ⊢
  rewrite [binary_result, e0, e1]
  first | with_reducible_and_instances rfl | (unfold val_main_v8; with_reducible_and_instances rfl)

theorem A_main_cst_3 (c : Dev nD) :
    after (ops (F := F)) (launchContents m c) (Proc.devRef .tc main_cst_3) = val_main_cst_3 (F := F) := by
  refine (after_at 27 _ rfl (launchContents m c) main_cst_3 (by decide)).trans ?_
  rewrite [nullary_result]
  first | with_reducible_and_instances rfl | (unfold val_main_cst_3; with_reducible_and_instances rfl)

theorem A_main_v9 (c : Dev nD) :
    after (ops (F := F)) (launchContents m c) (Proc.devRef .tc main_v9) = val_main_v9 (F := F) := by
  have e0 := (after_take 28 (launchContents m c) main_cst_3 (by decide)).trans (A_main_cst_3 m c)
  refine (after_at 28 _ rfl (launchContents m c) main_v9 (by decide)).trans ?_
  generalize after (List.take 28 (ops (F := F))) (launchContents m c) = W at e0 ⊢
  rewrite [unary_result, e0]
  first | with_reducible_and_instances rfl | (unfold val_main_v9; with_reducible_and_instances rfl)

theorem A_main_v10 (c : Dev nD) :
    after (ops (F := F)) (launchContents m c) (Proc.devRef .tc main_v10) = val_main_v10 (F := F) (m ((c.tc : Thread nD τ).loc main_arg0)) := by
  have e0 := (after_take 29 (launchContents m c) main_v8 (by decide)).trans (A_main_v8 m c)
  have e1 := (after_take 29 (launchContents m c) main_v9 (by decide)).trans (A_main_v9 m c)
  refine (after_at 29 _ rfl (launchContents m c) main_v10 (by decide)).trans ?_
  generalize after (List.take 29 (ops (F := F))) (launchContents m c) = W at e0 e1 ⊢
  rewrite [binary_result, e0, e1]
  first | with_reducible_and_instances rfl | (unfold val_main_v10; with_reducible_and_instances rfl)

theorem A_main_call1_cst (c : Dev nD) :
    after (ops (F := F)) (launchContents m c) (Proc.devRef .tc main_call1_cst) = val_main_call1_cst (F := F) := by
  refine (after_at 30 _ rfl (launchContents m c) main_call1_cst (by decide)).trans ?_
  rewrite [nullary_result]
  unfold val_main_call1_cst
  rewrite [tb_main_call1_cst]
  first | with_reducible rfl | with_reducible_and_instances rfl

theorem A_main_call1_v0 (c : Dev nD) :
    after (ops (F := F)) (launchContents m c) (Proc.devRef .tc main_call1_v0) = val_main_call1_v0 (F := F) (m ((c.tc : Thread nD τ).loc main_arg0)) := by
  have e0 := (after_take 31 (launchContents m c) main_v10 (by decide)).trans (A_main_v10 m c)
  have e1 := (after_take 31 (launchContents m c) main_call1_cst (by decide)).trans (A_main_call1_cst m c)
  refine (after_at 31 _ rfl (launchContents m c) main_call1_v0 (by decide)).trans ?_
  generalize after (List.take 31 (ops (F := F))) (launchContents m c) = W at e0 e1 ⊢
  rewrite [binary_result, e0, e1]
  unfold val_main_call1_v0
  rewrite [tb_main_call1_v0]
  try rewrite [ob_main_v10]
  try rewrite [ob_main_call1_cst]
  first | with_reducible rfl | with_reducible_and_instances rfl

theorem A_main_call1_cst_0 (c : Dev nD) :
    after (ops (F := F)) (launchContents m c) (Proc.devRef .tc main_call1_cst_0) = val_main_call1_cst_0 (F := F) := by
  refine (after_at 32 _ rfl (launchContents m c) main_call1_cst_0 (by decide)).trans ?_
  rewrite [nullary_result]
  unfold val_main_call1_cst_0
  rewrite [tb_main_call1_cst_0]
  first | with_reducible rfl | with_reducible_and_instances rfl

theorem A_main_call1_v1 (c : Dev nD) :
    after (ops (F := F)) (launchContents m c) (Proc.devRef .tc main_call1_v1) = val_main_call1_v1 (F := F) (m ((c.tc : Thread nD τ).loc main_arg0)) := by
  have e0 := (after_take 33 (launchContents m c) main_call1_cst_0 (by decide)).trans (A_main_call1_cst_0 m c)
  have e1 := (after_take 33 (launchContents m c) main_call1_v0 (by decide)).trans (A_main_call1_v0 m c)
  refine (after_at 33 _ rfl (launchContents m c) main_call1_v1 (by decide)).trans ?_
  generalize after (List.take 33 (ops (F := F))) (launchContents m c) = W at e0 e1 ⊢
  rewrite [binary_result, e0, e1]
  unfold val_main_call1_v1
  rewrite [tb_main_call1_v1]
  try rewrite [ob_main_call1_cst_0]
  try rewrite [ob_main_call1_v0]
  first | with_reducible rfl | with_reducible_and_instances rfl

theorem A_main_call1_v2 (c : Dev nD) :
    after (ops (F := F)) (launchContents m c) (Proc.devRef .tc main_call1_v2) = val_main_call1_v2 (F := F) (m ((c.tc : Thread nD τ).loc main_arg0)) := by
  have e0 := (after_take 34 (launchContents m c) main_call1_v1 (by decide)).trans (A_main_call1_v1 m c)
  refine (after_at 34 _ rfl (launchContents m c) main_call1_v2 (by decide)).trans ?_
  generalize after (List.take 34 (ops (F := F))) (launchContents m c) = W at e0 ⊢
  rewrite [unary_result, e0]
  unfold val_main_call1_v2
  rewrite [tb_main_call1_v2]
  try rewrite [ob_main_call1_v1]
  first | with_reducible rfl | with_reducible_and_instances rfl

theorem A_main_call1_v3 (c : Dev nD) :
    after (ops (F := F)) (launchContents m c) (Proc.devRef .tc main_call1_v3) = val_main_call1_v3 (F := F) (m ((c.tc : Thread nD τ).loc main_arg0)) := by
  have e0 := (after_take 35 (launchContents m c) main_call1_v2 (by decide)).trans (A_main_call1_v2 m c)
  refine (after_at 35 _ rfl (launchContents m c) main_call1_v3 (by decide)).trans ?_
  generalize after (List.take 35 (ops (F := F))) (launchContents m c) = W at e0 ⊢
  rewrite [unary_result, e0]
  unfold val_main_call1_v3
  rewrite [tb_main_call1_v3]
  try rewrite [ob_main_call1_v2]
  first | with_reducible rfl | with_reducible_and_instances rfl

theorem A_main_call1_v4 (c : Dev nD) :
    after (ops (F := F)) (launchContents m c) (Proc.devRef .tc main_call1_v4) = val_main_call1_v4 (F := F) (m ((c.tc : Thread nD τ).loc main_arg0)) := by
  have e0 := (after_take 36 (launchContents m c) main_v10 (by decide)).trans (A_main_v10 m c)
  have e1 := (after_take 36 (launchContents m c) main_call1_v3 (by decide)).trans (A_main_call1_v3 m c)
  refine (after_at 36 _ rfl (launchContents m c) main_call1_v4 (by decide)).trans ?_
  generalize after (List.take 36 (ops (F := F))) (launchContents m c) = W at e0 e1 ⊢
  rewrite [binary_result, e0, e1]
  unfold val_main_call1_v4
  rewrite [tb_main_call1_v4]
  try rewrite [ob_main_v10]
  try rewrite [ob_main_call1_v3]
  first | with_reducible rfl | with_reducible_and_instances rfl

theorem A_main_call1_v5 (c : Dev nD) :
    after (ops (F := F)) (launchContents m c) (Proc.devRef .tc main_call1_v5) = val_main_call1_v5 (F := F) (m ((c.tc : Thread nD τ).loc main_arg0)) := by
  have e0 := (after_take 37 (launchContents m c) main_call1_v4 (by decide)).trans (A_main_call1_v4 m c)
  refine (after_at 37 _ rfl (launchContents m c) main_call1_v5 (by decide)).trans ?_
  generalize after (List.take 37 (ops (F := F))) (launchContents m c) = W at e0 ⊢
  rewrite [unary_result, e0]
  unfold val_main_call1_v5
  rewrite [tb_main_call1_v5]
  try rewrite [ob_main_call1_v4]
  first | with_reducible rfl | with_reducible_and_instances rfl

theorem A_main_call1_cst_1 (c : Dev nD) :
    after (ops (F := F)) (launchContents m c) (Proc.devRef .tc main_call1_cst_1) = val_main_call1_cst_1 (F := F) := by
  refine (after_at 38 _ rfl (launchContents m c) main_call1_cst_1 (by decide)).trans ?_
  rewrite [nullary_result]
  unfold val_main_call1_cst_1
  rewrite [tb_main_call1_cst_1]
  first | with_reducible rfl | with_reducible_and_instances rfl

theorem A_main_call1_v6 (c : Dev nD) :
    after (ops (F := F)) (launchContents m c) (Proc.devRef .tc main_call1_v6) = val_main_call1_v6 (F := F) (m ((c.tc : Thread nD τ).loc main_arg0)) := by
  have e0 := (after_take 39 (launchContents m c) main_call1_v5 (by decide)).trans (A_main_call1_v5 m c)
  have e1 := (after_take 39 (launchContents m c) main_call1_cst_1 (by decide)).trans (A_main_call1_cst_1 m c)
  refine (after_at 39 _ rfl (launchContents m c) main_call1_v6 (by decide)).trans ?_
  generalize after (List.take 39 (ops (F := F))) (launchContents m c) = W at e0 e1 ⊢
  rewrite [binary_result, e0, e1]
  unfold val_main_call1_v6
  rewrite [tb_main_call1_v6]
  try rewrite [ob_main_call1_v5]
  try rewrite [ob_main_call1_cst_1]
  first | with_reducible rfl | with_reducible_and_instances rfl

theorem A_main_call1_v7 (c : Dev nD) :
    after (ops (F := F)) (launchContents m c) (Proc.devRef .tc main_call1_v7) = val_main_call1_v7 (F := F) (m ((c.tc : Thread nD τ).loc main_arg0)) := by
  have e0 := (after_take 40 (launchContents m c) main_call1_v6 (by decide)).trans (A_main_call1_v6 m c)
  refine (after_at 40 _ rfl (launchContents m c) main_call1_v7 (by decide)).trans ?_
  generalize after (List.take 40 (ops (F := F))) (launchContents m c) = W at e0 ⊢
  rewrite [unary_result, e0]
  unfold val_main_call1_v7
  rewrite [tb_main_call1_v7]
  try rewrite [ob_main_call1_v6]
  first | with_reducible rfl | with_reducible_and_instances rfl

theorem A_main_call1_v8 (c : Dev nD) :
    after (ops (F := F)) (launchContents m c) (Proc.devRef .tc main_call1_v8) = val_main_call1_v8 (F := F) (m ((c.tc : Thread nD τ).loc main_arg0)) := by
  have e0 := (after_take 41 (launchContents m c) main_call1_v7 (by decide)).trans (A_main_call1_v7 m c)
  refine (after_at 41 _ rfl (launchContents m c) main_call1_v8 (by decide)).trans ?_
  generalize after (List.take 41 (ops (F := F))) (launchContents m c) = W at e0 ⊢
  rewrite [unary_result, e0]
  unfold val_main_call1_v8
  rewrite [tb_main_call1_v8]
  try rewrite [ob_main_call1_v7]
  first | with_reducible rfl | with_reducible_and_instances rfl

theorem A_main_call1_v9 (c : Dev nD) :
    after (ops (F := F)) (launchContents m c) (Proc.devRef .tc main_call1_v9) = val_main_call1_v9 (F := F) (m ((c.tc : Thread nD τ).loc main_arg0)) := by
  have e0 := (after_take 42 (launchContents m c) main_call1_v8 (by decide)).trans (A_main_call1_v8 m c)
  refine (after_at 42 _ rfl (launchContents m c) main_call1_v9 (by decide)).trans ?_
  generalize after (List.take 42 (ops (F := F))) (launchContents m c) = W at e0 ⊢
  rewrite [unary_result, e0]
  unfold val_main_call1_v9
  rewrite [tb_main_call1_v9]
  try rewrite [ob_main_call1_v8]
  first | with_reducible rfl | with_reducible_and_instances rfl

theorem A_main_v11 (c : Dev nD) :
    after (ops (F := F)) (launchContents m c) (Proc.devRef .tc main_v11) = val_main_v11 (F := F) (m ((c.tc : Thread nD τ).loc main_arg0)) := by
  have e0 := (after_take 43 (launchContents m c) main_call1_v4 (by decide)).trans (A_main_call1_v4 m c)
  have e1 := (after_take 43 (launchContents m c) main_call1_v9 (by decide)).trans (A_main_call1_v9 m c)
  refine (after_at 43 _ rfl (launchContents m c) main_v11 (by decide)).trans ?_
  generalize after (List.take 43 (ops (F := F))) (launchContents m c) = W at e0 e1 ⊢
  rewrite [binary_result, e0, e1]
  unfold val_main_v11
  rewrite [tb_main_v11]
  try rewrite [ob_main_call1_v4]
  try rewrite [ob_main_call1_v9]
  first | with_reducible rfl | with_reducible_and_instances rfl

theorem A_main_v12 (c : Dev nD) :
    after (ops (F := F)) (launchContents m c) (Proc.devRef .tc main_v12) = val_main_v12 (F := F) (m ((c.tc : Thread nD τ).loc main_arg0)) := by
  have e0 := (after_take 44 (launchContents m c) main_v11 (by decide)).trans (A_main_v11 m c)
  refine (after_at 44 _ rfl (launchContents m c) main_v12 (by decide)).trans ?_
  generalize after (List.take 44 (ops (F := F))) (launchContents m c) = W at e0 ⊢
  rewrite [unary_result, e0]
  first | with_reducible_and_instances rfl | (unfold val_main_v12; with_reducible_and_instances rfl)

theorem A_main_v13 (c : Dev nD) :
    after (ops (F := F)) (launchContents m c) (Proc.devRef .tc main_v13) = val_main_v13 (F := F) (m ((c.tc : Thread nD τ).loc main_arg0)) := by
  have e0 := (after_take 45 (launchContents m c) main_v12 (by decide)).trans (A_main_v12 m c)
  have e1 := (after_take 45 (launchContents m c) main_v11 (by decide)).trans (A_main_v11 m c)
  refine (after_at 45 _ rfl (launchContents m c) main_v13 (by decide)).trans ?_
  generalize after (List.take 45 (ops (F := F))) (launchContents m c) = W at e0 e1 ⊢
  rewrite [binary_result, e0, e1]
  first | with_reducible_and_instances rfl | (unfold val_main_v13; with_reducible_and_instances rfl)

theorem A_main_cst_4 (c : Dev nD) :
    after (ops (F := F)) (launchContents m c) (Proc.devRef .tc main_cst_4) = val_main_cst_4 (F := F) := by
  refine (after_at 46 _ rfl (launchContents m c) main_cst_4 (by decide)).trans ?_
  rewrite [nullary_result]
  first | with_reducible_and_instances rfl | (unfold val_main_cst_4; with_reducible_and_instances rfl)

theorem A_main_v14 (c : Dev nD) :
    after (ops (F := F)) (launchContents m c) (Proc.devRef .tc main_v14) = val_main_v14 (F := F) (m ((c.tc : Thread nD τ).loc main_arg0)) := by
  have e0 := (after_take 47 (launchContents m c) main_v13 (by decide)).trans (A_main_v13 m c)
  have e1 := (after_take 47 (launchContents m c) main_cst_4 (by decide)).trans (A_main_cst_4 m c)
  refine (after_at 47 _ rfl (launchContents m c) main_v14 (by decide)).trans ?_
  generalize after (List.take 47 (ops (F := F))) (launchContents m c) = W at e0 e1 ⊢
  rewrite [binary_result, e0, e1]
  first | with_reducible_and_instances rfl | (unfold val_main_v14; with_reducible_and_instances rfl)

/-- THE REFERENCE'S RUN: every weakly fair execution terminates with the two results at their stage functions of the
    argument, and the argument unchanged. -/
theorem run (ρ : Dev nD → PrngReg) :
    θ_run defs (onTc (τ := τ) (main (F := F))) ⟨m, fun _ => 0, ρ⟩ fun r => ∀ c : Dev nD,
      r.2.mem ((c.tc : Thread nD τ).loc main_v7) = val_main_v7 (F := F) (m ((c.tc : Thread nD τ).loc main_arg0))
      ∧ r.2.mem ((c.tc : Thread nD τ).loc main_v14) = val_main_v14 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (A_main_v7 m c), (h c main_v14).trans (A_main_v14 m c),
      (h c main_arg0).trans (A_main_arg0 m c)⟩)
    (run_seq scopedRefs_eq scopedSems_eq defs main (fun _ => ops) main_eq (fun _ => ops_sub) m ρ)

end Cert.ReferenceIdeal.Hand

end
-- ==== Proof.RefValue.lean ====
import proofs.«169014_j74002286510759_2_alg».proof.Proof.RefRead
import Idealize.ShloMosaic.Lib.ValueIdx
import Idealize.ShloMosaic.PureOps.Ideal.Laws

/-!
# The reference's two results as formulas of the matrix

The reference reshapes its argument to the 256 × 401408 matrix `X`. First result: for each row `r`, with `M r` the row's shift
(its maximum), `L r = Σ_k exp (X[r,k] - M r)` and `lp r d = (X[r,d] - M r) - log (L r)`, the row's `-Σ_d exp (lp r d) · lp r d`; the
mean over the 256 rows. Second result: the same `Σ_d exp (lp d) · lp d`, not negated, of the one row of column means
`(Σ_r X[r,d]) / 256`. This module reads the generated stage functions at an index, one after the other, down to those formulas.
-/

noncomputable section

namespace Cert.ReferenceIdeal.Formula

open Cert.ReferenceIdeal Cert.ReferenceIdeal.Gen Cert.ReferenceIdeal.Read Idealize.ShloMosaic Idealize.ShloMosaic.ValueIdx

/-! ## The elementwise operations on extended reals, spelt the host's way -/

theorem sub_eq (A B : EReal) : FloatOps.subf (F := Ideal) (φ := .f32) A B = A - B := rfl
theorem exp_eq (A : EReal) : FloatOps.hostUnary (F := Ideal) (φ := .f32) .exp A = Ideal.exp A := rfl
theorem log_eq (A : EReal) : FloatOps.hostUnary (F := Ideal) (φ := .f32) .log A = Ideal.log A := rfl
theorem mul_eq (A B : EReal) : FloatOps.mulf (F := Ideal) (φ := .f32) A B = A * B := rfl
theorem neg_eq (A : EReal) : FloatOps.hostNegf (F := Ideal) (φ := .f32) A = -A := rfl
theorem div_eq (A B : EReal) : FloatOps.hostDivf (F := Ideal) (φ := .f32) A B = Ideal.div A B := rfl
theorem max_eq (A B : EReal) : FloatOps.maximumf (F := Ideal) (φ := .f32) A B = max A B := rfl

/-- A sum over the one-axis index set of length `n` is the sum over `Fin n`. -/
theorem sum_idx1 {n : ℕ} (f : (⟨1, ![n]⟩ : Shape).Idx → EReal) : ∑ j : (⟨1, ![n]⟩ : Shape).Idx, f j = ∑ r : Fin n, f (ix1 r) :=
  Fintype.sum_equiv ⟨fun j => (j 0 : Fin n), fun r => ix1 r, fun j => (eq_ix1 j).symm, fun r => rfl⟩ _ _
    fun j => congrArg f (eq_ix1 j)

variable (x0 : (⟨S256x14x14x2048, .f32⟩ : BufTy).Contents (Elt Ideal))

/-- The matrix. -/
def Xm : S256x401408.Idx → EReal := val_main_v0 (F := Ideal) x0

/-! ## The first result -/

/-- The shift of row `r`: the larger of -∞ and the row's maximum. -/
def rM (r : Fin 256) : EReal := val_main_call0_v2 (F := Ideal) x0 (ix1 r)

/-- The sum of the shifted exponentials of row `r` (started from the f32 zero). -/
def rL (r : Fin 256) : EReal :=
  Ideal.ofBits .f32 0x00000000#32 + ∑ k : Fin 401408, Ideal.exp (Xm x0 (ix2 r k) - rM x0 r)

/-- The log-softmax of row `r` at column `d`. -/
def rLp (r : Fin 256) (d : Fin 401408) : EReal := (Xm x0 (ix2 r d) - rM x0 r) - Ideal.log (rL x0 r)

theorem v5_apply (r : Fin 256) (d : Fin 401408) :
    val_main_call0_v5 (F := Ideal) x0 (ix2 r d) = Xm x0 (ix2 r d) - rM x0 r := by
  have e : idx_main_call0_v3 (idx_main_call0_v4 (ix2 r d)) = ix1 r :=
    funext fun a => Fin.ext (by match a with | ⟨0, _⟩ => rfl)
  have h4 : val_main_call0_v4 (F := Ideal) x0 (ix2 r d) = rM x0 r :=
    (val_main_call0_v4_apply x0 (ix2 r d)).trans ((val_main_call0_v3_apply x0 _).trans (congrArg (val_main_call0_v2 (F := Ideal) x0) e))
  exact (val_main_call0_v5_apply x0 (ix2 r d)).trans ((congrArg (fun B : EReal => FloatOps.subf (F := Ideal) (φ := .f32) (Xm x0 (ix2 r d)) B) h4).trans (sub_eq _ _))

theorem v6_apply (r : Fin 256) (k : Fin 401408) :
    val_main_call0_v6 (F := Ideal) x0 (idx_main_call0_v7 (ix1 r) k) = Ideal.exp (Xm x0 (ix2 r k) - rM x0 r) := by
  have e : idx_main_call0_v7 (ix1 r) k = ix2 r k :=
    funext fun a => Fin.ext (by match a with | ⟨0, _⟩ => rfl | ⟨1, _⟩ => rfl)
  exact (congrArg (val_main_call0_v6 (F := Ideal) x0) e).trans ((val_main_call0_v6_apply x0 (ix2 r k)).trans
    ((congrArg (FloatOps.hostUnary (F := Ideal) (φ := .f32) .exp) (v5_apply x0 r k)).trans (exp_eq _)))

theorem v7_apply (r : Fin 256) : val_main_call0_v7 (F := Ideal) x0 (ix1 r) = rL x0 r := by
  have h1 : (val_main_call0_cst_1 (F := Ideal)) (Shape.Idx.first h_S_) = Ideal.ofBits .f32 0x00000000#32 := rfl
  have h2 : (∑ k : Fin 401408, val_main_call0_v6 (F := Ideal) x0 (idx_main_call0_v7 (ix1 r) k))
      = ∑ k : Fin 401408, Ideal.exp (Xm x0 (ix2 r k) - rM x0 r) := Finset.sum_congr rfl fun k _ => v6_apply x0 r k
  unfold rL
  exact (val_main_call0_v7_apply x0 (ix1 r)).trans (congrArg₂ (fun p q : EReal => p + q) h1 h2)

theorem v10_apply (r : Fin 256) (d : Fin 401408) :
    val_main_call0_v10 (F := Ideal) x0 (ix2 r d) = Ideal.log (rL x0 r) := by
  have e : idx_main_call0_v8 (idx_main_call0_v10 (ix2 r d)) = ix1 r :=
    funext fun a => Fin.ext (by match a with | ⟨0, _⟩ => rfl)
  have h8 : val_main_call0_v8 (F := Ideal) x0 (idx_main_call0_v10 (ix2 r d)) = rL x0 r :=
    (val_main_call0_v8_apply x0 _).trans ((congrArg (val_main_call0_v7 (F := Ideal) x0) e).trans (v7_apply x0 r))
  exact (val_main_call0_v10_apply x0 (ix2 r d)).trans ((val_main_call0_v9_apply x0 _).trans
    ((congrArg (FloatOps.hostUnary (F := Ideal) (φ := .f32) .log) h8).trans (log_eq _)))

theorem v1_apply (r : Fin 256) (d : Fin 401408) : val_main_v1 (F := Ideal) x0 (ix2 r d) = rLp x0 r d := by
  unfold rLp
  exact (val_main_v1_apply x0 (ix2 r d)).trans
    ((congrArg₂ (FloatOps.subf (F := Ideal) (φ := .f32)) (v5_apply x0 r d) (v10_apply x0 r d)).trans (sub_eq _ _))

theorem v3_apply (r : Fin 256) (k : Fin 401408) :
    val_main_v3 (F := Ideal) x0 (idx_main_v4 (ix1 r) k) = Ideal.exp (rLp x0 r k) * rLp x0 r k := by
  have e : idx_main_v4 (ix1 r) k = ix2 r k :=
    funext fun a => Fin.ext (by match a with | ⟨0, _⟩ => rfl | ⟨1, _⟩ => rfl)
  have h2 : val_main_v2 (F := Ideal) x0 (ix2 r k) = Ideal.exp (rLp x0 r k) :=
    (val_main_v2_apply x0 (ix2 r k)).trans ((congrArg (FloatOps.hostUnary (F := Ideal) (φ := .f32) .exp) (v1_apply x0 r k)).trans (exp_eq _))
  exact (congrArg (val_main_v3 (F := Ideal) x0) e).trans ((val_main_v3_apply x0 (ix2 r k)).trans
    ((congrArg₂ (FloatOps.mulf (F := Ideal) (φ := .f32)) h2 (v1_apply x0 r k)).trans (mul_eq _ _)))

/-- Row `r`'s `-Σ_d exp (lp) · lp`. -/
theorem v5row_apply (r : Fin 256) :
    val_main_v5 (F := Ideal) x0 (ix1 r)
      = -(Ideal.ofBits .f32 0x00000000#32 + ∑ d : Fin 401408, Ideal.exp (rLp x0 r d) * rLp x0 r d) := by
  have h1 : (val_main_cst (F := Ideal)) (Shape.Idx.first h_S_) = Ideal.ofBits .f32 0x00000000#32 := rfl
  have h2 : (∑ k : Fin 401408, val_main_v3 (F := Ideal) x0 (idx_main_v4 (ix1 r) k))
      = ∑ d : Fin 401408, Ideal.exp (rLp x0 r d) * rLp x0 r d := Finset.sum_congr rfl fun k _ => v3_apply x0 r k
  have h4 := (val_main_v4_apply x0 (ix1 r)).trans (congrArg₂ (fun p q : EReal => p + q) h1 h2)
  exact (val_main_v5_apply x0 (ix1 r)).trans ((congrArg (FloatOps.hostNegf (F := Ideal) (φ := .f32)) h4).trans (neg_eq _))

/-- The first result. -/
theorem L1_eq : val_main_v7 (F := Ideal) x0 ix0
    = Ideal.div (Ideal.ofBits .f32 0x00000000#32 + ∑ r : Fin 256,
        -(Ideal.ofBits .f32 0x00000000#32 + ∑ d : Fin 401408, Ideal.exp (rLp x0 r d) * rLp x0 r d))
      (Ideal.ofBits .f32 0x43800000#32) := by
  have h1 : (val_main_cst_0 (F := Ideal)) (Shape.Idx.first h_S_) = Ideal.ofBits .f32 0x00000000#32 := rfl
  have h256 : (val_main_cst_1 (F := Ideal)) ix0 = Ideal.ofBits .f32 0x43800000#32 := rfl
  have h2 : (∑ j : S256.Idx, val_main_v5 (F := Ideal) x0 j)
      = ∑ r : Fin 256, -(Ideal.ofBits .f32 0x00000000#32 + ∑ d : Fin 401408, Ideal.exp (rLp x0 r d) * rLp x0 r d) :=
    (sum_idx1 _).trans (Finset.sum_congr rfl fun r _ => v5row_apply x0 r)
  have h6 := (val_main_v6_apply x0 ix0).trans (congrArg₂ (fun p q : EReal => p + q) h1 h2)
  exact (val_main_v7_apply x0 ix0).trans ((congrArg₂ (FloatOps.hostDivf (F := Ideal) (φ := .f32)) h6 h256).trans (div_eq _ _))

/-! ## The second result -/

/-- The mean of column `d`. -/
def cA (d : Fin 401408) : EReal :=
  Ideal.div (Ideal.ofBits .f32 0x00000000#32 + ∑ k : Fin 256, Xm x0 (ix2 k d)) (Ideal.ofBits .f32 0x43800000#32)

/-- The shift of the row of column means: the larger of -∞ and its maximum. -/
def aM : EReal := val_main_call1_v1 (F := Ideal) x0 ix0

/-- The sum of the shifted exponentials of the row of column means. -/
def aL : EReal := Ideal.ofBits .f32 0x00000000#32 + ∑ d : Fin 401408, Ideal.exp (cA x0 d - aM x0)

/-- Its log-softmax at column `d`. -/
def aLp (d : Fin 401408) : EReal := (cA x0 d - aM x0) - Ideal.log (aL x0)

theorem v10m_apply (d : Fin 401408) : val_main_v10 (F := Ideal) x0 (ix1 d) = cA x0 d := by
  have h1 : (val_main_cst_2 (F := Ideal)) (Shape.Idx.first h_S_) = Ideal.ofBits .f32 0x00000000#32 := rfl
  have h2 : (∑ k : Fin 256, val_main_v0 (F := Ideal) x0 (idx_main_v8 (ix1 d) k)) = ∑ k : Fin 256, Xm x0 (ix2 k d) :=
    Finset.sum_congr rfl fun k _ => congrArg (val_main_v0 (F := Ideal) x0)
      (funext fun a => Fin.ext (by match a with | ⟨0, _⟩ => rfl | ⟨1, _⟩ => rfl))
  have h8 := (val_main_v8_apply x0 (ix1 d)).trans (congrArg₂ (fun p q : EReal => p + q) h1 h2)
  have h9 : val_main_v9 (F := Ideal) (ix1 d) = Ideal.ofBits .f32 0x43800000#32 := (val_main_v9_apply (ix1 d)).trans rfl
  unfold cA
  exact (val_main_v10_apply x0 (ix1 d)).trans ((congrArg₂ (FloatOps.hostDivf (F := Ideal) (φ := .f32)) h8 h9).trans (div_eq _ _))

theorem c4_apply (d : Fin 401408) : val_main_call1_v4 (F := Ideal) x0 (ix1 d) = cA x0 d - aM x0 := by
  have h3 : val_main_call1_v3 (F := Ideal) x0 (ix1 d) = aM x0 :=
    (val_main_call1_v3_apply x0 (ix1 d)).trans (val_main_call1_v2_apply x0 _)
  exact (val_main_call1_v4_apply x0 (ix1 d)).trans
    ((congrArg₂ (FloatOps.subf (F := Ideal) (φ := .f32)) (v10m_apply x0 d) h3).trans (sub_eq _ _))

theorem c6_apply : val_main_call1_v6 (F := Ideal) x0 ix0 = aL x0 := by
  have h1 : (val_main_call1_cst_1 (F := Ideal)) (Shape.Idx.first h_S_) = Ideal.ofBits .f32 0x00000000#32 := rfl
  have h2 : (∑ j : S401408.Idx, val_main_call1_v5 (F := Ideal) x0 j) = ∑ d : Fin 401408, Ideal.exp (cA x0 d - aM x0) :=
    (sum_idx1 _).trans (Finset.sum_congr rfl fun d _ => (val_main_call1_v5_apply x0 (ix1 d)).trans
      ((congrArg (FloatOps.hostUnary (F := Ideal) (φ := .f32) .exp) (c4_apply x0 d)).trans (exp_eq _)))
  unfold aL
  exact (val_main_call1_v6_apply x0 ix0).trans (congrArg₂ (fun p q : EReal => p + q) h1 h2)

theorem v11_apply (d : Fin 401408) : val_main_v11 (F := Ideal) x0 (ix1 d) = aLp x0 d := by
  have h9 : val_main_call1_v9 (F := Ideal) x0 (ix1 d) = Ideal.log (aL x0) :=
    (val_main_call1_v9_apply x0 (ix1 d)).trans ((val_main_call1_v8_apply x0 _).trans
      ((congrArg (FloatOps.hostUnary (F := Ideal) (φ := .f32) .log) ((val_main_call1_v7_apply x0 _).trans (c6_apply x0))).trans (log_eq _)))
  unfold aLp
  exact (val_main_v11_apply x0 (ix1 d)).trans
    ((congrArg₂ (FloatOps.subf (F := Ideal) (φ := .f32)) (c4_apply x0 d) h9).trans (sub_eq _ _))

/-- The second result. -/
theorem L2_eq : val_main_v14 (F := Ideal) x0 ix0
    = Ideal.ofBits .f32 0x00000000#32 + ∑ d : Fin 401408, Ideal.exp (aLp x0 d) * aLp x0 d := by
  have h1 : (val_main_cst_4 (F := Ideal)) (Shape.Idx.first h_S_) = Ideal.ofBits .f32 0x00000000#32 := rfl
  have h13 : ∀ d : Fin 401408, val_main_v13 (F := Ideal) x0 (ix1 d) = Ideal.exp (aLp x0 d) * aLp x0 d := fun d =>
    (val_main_v13_apply x0 (ix1 d)).trans ((congrArg₂ (FloatOps.mulf (F := Ideal) (φ := .f32))
      ((val_main_v12_apply x0 (ix1 d)).trans ((congrArg (FloatOps.hostUnary (F := Ideal) (φ := .f32) .exp) (v11_apply x0 d)).trans (exp_eq _)))
      (v11_apply x0 d)).trans (mul_eq _ _))
  have h2 : (∑ j : S401408.Idx, val_main_v13 (F := Ideal) x0 j) = ∑ d : Fin 401408, Ideal.exp (aLp x0 d) * aLp x0 d :=
    (sum_idx1 _).trans (Finset.sum_congr rfl fun d _ => h13 d)
  exact (val_main_v14_apply x0 ix0).trans (congrArg₂ (fun p q : EReal => p + q) h1 h2)

end Cert.ReferenceIdeal.Formula

end
-- ==== Proof.RefFormula.lean ====
import proofs.«169014_j74002286510759_2_alg».proof.Proof.RefValue
import proofs.«169014_j74002286510759_2_alg».proof.Proof.EntropyBridge
import proofs.«169014_j74002286510759_2_alg».proof.Proof.KernelTail
import proofs.«169014_j74002286510759_2_alg».proof.Proof.TilePayload

/-!
# The reference's two results for a matrix of real numbers

For a matrix of reals every shift the reference uses (a row's maximum, the maximum of the column means) is a real number, the
column means are the real means, and the two results are: the mean over the rows of minus the row's `Σ p log p`, and the
`Σ p log p` of the row of column means — the forms the row law speaks of.
-/

noncomputable section

namespace Cert.ReferenceIdeal.Formula

open Cert.ReferenceIdeal Cert.ReferenceIdeal.Gen Cert.ReferenceIdeal.Read Idealize.ShloMosaic Idealize.ShloMosaic.ValueIdx
open EntropyBridge
open Cert.KernelIdeal.Tail (ofBits_neg_inf ofBits_256)
open Cert.KernelIdeal.Tile (lift_axis1)

/-- The host's reduce with a maximum body along the rows of an `[m, n]` array, started from an initial value that is -∞, at row `r`:
    the running maximum from -∞ of that row. -/
theorem hostReduce_max_cols {m n : ℕ} (x : FVec Ideal ⟨2, ![m, n]⟩ .f32) (init : (⟨0, ![]⟩ : Shape).Idx → EReal)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (hinit : init (Shape.Idx.first hu) = (⊥ : EReal)) (r : Fin m) :
    Host.reduce (FloatOps.maximumf (F := Ideal) (φ := .f32)) x init h' hu (ix1 r)
      = Finset.univ.fold max (⊥ : EReal) (fun d : Fin n => x (ix2 r d)) := by
  rw [Host.reduce_eq_fold_single FloatOps.maximumf x init h' h hu, hinit]
  exact congrArg (fun f => Finset.fold max (⊥ : EReal) f (Finset.univ : Finset (Fin n))) (funext fun k => congrArg x (lift_axis1 h r k))

/-- The same for an `[m]` vector reduced to one number. -/
theorem hostReduce_max_all {m : ℕ} (x : FVec Ideal ⟨1, ![m]⟩ .f32) (init : (⟨0, ![]⟩ : Shape).Idx → EReal)
    (h' : (⟨1, ![m]⟩ : Shape).ReducesTo [0] (⟨0, ![]⟩ : Shape)) (hu : 0 < (⟨0, ![]⟩ : Shape).numel)
    (hinit : init (Shape.Idx.first hu) = (⊥ : EReal)) :
    Host.reduce (FloatOps.maximumf (F := Ideal) (φ := .f32)) x init h' hu ix0
      = Finset.univ.fold max (⊥ : EReal) (fun g : Fin m => x (ix1 g)) := by
  rw [Host.reduce_eq_fold FloatOps.maximumf x init h' hu, Finset.filter_true_of_mem fun i _ => eq_ix0 _, hinit]
  have hm : (Finset.univ : Finset (⟨1, ![m]⟩ : Shape).Idx)
      = (Finset.univ : Finset (Fin m)).map (Cert.KernelIdeal.Tail.idxEquiv1 (n := m)).symm.toEmbedding :=
    (Finset.map_univ_equiv _).symm
  rw [hm, Finset.fold_map]
  rfl

variable (x0 : (⟨S256x14x14x2048, .f32⟩ : BufTy).Contents (Elt Ideal)) (Xr : Fin 256 → Fin 401408 → ℝ)
variable (hX : ∀ r d, Xm x0 (ix2 r d) = ((Xr r d : ℝ) : EReal))
include hX

/-- A row's shift is a real number. -/
theorem rM_real (r : Fin 256) : ∃ v : ℝ, rM x0 r = (v : EReal) := by
  have hx : ∀ d : Fin 401408, ∃ v : ℝ, val_main_v0 (F := Ideal) x0 (ix2 r d) = (v : EReal) := fun d => ⟨_, hX r d⟩
  obtain ⟨v, hv⟩ := EntropyLaw.fold_max_real (fun d : Fin 401408 => val_main_v0 (F := Ideal) x0 (ix2 r d)) hx
  have hc : val_main_call0_cst (F := Ideal) (Shape.Idx.first h_S_) = (⊥ : EReal) :=
    (val_main_call0_cst_apply _).trans ofBits_neg_inf
  have h0 : val_main_call0_v0 (F := Ideal) x0 (ix1 r) = (v : EReal) :=
    (hostReduce_max_cols (val_main_v0 (F := Ideal) x0) (val_main_call0_cst (F := Ideal)) reducesTo_S256x401408_S256_d1
      (by decide) h_S_ hc r).trans hv
  have h1 : val_main_call0_v1 (F := Ideal) (ix1 r) = (⊥ : EReal) :=
    (val_main_call0_v1_apply (ix1 r)).trans ((val_main_call0_cst_0_apply _).trans ofBits_neg_inf)
  refine ⟨v, ?_⟩
  unfold rM
  exact (val_main_call0_v2_apply x0 (ix1 r)).trans ((congrArg₂ (FloatOps.maximumf (F := Ideal) (φ := .f32)) h1 h0).trans
    ((max_eq _ _).trans (max_eq_right bot_le)))

/-- A row's `Σ p log p` in the reference's spelling is the row law's. -/
theorem row_form (r : Fin 256) :
    Ideal.ofBits .f32 0x00000000#32 + ∑ d : Fin 401408, Ideal.exp (rLp x0 r d) * rLp x0 r d
      = rowPlp (fun d => ((Xr r d : ℝ) : EReal)) (rM x0 r) := by
  have hL : rL x0 r = rowSum (fun d => ((Xr r d : ℝ) : EReal)) (rM x0 r) := by
    unfold rL rowSum
    exact congrArg₂ (fun p q : EReal => p + q) Ideal.ofBits_zero_f32
      (Finset.sum_congr rfl fun k _ => congrArg (fun s : EReal => Ideal.exp (s - rM x0 r)) (hX r k))
  have hlp : ∀ d, rLp x0 r d = rowLp (fun d => ((Xr r d : ℝ) : EReal)) (rM x0 r) d := fun d => by
    unfold rLp rowLp
    exact congrArg₂ (fun p q : EReal => (p - rM x0 r) - Ideal.log q) (hX r d) hL
  unfold rowPlp
  exact congrArg₂ (fun p q : EReal => p + q) Ideal.ofBits_zero_f32
    (Finset.sum_congr rfl fun d _ => congrArg (fun s : EReal => Ideal.exp s * s) (hlp d))

/-- THE FIRST RESULT. -/
theorem ref_L1 : val_main_v7 (F := Ideal) x0 ix0
    = Ideal.div (0 + ∑ r : Fin 256, -(rowPlp (fun d => ((Xr r d : ℝ) : EReal)) (rM x0 r))) ((256 : ℝ) : EReal) :=
  (L1_eq x0).trans (congrArg₂ Ideal.div
    (congrArg₂ (fun p q : EReal => p + q) Ideal.ofBits_zero_f32
      (Finset.sum_congr rfl fun r _ => congrArg (fun s : EReal => -s) (row_form x0 Xr hX r)))
    ofBits_256)

/-- A column's mean is the real mean. -/
theorem cA_eq (d : Fin 401408) : cA x0 d = ((colMean Xr d : ℝ) : EReal) := by
  have hs : (∑ k : Fin 256, Xm x0 (ix2 k d)) = ((∑ k : Fin 256, Xr k d : ℝ) : EReal) := by
    rw [EntropyLaw.coe_sum]
    exact Finset.sum_congr rfl fun k _ => hX k d
  unfold cA colMean
  rw [Ideal.ofBits_zero_f32, ofBits_256, hs, zero_add]
  exact div_256 _

/-- The shift of the row of column means is a real number. -/
theorem aM_real : ∃ v : ℝ, aM x0 = (v : EReal) := by
  have hx : ∀ d : Fin 401408, ∃ v : ℝ, val_main_v10 (F := Ideal) x0 (ix1 d) = (v : EReal) := fun d =>
    ⟨_, (v10m_apply x0 d).trans (cA_eq x0 Xr hX d)⟩
  obtain ⟨v, hv⟩ := EntropyLaw.fold_max_real (fun d : Fin 401408 => val_main_v10 (F := Ideal) x0 (ix1 d)) hx
  have hc : val_main_call1_cst (F := Ideal) (Shape.Idx.first h_S_) = (⊥ : EReal) :=
    (val_main_call1_cst_apply _).trans ofBits_neg_inf
  have h0 : val_main_call1_v0 (F := Ideal) x0 ix0 = (v : EReal) :=
    (hostReduce_max_all (val_main_v10 (F := Ideal) x0) (val_main_call1_cst (F := Ideal)) reducesTo_S401408_S_d0 h_S_ hc).trans hv
  have h1 : val_main_call1_cst_0 (F := Ideal) ix0 = (⊥ : EReal) := (val_main_call1_cst_0_apply _).trans ofBits_neg_inf
  refine ⟨v, ?_⟩
  unfold aM
  exact (val_main_call1_v1_apply x0 ix0).trans ((congrArg₂ (FloatOps.maximumf (F := Ideal) (φ := .f32)) h1 h0).trans
    ((max_eq _ _).trans (max_eq_right bot_le)))

/-- THE SECOND RESULT. -/
theorem ref_L2 : val_main_v14 (F := Ideal) x0 ix0 = rowPlp (fun d => ((colMean Xr d : ℝ) : EReal)) (aM x0) := by
  have hL : aL x0 = rowSum (fun d => ((colMean Xr d : ℝ) : EReal)) (aM x0) := by
    unfold aL rowSum
    exact congrArg₂ (fun p q : EReal => p + q) Ideal.ofBits_zero_f32
      (Finset.sum_congr rfl fun k _ => congrArg (fun s : EReal => Ideal.exp (s - aM x0)) (cA_eq x0 Xr hX k))
  have hlp : ∀ d, aLp x0 d = rowLp (fun d => ((colMean Xr d : ℝ) : EReal)) (aM x0) d := fun d => by
    unfold aLp rowLp
    exact congrArg₂ (fun p q : EReal => (p - aM x0) - Ideal.log q) (cA_eq x0 Xr hX d) hL
  refine (L2_eq x0).trans ?_
  unfold rowPlp
  exact congrArg₂ (fun p q : EReal => p + q) Ideal.ofBits_zero_f32
    (Finset.sum_congr rfl fun d _ => congrArg (fun s : EReal => Ideal.exp s * s) (hlp d))

end Cert.ReferenceIdeal.Formula

end
-- ==== Proof.LibFiniteEntry.lean ====
import Idealize.ShloMosaic.Lib.ReduceAll
import Idealize.ShloMosaic.Lib.ValueIdx
import Idealize.ShloMosaic.PureOps.Ideal

/-!
# A finiteness test read back at one entry

A test "every entry of `x` has absolute value below +∞" is the conjunction, over all indices, of the
one-bit comparisons `|x i| < +∞`. When the conjunction is 1, every comparison is 1, and an extended real
whose absolute value is strictly below +∞ is neither +∞ nor -∞: it is a real number.
-/

noncomputable section

namespace Idealize.ShloMosaic.FiniteEntry

open Idealize.ShloMosaic Idealize.ShloMosaic.ValueIdx

/-- The f32 word `0x7F800000` denotes +∞. -/
theorem ofBits_inf : Ideal.ofBits .f32 0x7F800000#32 = (⊤ : EReal) := by
  simp [Ideal.ofBits, Ideal.ieee]

/-- An extended real `x` with `max x (-x) < +∞` (as a one-bit comparison equal to 1) is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

instance : Subsingleton (⟨0, ![]⟩ : Shape).Idx := ⟨fun a b => funext fun d => d.elim0⟩

/-- The test `all (|x| < +∞)` over an array `x` of any shape `s`: if the reduction by `and` of the
    comparisons of `|x|` against the broadcast word of +∞ is 1, then every entry of `x` is a real number. -/
theorem real_of_all_abs_lt_inf {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt_inf (x i) (Host.reduce_andi_all _ _ hr hu ix0 e i)

end Idealize.ShloMosaic.FiniteEntry
-- ==== Proof.lean ====
/- The two programs compute one function.

   The kernel program cuts each row of the 256 × 401408 matrix into 49 chunks, keeps per chunk a maximum, a sum of shifted
   exponentials and a shifted-back weighted sum, and merges the chunks with the usual re-weighting `exp (chunk max - row max)`;
   from the merged sums it forms `M + log L - S / L`, the entropy of the row's softmax, averages it over the rows (first
   result), and does the same, negated, for the one row of column means (second result). The reference computes
   `-Σ p log p` from `log_softmax` of whole rows. On real numbers the shifts cancel (`exp (a - m) · exp (m - M) = exp (a - M)`),
   so both are `log Z - W / Z` with `Z = Σ exp x`, `W = Σ x exp x`; the precondition makes every entry a real number, which is
   what the cancellation needs (it fails at infinities).

   The frames of the two kernel programs are the generated ones; the reference's frame is its run with the results dropped;
   the idealization rewrote nothing, so `preserves` is trivial. -/
import proofs.«169014_j74002286510759_2_alg».proof.Defs
import proofs.«169014_j74002286510759_2_alg».proof.Proof.Gen.Kernel
import proofs.«169014_j74002286510759_2_alg».proof.Proof.Gen.Kernel.Frame
import proofs.«169014_j74002286510759_2_alg».proof.Proof.Gen.KernelIdeal
import proofs.«169014_j74002286510759_2_alg».proof.Proof.Gen.KernelIdeal.Frame
import proofs.«169014_j74002286510759_2_alg».proof.Proof.Gen.ReferenceIdeal
import proofs.«169014_j74002286510759_2_alg».proof.Proof.Gen.Pre_finite_inputs
import proofs.«169014_j74002286510759_2_alg».proof.Proof.KernelRun
import proofs.«169014_j74002286510759_2_alg».proof.Proof.KernelFormula
import proofs.«169014_j74002286510759_2_alg».proof.Proof.RefRunHand
import proofs.«169014_j74002286510759_2_alg».proof.Proof.RefFormula
import proofs.«169014_j74002286510759_2_alg».proof.Proof.LibFiniteEntry
import Idealize.ShloMosaic.Adequacy
import Idealize.ShloMosaic.Init

noncomputable section

namespace Cert.Proof

open Idealize.ShloMosaic Idealize.ShloMosaic.TcCoe Idealize.SL.Sem Idealize.ShloMosaic.ValueIdx

/-- Every entry of an argument that passes the finiteness test is a real number. -/
theorem arg_real (x0 : (⟨Cert.Pre_finite_inputs.S256x14x14x2048, .f32⟩ : BufTy).Contents (Elt Ideal))
    (h : Cert.Pre_finite_inputs.fn (F := Ideal) x0 = fun _ => 1#1) (i : Cert.Pre_finite_inputs.S256x14x14x2048.Idx) :
    ∃ v : ℝ, x0 i = (v : EReal) := by
  have h0 := congrFun h ix0
  dsimp only [Cert.Pre_finite_inputs.fn] at h0
  exact Idealize.ShloMosaic.FiniteEntry.real_of_all_abs_lt_inf x0 _ _ _ h0 i

/-- For an argument of real numbers the reference's two results are the kernel program's: the merge chains of the six arrays
    of per-chunk statistics of the matrix. -/
theorem results_eq (x0 : (⟨Cert.KernelIdeal.S256x14x14x2048, .f32⟩ : BufTy).Contents (Elt Ideal))
    (hreal : ∀ i, ∃ v : ℝ, x0 i = (v : EReal)) :
    Cert.ReferenceIdeal.Read.val_main_v7 (F := Ideal) x0
        = Cert.KernelIdeal.Tail.tailL1
            (Cert.KernelIdeal.Whole.K1 (shapeCast Cert.KernelIdeal.S256x401408 x0 Cert.KernelIdeal.Facts₀.shapeCasts_S256x14x14x2048_S256x401408))
            (Cert.KernelIdeal.Whole.K2 (shapeCast Cert.KernelIdeal.S256x401408 x0 Cert.KernelIdeal.Facts₀.shapeCasts_S256x14x14x2048_S256x401408))
            (Cert.KernelIdeal.Whole.K3 (shapeCast Cert.KernelIdeal.S256x401408 x0 Cert.KernelIdeal.Facts₀.shapeCasts_S256x14x14x2048_S256x401408))
    ∧ Cert.ReferenceIdeal.Read.val_main_v14 (F := Ideal) x0
        = Cert.KernelIdeal.Tail.tailL2
            (Cert.KernelIdeal.Whole.K4 (shapeCast Cert.KernelIdeal.S256x401408 x0 Cert.KernelIdeal.Facts₀.shapeCasts_S256x14x14x2048_S256x401408))
            (Cert.KernelIdeal.Whole.K5 (shapeCast Cert.KernelIdeal.S256x401408 x0 Cert.KernelIdeal.Facts₀.shapeCasts_S256x14x14x2048_S256x401408))
            (Cert.KernelIdeal.Whole.K6 (shapeCast Cert.KernelIdeal.S256x401408 x0 Cert.KernelIdeal.Facts₀.shapeCasts_S256x14x14x2048_S256x401408)) := by
  -- the matrix, and that its entries are real
  have hXm : Cert.ReferenceIdeal.Formula.Xm x0
      = shapeCast Cert.KernelIdeal.S256x401408 x0 Cert.KernelIdeal.Facts₀.shapeCasts_S256x14x14x2048_S256x401408 := rfl
  have hXreal : ∀ i, ∃ v : ℝ, Cert.ReferenceIdeal.Formula.Xm x0 i = (v : EReal) := fun i => by
    obtain ⟨v, hv⟩ := hreal (Cert.ReferenceIdeal.Read.idx_main_v0 i)
    exact ⟨v, (Cert.ReferenceIdeal.Read.val_main_v0_apply x0 i).trans hv⟩
  obtain ⟨Xr, hXr⟩ := Cert.KernelIdeal.Whole.exists_coeMat (Cert.ReferenceIdeal.Formula.Xm x0) hXreal
  have hX : ∀ r d, Cert.ReferenceIdeal.Formula.Xm x0 (ix2 r d) = ((Xr r d : ℝ) : EReal) := fun r d =>
    congrFun hXr (ix2 r d)
  rw [← hXm, hXr]
  refine ⟨funext fun i => ?_, funext fun i => ?_⟩
  · rw [eq_ix0 i]
    exact (Cert.ReferenceIdeal.Formula.ref_L1 x0 Xr hX).trans
      (Cert.KernelIdeal.Whole.kernel_L1 Xr (fun r => Cert.ReferenceIdeal.Formula.rM x0 r)
        (fun r => Cert.ReferenceIdeal.Formula.rM_real x0 Xr hX r)).symm
  · rw [eq_ix0 i]
    exact (Cert.ReferenceIdeal.Formula.ref_L2 x0 Xr hX).trans
      (Cert.KernelIdeal.Whole.kernel_L2 Xr (Cert.ReferenceIdeal.Formula.aM x0)
        (Cert.ReferenceIdeal.Formula.aM_real x0 Xr hX)).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Hand.run (F := Ideal) m ρ)

theorem preserves : Cert.preserves_Kernel_KernelIdeal := trivial

/-- At the extended reals, from memories that agree on the argument, both programs run and end with the same two results. -/
theorem algebraic : Cert.algebraic_KernelIdeal_ReferenceIdeal := by
  intro m ρ m' ρ' hpre hagree
  refine ⟨_, _, Cert.KernelIdeal.Whole.run m ρ, ?_⟩
  refine (θ_run Cert.ReferenceIdeal.defs _ _).mono (fun _ h c => ?_) (Cert.ReferenceIdeal.Hand.run (F := Ideal) m' ρ')
  obtain ⟨e7, e14⟩ := results_eq (m ((c.tc : Thread Cert.KernelIdeal.nD Cert.KernelIdeal.τ).loc Cert.KernelIdeal.main_arg0))
    (arg_real _ (hpre c))
  refine ⟨(h c).1.trans ?_, (h c).2.1.trans ?_, (h c).2.2⟩
  · rw [hagree c]; exact e7
  · rw [hagree c]; exact e14

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
